-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S8192x16 : Shape := ⟨2, ![8192, 16]⟩
abbrev S80x64 : Shape := ⟨2, ![80, 64]⟩
abbrev S64 : Shape := ⟨1, ![64]⟩
abbrev S128x64 : Shape := ⟨2, ![128, 64]⟩
abbrev S8192 : Shape := ⟨1, ![8192]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : IVec S8192 32) (main_v28 : IVec S_ 1) (main_v33 : IVec S8192 1) : IVec S_ 1 :=
  let main_c_12 : IVec S_ 1 := constantI S_ 1 1#1
  let main_v34 : IVec S_ 1 := (fun x v => Host.reduce IntOp.andi x v reducesTo_S8192_S_d0 h_S_) main_v33 main_c_12
  let main_v35 : IVec S_ 1 := andi main_v28 main_v34
  let main_c_13 : IVec S_ 32 := constantI S_ 32 0#32
  let main_v36 : IVec S8192 32 := broadcastInDim S8192 ![] bcast_S_S8192 main_c_13
  let main_v37 : IVec S8192 1 := cmpi .sge main_arg7 main_v36
  let main_c_14 : IVec S_ 32 := constantI S_ 32 20000#32
  let main_v38 : IVec S8192 32 := broadcastInDim S8192 ![] bcast_S_S8192 main_c_14
  let main_v39 : IVec S8192 1 := cmpi .slt main_arg7 main_v38
  let main_v40 : IVec S8192 1 := andi main_v37 main_v39
  let main_c_15 : IVec S_ 1 := constantI S_ 1 1#1
  let main_v41 : IVec S_ 1 := (fun x v => Host.reduce IntOp.andi x v reducesTo_S8192_S_d0 h_S_) main_v40 main_c_15
  let main_v42 : IVec S_ 1 := andi main_v35 main_v41
  main_v42

def fn_part1 {F : FTy → Type} [FloatOps F] (main_arg4 : FVec F S128x64 .f32) (main_arg5 : FVec F S64 .f32) (main_arg6 : IVec S8192 32) (main_arg7 : IVec S8192 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_c_10 : IVec S_ 32 := constantI S_ 32 0#32
  let main_v29 : IVec S8192 32 := broadcastInDim S8192 ![] bcast_S_S8192 main_c_10
  let main_v30 : IVec S8192 1 := cmpi .sge main_arg6 main_v29
  let main_c_11 : IVec S_ 32 := constantI S_ 32 20000#32
  let main_v31 : IVec S8192 32 := broadcastInDim S8192 ![] bcast_S_S8192 main_c_11
  let main_v32 : IVec S8192 1 := cmpi .slt main_arg6 main_v31
  let main_v33 : IVec S8192 1 := andi main_v30 main_v32
  fn_part2 (F := F) main_arg7 main_v28 main_v33

def fn {F : FTy → Type} [FloatOps F] (main_arg0 : FVec F S20000x64 .f32) (main_arg1 : FVec F S8192x16 .f32) (main_arg2 : FVec F S80x64 .f32) (main_arg3 : FVec F S64 .f32) (main_arg4 : FVec F S128x64 .f32) (main_arg5 : FVec F S64 .f32) (main_arg6 : IVec S8192 32) (main_arg7 : IVec S8192 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S80x64 .f32 := Host.absf main_arg2
  let main_cst_2 : FVec F S_ .f32 := constant S_ .f32 0x7F800000#32
  let main_v10 : FVec F S80x64 .f32 := broadcastInDim S80x64 ![] bcast_S_S80x64 main_cst_2
  let main_v11 : IVec S80x64 1 := cmpf .olt main_v9 main_v10
  let main_c_3 : IVec S_ 1 := constantI S_ 1 1#1
  let main_v12 : IVec S_ 1 := (fun x v => Host.reduce IntOp.andi x v reducesTo_S80x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S20000x64 : Shape := ⟨2, ![20000, 64]⟩
abbrev S8192x16 : Shape := ⟨2, ![8192, 16]⟩
abbrev S80x64 : Shape := ⟨2, ![80, 64]⟩
abbrev S64 : Shape := ⟨1, ![64]⟩
abbrev S128x64 : Shape := ⟨2, ![128, 64]⟩
abbrev S8192 : Shape := ⟨1, ![8192]⟩
abbrev S_ : Shape := ⟨0, ![]⟩
abbrev S8192x1 : Shape := ⟨2, ![8192, 1]⟩
abbrev S8192x64 : Shape := ⟨2, ![8192, 64]⟩
abbrev S64x64 : Shape := ⟨2, ![64, 64]⟩
abbrev S16x64 : Shape := ⟨2, ![16, 64]⟩
abbrev S1x64 : Shape := ⟨2, ![1, 64]⟩
abbrev S4096x64 : Shape := ⟨2, ![4096, 64]⟩
abbrev S4096x16 : Shape := ⟨2, ![4096, 16]⟩
abbrev S1x8192 : Shape := ⟨2, ![1, 8192]⟩
abbrev S2048x1 : Shape := ⟨2, ![2048, 1]⟩
abbrev S1x2048 : Shape := ⟨2, ![1, 2048]⟩
abbrev S2048x64 : Shape := ⟨2, ![2048, 64]⟩
abbrev S2048x2048 : Shape := ⟨2, ![2048, 2048]⟩

abbrev nBuf : Space → Nat
  | .hbm => 48
  | .vmem => 25
  | .smem => 0
  | _ => 0

abbrev bufTy : (tb : Table) → Fin (tcTables nBuf tb) → BufTy
  | .hbm, ⟨0, _⟩ => ⟨S20000x64, .f32⟩
  | .hbm, ⟨1, _⟩ => ⟨S8192x16, .f32⟩
  | .hbm, ⟨2, _⟩ => ⟨S80x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x64, .f32⟩
  | .hbm, ⟨17, _⟩ => ⟨S64x64, .f32⟩
  | .hbm, ⟨18, _⟩ => ⟨S16x64, .f32⟩
  | .hbm, ⟨19, _⟩ => ⟨S1x64, .f32⟩
  | .hbm, ⟨20, _⟩ => ⟨S8192x64, .f32⟩
  | .hbm, ⟨21, _⟩ => ⟨S_, .f32⟩
  | .hbm, ⟨22, _⟩ => ⟨S20000x64, .f32⟩
  | .hbm, ⟨23, _⟩ => ⟨S8192x1, .i32⟩
  | .hbm, ⟨24, _⟩ => ⟨S20000x64, .f32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x64, .f32⟩
  | .hbm, ⟨34, _⟩ => ⟨S64x64, .f32⟩
  | .hbm, ⟨35, _⟩ => ⟨S64x64, .f32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S1x8192, .i32⟩
  | .hbm, ⟨46, _⟩ => ⟨S1x64, .f32⟩
  | .hbm, ⟨47, _⟩ => ⟨S8192x64, .f32⟩
  | .local _ .vmem, ⟨0, _⟩ => ⟨S4096x64, .f32⟩
  | .local _ .vmem, ⟨1, _⟩ => ⟨S4096x64, .f32⟩
  | .local _ .vmem, ⟨2, _⟩ => ⟨S4096x16, .f32⟩
  | .local _ .vmem, ⟨3, _⟩ => ⟨S4096x16, .f32⟩
  | .local _ .vmem, ⟨4, _⟩ => ⟨S64x64, .f32⟩
  | .local _ .vmem, ⟨5, _⟩ => ⟨S16x64, .f32⟩
  | .local _ .vmem, ⟨6, _⟩ => ⟨S1x64, .f32⟩
  | .local _ .vmem, ⟨7, _⟩ => ⟨S4096x64, .f32⟩
  | .local _ .vmem, ⟨8, _⟩ => ⟨S4096x64, .f32⟩
  | .local _ .vmem, ⟨9, _⟩ => ⟨S2048x1, .i32⟩
  | .local _ .vmem, ⟨10, _⟩ => ⟨S2048x1, .i32⟩
  | .local _ .vmem, ⟨11, _⟩ => ⟨S1x2048, .i32⟩
  | .local _ .vmem, ⟨12, _⟩ => ⟨S1x2048, .i32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S64x64, .f32⟩
  | .local _ .vmem, ⟨20, _⟩ => ⟨S64x64, .f32⟩
  | .local _ .vmem, ⟨21, _⟩ => ⟨S1x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_10 : BitVec 32 := 0#32
  let v24 : BitVec 1 := Scalar.cmpi .ne v23 c0_i32_10
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2048x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S80x64_S64x64_0_0 : S80x64.Slices ![0, 0] S64x64
  slices_S80x64_S16x64_64_0 : S80x64.Slices ![64, 0] S16x64
  shapeCasts_S64_S1x64 : S64.ShapeCasts S1x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S4096x16_S4096x16_0_0 : ∀ a, (![0, 0] : Fin 2 → Nat) a + S4096x16.size a ≤ S4096x16.size a
  h_S4096x16 : 0 < S4096x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  bcast_S_S20000x64 : S_.BroadcastsInDim S20000x64 (![] : Fin 0 → Fin S20000x64.rank)
  slices_S128x64_S64x64_0_0 : S128x64.Slices ![0, 0] S64x64
  slices_S128x64_S64x64_64_0 : S128x64.Slices ![64, 0] S64x64
  shapeCasts_S8192_S8192x1 : S8192.ShapeCasts S8192x1
  shapeCasts_S8192_S1x8192 : S8192.ShapeCasts S1x8192
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  broadcasts_S1x64_S2048x64 : S1x64.Broadcasts S2048x64
  gather_S20000x64_S8192x1_S8192x64_1_0_n_n_0_1_164_wf : GatherDims.WF S20000x64 S8192x1 S8192x64 [1] [0] [] [0] [] 1 ![1, 64]
  dot_S4096x64_S64x64_S4096x64_1_0_0_1_n_n_wf : DotDims.WF S4096x64 S64x64 S4096x64 [1] [0] [0] [1] [] []
  dot_S4096x16_S16x64_S4096x64_1_0_0_1_n_n_wf : DotDims.WF S4096x16 S16x64 S4096x64 [1] [0] [0] [1] [] []
  scatter_S20000x64_S8192x1_S8192x64_1_0_0_1_wf : ScatterDims.WF S20000x64 S8192x1 S8192x64 [1] [0] [0] 1
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S8192x64.size a
  hwx0_0 : ∀ i : grid0.Coords, EltTy.bits .f32 = 32 ∨ (Rect.block (s := S8192x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S8192x16.size a
  hwx0_1 : ∀ i : grid0.Coords, EltTy.bits .f32 = 32 ∨ (Rect.block (s := S8192x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S8192x64.size a
  hwx0_5 : ∀ i : grid0.Coords, EltTy.bits .f32 = 32 ∨ (Rect.block (s := S8192x64) S4096x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S8192x1.size a
  hwx1_0 : ∀ i : grid1.Coords, EltTy.bits .i32 = 32 ∨ (Rect.block (s := S8192x1) S2048x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x8192.size a
  hwx1_1 : ∀ i : grid1.Coords, EltTy.bits .i32 = 32 ∨ (Rect.block (s := S1x8192) S1x2048.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S8192x64.size a
  hwx1_3 : ∀ i : grid1.Coords, EltTy.bits .f32 = 32 ∨ (Rect.block (s := S8192x64) S2048x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x64.size a ≤ S8192x64.size a
  hwx1_4 : ∀ i : grid1.Coords, EltTy.bits .f32 = 32 ∨ (Rect.block (s := S8192x64) S2048x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x64.size a ≤ S8192x64.size a
  hwx1_8 : ∀ i : grid1.Coords, EltTy.bits .f32 = 32 ∨ (Rect.block (s := S8192x64) S2048x64.size (cc1_transform_8 i) (hinb1_8 i)).WholeWords (EltTy.packing .f32)

variable [Facts₀]

def gather_S20000x64_S8192x1_S8192x64_1_0_n_n_0_1_164 : GatherDims S20000x64 S8192x1 S8192x64 where
  offsetDims := [1]
  collapsedSliceDims := [0]
  operandBatchingDims := []
  startIndicesBatchingDims := []
  startIndexMap := [0]
  indexVectorDim := 1
  sliceSizes := ![1, 64]
  wf := gather_S20000x64_S8192x1_S8192x64_1_0_n_n_0_1_164_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x16_S16x64_S4096x64_1_0_0_1_n_n : DotDims S4096x16 S16x64 S4096x64 where
  lhsContracting := [1]
  rhsContracting := [0]
  lhsNonContracting := [0]
  rhsNonContracting := [1]
  lhsBatch := []
  rhsBatch := []
  wf := dot_S4096x16_S16x64_S4096x64_1_0_0_1_n_n_wf
def scatter_S20000x64_S8192x1_S8192x64_1_0_0_1 : ScatterDims S20000x64 S8192x1 S8192x64 where
  updateWindowDims := [1]
  insertedWindowDims := [0]
  scatterDimsToOperandDims := [0]
  indexVectorDim := 1
  wf := scatter_S20000x64_S8192x1_S8192x64_1_0_0_1_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v6) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S2048x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32) S2048x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S20000x64 : Shape := ⟨2, ![20000, 64]⟩
abbrev S8192x16 : Shape := ⟨2, ![8192, 16]⟩
abbrev S80x64 : Shape := ⟨2, ![80, 64]⟩
abbrev S64 : Shape := ⟨1, ![64]⟩
abbrev S128x64 : Shape := ⟨2, ![128, 64]⟩
abbrev S8192 : Shape := ⟨1, ![8192]⟩
abbrev S_ : Shape := ⟨0, ![]⟩
abbrev S8192x1 : Shape := ⟨2, ![8192, 1]⟩
abbrev S8192x64 : Shape := ⟨2, ![8192, 64]⟩
abbrev S8192x80 : Shape := ⟨2, ![8192, 80]⟩
abbrev S1x64 : Shape := ⟨2, ![1, 64]⟩
abbrev S1x8192 : Shape := ⟨2, ![1, 8192]⟩
abbrev S8192x8192 : Shape := ⟨2, ![8192, 8192]⟩
abbrev S8192x128 : Shape := ⟨2, ![8192, 128]⟩

abbrev nBuf : Space → Nat
  | .hbm => 54
  | .vmem => 0
  | .smem => 0
  | _ => 0

abbrev bufTy : (tb : Table) → Fin (tcTables nBuf tb) → BufTy
  | .hbm, ⟨0, _⟩ => ⟨S20000x64, .f32⟩
  | .hbm, ⟨1, _⟩ => ⟨S8192x16, .f32⟩
  | .hbm, ⟨2, _⟩ => ⟨S80x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x64, .f32⟩
  | .hbm, ⟨17, _⟩ => ⟨S8192x80, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S20000x64, .f32⟩
  | .hbm, ⟨24, _⟩ => ⟨S8192x1, .i32⟩
  | .hbm, ⟨25, _⟩ => ⟨S20000x64, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x64, .f32⟩
  | .hbm, ⟨35, _⟩ => ⟨S8192x1, .i32⟩
  | .hbm, ⟨36, _⟩ => ⟨S1x8192, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S8192x1, .i32⟩
  | .hbm, ⟨41, _⟩ => ⟨S1x8192, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .f32⟩
  | .hbm, ⟨47, _⟩ => ⟨S8192x64, .f32⟩
  | .hbm, ⟨48, _⟩ => ⟨S8192x64, .f32⟩
  | .hbm, ⟨49, _⟩ => ⟨S8192x128, .f32⟩
  | .hbm, ⟨50, _⟩ => ⟨S8192x64, .f32⟩
  | .hbm, ⟨51, _⟩ => ⟨S1x64, .f32⟩
  | .hbm, ⟨52, _⟩ => ⟨S8192x64, .f32⟩
  | .hbm, ⟨53, _⟩ => ⟨S8192x64, .f32⟩
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x64_S8192x16_S8192x80_d1 : Shape.Concatenates [S8192x64, S8192x16] S8192x80 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S20000x64 : S_.BroadcastsInDim S20000x64 (![] : Fin 0 → Fin S20000x64.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  concatenates_S8192x64_S8192x64_S8192x128_d1 : Shape.Concatenates [S8192x64, S8192x64] S8192x128 1
  gather_S20000x64_S8192x1_S8192x64_1_0_n_n_0_1_164_wf : GatherDims.WF S20000x64 S8192x1 S8192x64 [1] [0] [] [0] [] 1 ![1, 64]
  dot_S8192x80_S80x64_S8192x64_1_0_0_1_n_n_wf : DotDims.WF S8192x80 S80x64 S8192x64 [1] [0] [0] [1] [] []
  scatter_S20000x64_S8192x1_S8192x64_1_0_0_1_wf : ScatterDims.WF S20000x64 S8192x1 S8192x64 [1] [0] [0] 1
  dot_S8192x8192_S8192x64_S8192x64_1_0_0_1_n_n_wf : DotDims.WF S8192x8192 S8192x64 S8192x64 [1] [0] [0] [1] [] []
  dot_S8192x128_S128x64_S8192x64_1_0_0_1_n_n_wf : DotDims.WF S8192x128 S128x64 S8192x64 [1] [0] [0] [1] [] []

variable [Facts₀]

def gather_S20000x64_S8192x1_S8192x64_1_0_n_n_0_1_164 : GatherDims S20000x64 S8192x1 S8192x64 where
  offsetDims := [1]
  collapsedSliceDims := [0]
  operandBatchingDims := []
  startIndicesBatchingDims := []
  startIndexMap := [0]
  indexVectorDim := 1
  sliceSizes := ![1, 64]
  wf := gather_S20000x64_S8192x1_S8192x64_1_0_n_n_0_1_164_wf
def dot_S8192x80_S80x64_S8192x64_1_0_0_1_n_n : DotDims S8192x80 S80x64 S8192x64 where
  lhsContracting := [1]
  rhsContracting := [0]
  lhsNonContracting := [0]
  rhsNonContracting := [1]
  lhsBatch := []
  rhsBatch := []
  wf := dot_S8192x80_S80x64_S8192x64_1_0_0_1_n_n_wf
def scatter_S20000x64_S8192x1_S8192x64_1_0_0_1 : ScatterDims S20000x64 S8192x1 S8192x64 where
  updateWindowDims := [1]
  insertedWindowDims := [0]
  scatterDimsToOperandDims := [0]
  indexVectorDim := 1
  wf := scatter_S20000x64_S8192x1_S8192x64_1_0_0_1_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.KRegion0.lean ====
/- Region 0 of @main (the dense layer kernel on a grid of two points), at the TensorCore's buffer contents `V`
   when the region is entered: each window's block at a point, what the body leaves in the output window's
   buffer from the five input blocks, the body's triple, the pipeline's proof data and its body obligation. -/
import proofs.«175327_j12429635354789_2_alg».proof.Proof.Gen.Kernel.Launch
import proofs.«175327_j12429635354789_2_alg».proof.Proof.Gen.Kernel.Skeleton
import proofs.«175327_j12429635354789_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes: the structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x64 := Rect.unit (s := S4096x64) ![0, 0] S4096x64.size inb_S4096x64_S4096x64_0_0
abbrev r0_1 : Rect S4096x16 := Rect.unit (s := S4096x16) ![0, 0] S4096x16.size inb_S4096x16_S4096x16_0_0
abbrev r0_2 : Rect S64x64 := Rect.unit (s := S64x64) ![0, 0] S64x64.size inb_S64x64_S64x64_0_0
abbrev r0_3 : Rect S16x64 := Rect.unit (s := S16x64) ![0, 0] S16x64.size inb_S16x64_S16x64_0_0
abbrev r0_4 : Rect S1x64 := Rect.unit (s := S1x64) ![0, 0] S1x64.size inb_S1x64_S1x64_0_0

/-! ## What the body leaves in the output window's buffer -/

/-- Window 5's staging buffer after the body, from the input windows' blocks: its one store as a piece. -/
def out0_5 (x0 : Vec F S4096x64 .f32) (x1 : Vec F S4096x16 .f32) (x2 : Vec F S64x64 .f32) (x3 : Vec F S16x64 .f32) (x4 : Vec F S1x64 .f32) : Vec F S4096x64 .f32 :=
  View.canon [⟨r0_0, k0_pay1 (View.ld x0 r0_0) (View.ld x1 r0_1) (View.ld x2 r0_2) (View.ld x3 r0_3) (View.ld x4 r0_4)⟩]

/-- The store tiles the buffer, so it covers it. -/
theorem cover0_5 (p0 : Vec F S4096x64 .f32) (y : S4096x64.Idx) :
    ∃ pc ∈ ([⟨r0_0, p0⟩] : List (View.Piece (Elt F) S4096x64 .f32)), y ∈ pc.1.set :=
  View.cover_of_tiled [⟨r0_0, p0⟩] S4096x64.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S4096x64 .f32) (harg1 : arg1.IsWhole) (arg2 : Memref sig .tc .vmem S4096x16 .f32) (harg2 : arg2.IsWhole) (arg3 : Memref sig .tc .vmem S64x64 .f32) (harg3 : arg3.IsWhole) (arg4 : Memref sig .tc .vmem S16x64 .f32) (harg4 : arg4.IsWhole) (arg5 : Memref sig .tc .vmem S1x64 .f32) (harg5 : arg5.IsWhole) (arg6 : Memref sig .tc .vmem S4096x64 .f32) (harg6 : arg6.IsWhole)
    (x0 : Vec F S4096x64 .f32) (x1 : Vec F S4096x16 .f32) (x2 : Vec F S64x64 .f32) (x3 : Vec F S16x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__dense2_kernel i arg1 harg1 arg2 harg2 arg3 harg3 arg4 harg4 arg5 harg5 arg6 harg6) K := by
  simp only [cc0__dense2_kernel_eq_skeleton]; unfold cc0__dense2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRun.lean ====
/-
  The run of the whole program, at any float instance. @main is four items in a row: a stretch of host operations, the
  first kernel's launch (edge states, 2 grid points), a second stretch of host operations, the second kernel's launch
  (16 grid points). Between two items every unscoped buffer of the core is held at a known contents, a fold from the
  launch memory: after a host stretch its operations applied, after a launch the launch's output array at what its
  write-backs leave and everything else as before. The second launch hands ONE array (the edge states) to two of its
  input windows: each holds it at half of the full share, the halves are split off the whole buffer at the launch's entry
  and put together again at its exit. The final memory is read against the last contents: every argument array is what it
  was at launch, and the result array is what the second launch's write-backs leave.
-/
import proofs.«175327_j12429635354789_2_alg».proof.Proof.KRegion0
import proofs.«175327_j12429635354789_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A core's unscoped buffer contents, read at the TensorCore's references. -/
abbrev Vals (F : FTy → Type) : Type := (c : Dev nD) → (b : Ref sig .tc) → Buf (Elt F) ((c : Thread nD τ).loc b)

/-- What the run needs of the second launch's proof data, whatever it is: its arrays are the entry contents; its
    invariant is made of the generator register and the scoped buffers no window stages, and gives them back; the two
    windows on the shared array hold the two halves of the full share, every other window the full share; nothing is owed. -/
structure Iface1 (d1 : Vals F → (c : Dev nD) → Dat τ (Elt F) Unit ℕ (UR sig nD τ) ℕ cfg1 c) : Prop where
  A : ∀ V c w, (d1 V c).A w = V c (Pipeline.arrRef spec1 w)
  Φin : ∀ V c, (iprop((∃ r, prngReg c r) ∗ Pipeline.scopedRest spec1 c) : sProp 𝕄) ⊢ (d1 V c).Φ 0
  Φout : ∀ V c, (d1 V c).Φ (Fin.last cfg1.N) ⊢ (iprop((∃ r, prngReg c r) ∗ Pipeline.scopedRest spec1 c) : sProp 𝕄)
  q2 : ∀ V c, (d1 V c).q 2 = fullShare.left
  q3 : ∀ V c, (d1 V c).q 3 = fullShare.right
  qfull : ∀ V c w, w ≠ 2 → w ≠ 3 → (d1 V c).q w = fullShare
  owed : ∀ V c t, (d1 V c).owed t = 0
  recd : ∀ V c t, (d1 V c).recorded t = Set.univ
  body : ∀ V c, BodyObligation (d1 V c) (defs₀ (F := F)) Variants.none () Set.univ

variable (m : (ℓ : Loc nD τ sig) → Buf (Elt F) ℓ) (ρ : Dev nD → PrngReg)
variable (d1 : Vals F → (c : Dev nD) → Dat τ (Elt F) Unit ℕ (UR sig nD τ) ℕ cfg1 c)

/-! ## The buffer contents between the items -/

/-- At launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
abbrev V1 : Vals F := fun c b => W1 m ρ c b
/-- After the first launch: its arrays at what the pipeline leaves, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Vals F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second launch's entry). -/
abbrev W3 : Dev nD → Valuation τ sig (Elt F) := fun c => StableHlo.after hostOps1 (W2 m ρ c)
abbrev V3 : Vals F := fun c b => W3 m ρ c b
/-- After the second launch: the result array at what its write-backs leave, everything else as entered (its input
    arrays are only read). -/
def W4 (c : Dev nD) : Valuation τ sig (Elt F) :=
  Function.update (W3 m ρ c) (Proc.devRef .tc main_v32) ((d1 (V3 m ρ) c).arrAt 8 cfg1.N)
abbrev V4 : Vals F := fun c b => W4 m ρ d1 c b
theorem W4_out (c : Dev nD) : W4 m ρ d1 c (Proc.devRef .tc main_v32) = (d1 (V3 m ρ) c).arrAt 8 cfg1.N := by
  unfold W4; exact Function.update_self ..
theorem W4_of_ne (c : Dev nD) (b : Ref sig .tc) (hb : b ≠ main_v32) :
    W4 m ρ d1 c (Proc.devRef .tc b) = W3 m ρ c (Proc.devRef .tc b) := by
  unfold W4; exact Function.update_of_ne (StableHlo.devRef_ne_of_ne hb) ..

/-! ## The second launch's arrays, window by window: one buffer behind two windows -/

section Shared
variable {d1} (I : Iface1 d1) (Vd V : Vals F) (c : Dev nD)
include I

theorem share1_0 : (d1 Vd c).share 0 = fullShare := by
  unfold Dat.share; rw [if_neg (by decide)]; exact I.qfull Vd c 0 (by decide) (by decide)
theorem share1_1 : (d1 Vd c).share 1 = fullShare := by
  unfold Dat.share; rw [if_neg (by decide)]; exact I.qfull Vd c 1 (by decide) (by decide)
theorem share1_2 : (d1 Vd c).share 2 = fullShare.left := by
  unfold Dat.share; rw [if_neg (by decide)]; exact I.q2 Vd c
theorem share1_3 : (d1 Vd c).share 3 = fullShare.right := by
  unfold Dat.share; rw [if_neg (by decide)]; exact I.q3 Vd c
theorem share1_4 : (d1 Vd c).share 4 = fullShare := by
  unfold Dat.share; rw [if_neg (by decide)]; exact I.qfull Vd c 4 (by decide) (by decide)
theorem share1_5 : (d1 Vd c).share 5 = fullShare := by
  unfold Dat.share; rw [if_neg (by decide)]; exact I.qfull Vd c 5 (by decide) (by decide)
theorem share1_6 : (d1 Vd c).share 6 = fullShare := by
  unfold Dat.share; rw [if_neg (by decide)]; exact I.qfull Vd c 6 (by decide) (by decide)
theorem share1_7 : (d1 Vd c).share 7 = fullShare := by
  unfold Dat.share; rw [if_neg (by decide)]; exact I.qfull Vd c 7 (by decide) (by decide)
theorem share1_8 : (d1 Vd c).share 8 = fullShare := by
  unfold Dat.share; rw [if_pos (by decide)]

/-- The second launch's arrays at contents read off V, one points-to per window: the shared array appears twice, once
    at each half of the full share. -/
theorem arrays1_eq (G : (w : Fin cfg1.W) → Buf (Elt F) ((cfg1.win w).arr.view.loc (c.tc : Thread nD τ)))
    (hG : ∀ w, G w = V c (Pipeline.arrRef spec1 w)) :
    ((d1 Vd c).arrays G : sProp 𝕄)
      = iprop((((c : Thread nD τ).loc main_v26) ↦{fullShare} V c main_v26)
          ∗ (((c : Thread nD τ).loc main_v30) ↦{fullShare} V c main_v30)
          ∗ (((c : Thread nD τ).loc main_v10) ↦{fullShare.left} V c main_v10)
          ∗ (((c : Thread nD τ).loc main_v10) ↦{fullShare.right} V c main_v10)
          ∗ (((c : Thread nD τ).loc main_v20) ↦{fullShare} V c main_v20)
          ∗ (((c : Thread nD τ).loc main_v21) ↦{fullShare} V c main_v21)
          ∗ (((c : Thread nD τ).loc main_v22) ↦{fullShare} V c main_v22)
          ∗ (((c : Thread nD τ).loc main_v31) ↦{fullShare} V c main_v31)
          ∗ (((c : Thread nD τ).loc main_v32) ↦{fullShare} V c main_v32)) := by
  have h1 : ((d1 Vd c).arrays G : sProp 𝕄)
      = bigSep Finset.univ fun w : Fin cfg1.W =>
          ((((c : Thread nD τ).loc (Pipeline.arrRef spec1 w)) ↦{(d1 Vd c).share w} V c (Pipeline.arrRef spec1 w)) : sProp 𝕄) := by
    unfold Dat.arrays
    exact bigSep_congr fun w _ => by rw [(arr_whole1 w).set_eq_univ, hG w]
  rw [h1, bigSep_W1]
  rw [share1_0 I Vd c, share1_1 I Vd c, share1_2 I Vd c, share1_3 I Vd c, share1_4 I Vd c, share1_5 I Vd c, share1_6 I Vd c,
    share1_7 I Vd c, share1_8 I Vd c]

end Shared

section Shared2
variable {d1} (I : Iface1 d1) (Vd V : Vals F) (c : Dev nD)

/-- The distinct buffers behind the second launch's arrays, listed. -/
theorem arrBufs1_eq :
    (Pipeline.arrBufs spec1 c (V c) : sProp 𝕄)
      = iprop((((c : Thread nD τ).loc main_v26) ↦{fullShare} V c main_v26)
          ∗ (((c : Thread nD τ).loc main_v30) ↦{fullShare} V c main_v30)
          ∗ (((c : Thread nD τ).loc main_v10) ↦{fullShare} V c main_v10)
          ∗ (((c : Thread nD τ).loc main_v20) ↦{fullShare} V c main_v20)
          ∗ (((c : Thread nD τ).loc main_v21) ↦{fullShare} V c main_v21)
          ∗ (((c : Thread nD τ).loc main_v22) ↦{fullShare} V c main_v22)
          ∗ (((c : Thread nD τ).loc main_v31) ↦{fullShare} V c main_v31)
          ∗ (((c : Thread nD τ).loc main_v32) ↦{fullShare} V c main_v32)) := by
  unfold Pipeline.arrBufs
  rw [BI.bigSep_eq_bigSepL_of_eq [main_v26, main_v30, main_v10, main_v20, main_v21, main_v22, main_v31, main_v32] (by decide) (by decide)]
  rfl

include I in
/-- ENTRY: the whole buffers make the launch's arrays, the shared one split into its two halves. -/
theorem arrays1_split (G : (w : Fin cfg1.W) → Buf (Elt F) ((cfg1.win w).arr.view.loc (c.tc : Thread nD τ)))
    (hG : ∀ w, G w = V c (Pipeline.arrRef spec1 w)) :
    (Pipeline.arrBufs spec1 c (V c) : sProp 𝕄) ⊢ (d1 Vd c).arrays G := by
  rw [arrBufs1_eq V c, arrays1_eq I Vd V c G hG]
  have hs : ((((c : Thread nD τ).loc main_v10) ↦{fullShare} V c main_v10) : sProp 𝕄)
      ⊢ iprop((((c : Thread nD τ).loc main_v10) ↦{fullShare.left} V c main_v10) ∗ (((c : Thread nD τ).loc main_v10) ↦{fullShare.right} V c main_v10)) :=
    (pointsTo_share (PosShare.mem_left_op_right fullShare)).1
  iintro ⟨H26, H30, H10, H20, H21, H22, H31, H32⟩
  ihave H := hs $$ H10
  icases H with ⟨HL, HR⟩
  isplitl [H26]; · iexact H26
  isplitl [H30]; · iexact H30
  isplitl [HL]; · iexact HL
  isplitl [HR]; · iexact HR
  isplitl [H20]; · iexact H20
  isplitl [H21]; · iexact H21
  isplitl [H22]; · iexact H22
  isplitl [H31]; · iexact H31
  iexact H32

include I in
/-- EXIT: the launch's arrays give the whole buffers back, the two halves of the shared one joined. -/
theorem arrays1_join (G : (w : Fin cfg1.W) → Buf (Elt F) ((cfg1.win w).arr.view.loc (c.tc : Thread nD τ)))
    (hG : ∀ w, G w = V c (Pipeline.arrRef spec1 w)) :
    ((d1 Vd c).arrays G : sProp 𝕄) ⊢ Pipeline.arrBufs spec1 c (V c) := by
  rw [arrBufs1_eq V c, arrays1_eq I Vd V c G hG]
  have hj : (iprop((((c : Thread nD τ).loc main_v10) ↦{fullShare.left} V c main_v10) ∗ (((c : Thread nD τ).loc main_v10) ↦{fullShare.right} V c main_v10)) : sProp 𝕄)
      ⊢ (((c : Thread nD τ).loc main_v10) ↦{fullShare} V c main_v10) :=
    (pointsTo_share (PosShare.mem_left_op_right fullShare)).2
  iintro ⟨H26, H30, HL, HR, H20, H21, H22, H31, H32⟩
  ihave H10 := hj $$ [HL HR]
  · isplitl [HL]; · iexact HL
    iexact HR
  isplitl [H26]; · iexact H26
  isplitl [H30]; · iexact H30
  isplitl [H10]; · iexact H10
  isplitl [H20]; · iexact H20
  isplitl [H21]; · iexact H21
  isplitl [H22]; · iexact H22
  isplitl [H31]; · iexact H31
  iexact H32

end Shared2

/-! ## The arguments, and the edge-state array's buffer, read back through the fold -/

section Back
variable {d1} (I : Iface1 d1)

/-- An array no host operation writes and no launch changes ends as launched. -/
theorem W4_arg (c : Dev nD) (b : Ref sig .tc) (h4 : b ≠ main_v32) (h3 : b ∉ hostOps1_W)
    (h2 : W2 m ρ c (Proc.devRef .tc b) = W1 m ρ c (Proc.devRef .tc b)) (h1 : b ∉ hostOps0_W) :
    W4 m ρ d1 c (Proc.devRef .tc b) = m ((c : Thread nD τ).loc b) :=
  calc W4 m ρ d1 c (Proc.devRef .tc b)
    _ = W3 m ρ c (Proc.devRef .tc b) := W4_of_ne m ρ d1 c b h4
    _ = W2 m ρ c (Proc.devRef .tc b) := StableHlo.after_of_writes_sub hostOps1 _ hostOps1_writes h3
    _ = W1 m ρ c (Proc.devRef .tc b) := h2
    _ = W0 m ρ c (Proc.devRef .tc b) := StableHlo.after_of_writes_sub hostOps0 _ hostOps0_writes h1
    _ = m ((c : Thread nD τ).loc b) := rfl

theorem W4_main_arg0 (c : Dev nD) : W4 m ρ d1 c (Proc.devRef .tc main_arg0) = m ((c : Thread nD τ).loc main_arg0) :=
  W4_arg m ρ c main_arg0 (by decide) (by decide) (W2_of_ne m ρ c main_arg0 (by decide)) (by decide)
theorem W4_main_arg1 (c : Dev nD) : W4 m ρ d1 c (Proc.devRef .tc main_arg1) = m ((c : Thread nD τ).loc main_arg1) :=
  W4_arg m ρ c main_arg1 (by decide) (by decide)
    ((W2_arr m ρ c 1).trans (((dat0 (V1 m ρ) c).arrAt_in 1 rfl _).trans (A_eq0 (V1 m ρ) c 1))) (by decide)
theorem W4_main_arg2 (c : Dev nD) : W4 m ρ d1 c (Proc.devRef .tc main_arg2) = m ((c : Thread nD τ).loc main_arg2) :=
  W4_arg m ρ c main_arg2 (by decide) (by decide) (W2_of_ne m ρ c main_arg2 (by decide)) (by decide)
theorem W4_main_arg3 (c : Dev nD) : W4 m ρ d1 c (Proc.devRef .tc main_arg3) = m ((c : Thread nD τ).loc main_arg3) :=
  W4_arg m ρ c main_arg3 (by decide) (by decide) (W2_of_ne m ρ c main_arg3 (by decide)) (by decide)
theorem W4_main_arg4 (c : Dev nD) : W4 m ρ d1 c (Proc.devRef .tc main_arg4) = m ((c : Thread nD τ).loc main_arg4) :=
  W4_arg m ρ c main_arg4 (by decide) (by decide) (W2_of_ne m ρ c main_arg4 (by decide)) (by decide)
theorem W4_main_arg5 (c : Dev nD) : W4 m ρ d1 c (Proc.devRef .tc main_arg5) = m ((c : Thread nD τ).loc main_arg5) :=
  W4_arg m ρ c main_arg5 (by decide) (by decide) (W2_of_ne m ρ c main_arg5 (by decide)) (by decide)
theorem W4_main_arg6 (c : Dev nD) : W4 m ρ d1 c (Proc.devRef .tc main_arg6) = m ((c : Thread nD τ).loc main_arg6) :=
  W4_arg m ρ c main_arg6 (by decide) (by decide) (W2_of_ne m ρ c main_arg6 (by decide)) (by decide)
theorem W4_main_arg7 (c : Dev nD) : W4 m ρ d1 c (Proc.devRef .tc main_arg7) = m ((c : Thread nD τ).loc main_arg7) :=
  W4_arg m ρ c main_arg7 (by decide) (by decide) (W2_of_ne m ρ c main_arg7 (by decide)) (by decide)

end Back

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => d1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tₙ (c : Dev nD) : sProp 𝕄 := iprop(StableHlo.held (c : Thread nD τ) (Pipeline.ucRefs τ sig) (W4 m ρ d1 c) ∗ ∃ r, prngReg c r)

/-! ## The launches as segments -/

set_option backward.isDefEq.respectTransparency.types false in
/-- The first launch: entered from every unscoped buffer at W1, left at W2. Its arrays are split out of the unscoped
    buffers and put back at the exit contents; the generator register goes into the invariant and comes out. -/
def reg0 : Pipeline.RegionSeg (pcfgs (F := F)) adm (pdats m ρ d1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ d1) launch0.win launch0.arr_whole c
      ((pdats m ρ d1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ d1) ((pdats m ρ d1 0 c).share_full fun _ => rfl)
      (V1 m ρ c) (V2 m ρ c) ((pdats m ρ d1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Reg1
variable {d1} (I : Iface1 d1)

/-- Only the last window of the second launch is an output, and only its array is the result array. -/
theorem isOut1_false : ∀ w : Fin cfg1.W, w ≠ 8 → (cfg1.win w).isOut = false := by decide
theorem arrRef1_ne : ∀ w : Fin cfg1.W, w ≠ 8 → Pipeline.arrRef spec1 w ≠ main_v32 := by decide

include I in
/-- What the second launch's arrays hold at its exit, against the last contents: its inputs were only read, its output
    is what the write-backs leave. -/
theorem hF1 (c : Dev nD) (w : Fin cfg1.W) : (d1 (V3 m ρ) c).arrAt w cfg1.N = V4 m ρ d1 c (Pipeline.arrRef spec1 w) := by
  by_cases h8 : w = 8
  · subst h8; exact (W4_out m ρ d1 c).symm
  · rw [(d1 (V3 m ρ) c).arrAt_in w (isOut1_false w h8), I.A]
    exact (W4_of_ne m ρ d1 c (Pipeline.arrRef spec1 w) (arrRef1_ne w h8)).symm

include I in
/-- ENTRY of the second launch: the core's unscoped buffers at the entry contents are its arrays (the shared buffer in
    two halves) and the rest. -/
theorem split1 (c : Dev nD) :
    (unscopedBufs c (V3 m ρ c) : sProp 𝕄)
      ⊢ iprop((d1 (V3 m ρ) c).arrays ((d1 (V3 m ρ) c).arrAt · 0) ∗ Pipeline.unscopedRest spec1 c (V3 m ρ c)) := by
  rw [Pipeline.unscopedBufs_split₀ (cfgs) 1 winFacts₀1.arr_unscoped c (V3 m ρ c)]
  exact sep_mono (arrays1_split I (V3 m ρ) (V3 m ρ) c _ fun w => I.A _ c w) .rfl

include I in
/-- EXIT of the second launch: its arrays at their final contents and the rest are the core's unscoped buffers at the
    last contents. -/
theorem join1 (c : Dev nD) :
    (iprop((d1 (V3 m ρ) c).arrays ((d1 (V3 m ρ) c).arrAt · cfg1.N) ∗ Pipeline.unscopedRest spec1 c (V3 m ρ c)) : sProp 𝕄)
      ⊢ unscopedBufs c (V4 m ρ d1 c) := by
  rw [Pipeline.unscopedBufs_split₀ (cfgs) 1 winFacts₀1.arr_unscoped c (V4 m ρ d1 c)]
  refine sep_mono (arrays1_join I (V3 m ρ) (V4 m ρ d1) c _ (hF1 m ρ I c)) (Entails.of_eq ?_)
  unfold Pipeline.unscopedRest
  exact bigSep_congr fun b hb => by
    have hne : b ≠ main_v32 := fun e => (Finset.mem_sdiff.mp hb).2 (Finset.mem_image.mpr ⟨8, Finset.mem_univ _, e ▸ rfl⟩)
    rw [show V4 m ρ d1 c b = V3 m ρ c b from W4_of_ne m ρ d1 c b hne]

set_option backward.isDefEq.respectTransparency.types false in
/-- The second launch: entered from every unscoped buffer at W3, left at W4; the generator register goes into the
    invariant, beside the scoped buffers no window stages (the accumulator among them), and comes out. -/
def reg1 : Pipeline.RegionSeg (pcfgs (F := F)) adm (pdats m ρ d1) () defs₀ 𝒱₀ L lv 1 where
  win := winFacts₀1
  block_pos := block_pos1
  stage_whole := stage_whole1
  K := PEmpty
  osem k := k.elim
  ho := Pipeline.OwnSemFacts.none _
  hbody c := (I.body (V3 m ρ) c).loose
  hwaits := Pipeline.hwaits_of_owed_zero _ _ _ _ L lv 1 fun c t => I.owed _ c t
  pre c := iprop(StableHlo.held (c : Thread nD τ) (Pipeline.ucRefs τ sig) (W3 m ρ c) ∗ R c)
  post c := iprop(Tₙ m ρ d1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ d1 1 c).arrays ((pdats m ρ d1 1 c).arrAt · 0) ∗ Pipeline.unscopedRest spec1 c (V3 m ρ c)) := split1 m ρ I c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ d1 1 c).owed 0 = 0 from I.owed _ c 0]
      icases HO with ⟨%W, HO⟩; iexists W; isplitr
      · ipureintro; exact fun _ _ => Or.inl (by rw [show (pdats m ρ d1 1 c).recorded 0 = Set.univ from I.recd _ c 0]; trivial)
      iexact HO
    isplitl [Hp]; · iexact Hp
    iexact Hrest
  hin c := by
    rw [show (pdats m ρ d1 1 c).Φ 0 = (d1 (V3 m ρ) c).Φ 0 from rfl]
    iintro ⟨Hp, -, Hr⟩
    iapply (I.Φin (V3 m ρ) c)
    isplitl [Hp]; · iexact Hp
    iexact Hr
  hout c := by
    rw [Pipeline.ownSems0_none, show (pdats m ρ d1 1 c).Φ (Fin.last _) = (d1 (V3 m ρ) c).Φ (Fin.last cfg1.N) from rfl]
    iintro H
    ihave H' := (I.Φout (V3 m ρ) c) $$ H
    icases H' with ⟨Hp, Hr⟩
    isplitl [Hp]; · iexact Hp
    isplitr; · iempintro
    iexact Hr
  hexit c := by
    have hjoin : (iprop((pdats m ρ d1 1 c).arrays ((pdats m ρ d1 1 c).arrAt · (Pipeline.pin (pcfgs (F := F)) adm 1).N)
          ∗ Pipeline.unscopedRest spec1 c (V3 m ρ c)) : sProp 𝕄) ⊢ unscopedBufs c (V4 m ρ d1 c) := join1 m ρ I c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ d1 1 c).owed (Fin.last (Pipeline.pin (pcfgs (F := F)) adm 1).N) = 0 from I.owed _ c _]
    icases HO with ⟨%W, -, HO⟩; iexists W; iexact HO

/-! ## @main as segments, and the launch -/

/-- @main's four items in order. -/
abbrev segs : List (Pipeline.Seg (pcfgs (F := F)) adm (pdats m ρ d1) () defs₀ 𝒱₀ L lv) :=
  [ .host (hseg hostOps0 hostOps0_sub hostOps0_fresh (W0 m ρ)),
    .region (reg0 m ρ d1),
    .host (hseg hostOps1 hostOps1_sub hostOps1_fresh (W2 m ρ)),
    .region (reg1 m ρ I) ]
include I in
/-- @main is the run of the segments. -/
theorem main_run (c : Dev nD) : main (F := F) c = Pipeline.Seg.run (segs m ρ I) := (main_chain c).trans (by chain_rfl)

include I in
set_option backward.isDefEq.respectTransparency.types false in
/-- THE RUN, at any float instance: from any memory with zero counters every weakly fair execution of @main terminates,
    nothing faulting; the result array ends at what the second launch's write-backs leave, and every argument array as
    launched. -/
theorem run : θ_run defs (onTc (τ := τ) (main (F := F))) ⟨m, fun _ => 0, ρ⟩ (fun r => ∀ c : Dev nD,
      r.2.mem ((c.tc : Thread nD τ).loc main_v32) = (d1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ d1) () cellOf_inj emb₁ defs₀ 𝒱₀ L lv m ρ main (segs m ρ I)
    (fun c Q => by rw [main_run m ρ I c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ d1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ d1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ d1 c) s')
      isplitl [Hh] <;> iassumption)
    (hQ := fun s h c =>
      ⟨(h c _ (mem_uc main_v32 (by decide))).trans (W4_out m ρ d1 c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Reg1

end Cert.Kernel.Hand

end
-- ==== Proof.LibStoreThenLoad.lean ====
/-
  A whole-buffer load after whole-buffer stores.

  When a buffer has been stored into several times and the LAST store covered the whole buffer, a load of the whole
  buffer reads that last store's value, whatever the earlier stores were.  (The library states this for a single store;
  a running value that is reset and then updated within one body is stored twice before it is read back.)
-/
import Idealize.ShloMosaic.Lib.Pipeline.Value

noncomputable section

namespace Cert.LibStoreThenLoad

open Idealize.ShloMosaic

/-- A load of a whole buffer after stores of which the last covered the whole buffer reads that last store's value. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.LibStoreThenLoad

end
-- ==== Proof.KRegion1Runs.lean ====
import proofs.«175327_j12429635354789_2_alg».proof.Proof.Gen.Kernel.Launch
import proofs.«175327_j12429635354789_2_alg».proof.Proof.Gen.Kernel.Skeleton
import proofs.«175327_j12429635354789_2_alg».proof.Proof.Gen.Kernel.Points
import proofs.«175327_j12429635354789_2_alg».proof.Proof.LibStoreThenLoad
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The condition of the body's first conditional (the running sum is reset), from the grid coordinates. -/
abbrev cond1_0 (i : grid1.Coords) : Prop := (Scalar.cmpi .ne (Scalar.extui (Scalar.cmpi .eq (BitVec.ofNat 32 (i 1).val) 0#32)) 0#32) = 1#1
/-- It holds exactly at the points whose column coordinate is 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the epilogue). -/
abbrev cond1_1 (i : grid1.Coords) : Prop := k1_cond2 i = 1#1
/-- It holds exactly at the points whose column coordinate is 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- Where the epilogue does not run the output window is idle, -/
theorem idleAt1_8 : ∀ t : Fin cfg1.N, ¬cond1_1 (grid1.coords t) → cfg1.idle 8 (grid1.coords t) = true := by decide +kernel
/-- and its block is not written back there. -/
theorem noFlush1_8 : ∀ t : Fin cfg1.N, ¬cond1_1 (grid1.coords t) → (cfg1.win 8).flush t = false := by decide +kernel
/-- Where the epilogue runs the output window is live. -/
theorem liveAt1_8 : ∀ t : Fin cfg1.N, cond1_1 (grid1.coords t) → cfg1.idle 8 (grid1.coords t) = false := by decide +kernel

/-- The zero offsets of a whole-buffer access, however spelt. -/
theorem hz2 : (![0, 0] : Fin 2 → ℕ) = fun _ => 0 := by
  funext a; fin_cases a <;> rfl

set_option maxHeartbeats 1000000 in
/-- CASE B (neither condition holds): the body adds this point's product to the running sum. On whole buffers, the
    three operands it reads at contents `x0 x1 x2` and the running sum at `s`, it runs to the continuation holding the
    operands as they were and the running sum at `k1_pay2 x0 x1 x2 s`. The other buffers are not touched. -/
theorem run1_B (c : Dev nD) (E : Set ℕ) (i : grid1.Coords) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2048x64 .f32) (harg10 : arg10.IsWhole) (arg11 : Memref sig .tc .vmem S2048x64 .f32) (harg11 : arg11.IsWhole)
    (hc0 : ¬cond1_0 i) (hc1 : ¬cond1_1 i)
    (x0 : Vec F S2048x1 .i32) (x1 : Vec F S1x2048 .i32) (x2 : Vec F S2048x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg11 fullShare (k1_pay2 x0 x1 x2 s)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero hz2 inb_S2048x64_S2048x64_0_0 y⟩),
    View.canon_cons_unit_zero hz2]
  simp only [View.readAt_eq_ld, View.readCov_unit_zero (S := S2048x64) _ hz2, View.ld_unit_zero (S := S2048x1) hz2,
    View.ld_unit_zero (S := S1x2048) hz2, View.ld_unit_zero (S := S2048x64) hz2, View.ld_unit_zero (S := S64x64) hz2,
    View.ld_unit_zero (S := S1x64) hz2]

set_option maxHeartbeats 1000000 in
/-- CASE A (the first condition holds, the second does not): the body resets the running sum to zero and adds this point's
    product to it. On whole buffers, the three operands it reads at contents `x0 x1 x2` and the running sum's buffer at
    anything, it runs to the continuation holding the operands as they were and the running sum at
    `k1_pay2 x0 x1 x2 k1_pay1`: the load that follows the reset reads the reset's value, the second store covers the
    buffer again. -/
theorem run1_A (c : Dev nD) (E : Set ℕ) (i : grid1.Coords) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2048x64 .f32) (harg10 : arg10.IsWhole) (arg11 : Memref sig .tc .vmem S2048x64 .f32) (harg11 : arg11.IsWhole)
    (hc0 : cond1_0 i) (hc1 : ¬cond1_1 i)
    (x0 : Vec F S2048x1 .i32) (x1 : Vec F S1x2048 .i32) (x2 : Vec F S2048x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg11 fullShare (k1_pay2 x0 x1 x2 (k1_pay1 (F := F)))) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero hz2 inb_S2048x64_S2048x64_0_0 y⟩),
    View.canon_cons_unit_zero hz2]
  simp only [View.readAt_eq_ld, View.readCov_unit_zero (S := S2048x64) _ hz2, View.ld_unit_zero (S := S2048x1) hz2,
    View.ld_unit_zero (S := S1x2048) hz2, View.ld_unit_zero (S := S2048x64) hz2, View.ld_unit_zero (S := S64x64) hz2,
    View.ld_unit_zero (S := S1x64) hz2]

set_option maxHeartbeats 2000000 in
/-- CASE C (the second condition holds, the first does not): the body adds this point's product to the running sum and
    then stores the epilogue's value into the output window. On whole buffers, the eight operands at contents
    `x0 … x7`, the output's buffer at anything and the running sum at `s`, it runs to the continuation holding the operands
    as they were, the running sum at `k1_pay2 x0 x1 x2 s` and the output's buffer at the epilogue's value of that sum. -/
theorem run1_C (c : Dev nD) (E : Set ℕ) (i : grid1.Coords) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2048x64 .f32) (harg10 : arg10.IsWhole) (arg11 : Memref sig .tc .vmem S2048x64 .f32) (harg11 : arg11.IsWhole)
    (hc0 : ¬cond1_0 i) (hc1 : cond1_1 i)
    (x0 : Vec F S2048x1 .i32) (x1 : Vec F S1x2048 .i32) (x2 : Vec F S2048x64 .f32) (x3 : Vec F S2048x64 .f32) (x4 : Vec F S2048x64 .f32)
    (x5 : Vec F S64x64 .f32) (x6 : Vec F S64x64 .f32) (x7 : Vec F S1x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay3 (k1_pay2 x0 x1 x2 s) x4 x3 x5 x6 x7) ∗ owns (c : Thread nD τ) arg11 fullShare (k1_pay2 x0 x1 x2 s)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero hz2 inb_S2048x64_S2048x64_0_0 y⟩),
      View.canon_cons_unit_zero hz2]
    simp only [View.readAt_eq_ld, View.readCov_unit_zero (S := S2048x64) _ hz2, View.ld_unit_zero (S := S2048x1) hz2,
      View.ld_unit_zero (S := S1x2048) hz2, View.ld_unit_zero (S := S2048x64) hz2, View.ld_unit_zero (S := S64x64) hz2,
      View.ld_unit_zero (S := S1x64) hz2]
  iexists _; isplitr
  swap; · iexact HS
  ipureintro
  sl_unfold_words
  rw [View.read_writes_eq_canon _ _ _ (fun y => ⟨_, List.mem_cons_self, View.mem_set_unit_zero hz2 inb_S2048x64_S2048x64_0_0 y⟩),
    View.canon_cons_unit_zero hz2]
  simp only [View.readAt_eq_ld, View.readCov_unit_zero (S := S2048x64) _ hz2, View.ld_unit_zero (S := S2048x1) hz2,
    View.ld_unit_zero (S := S1x2048) hz2, View.ld_unit_zero (S := S2048x64) hz2, View.ld_unit_zero (S := S64x64) hz2,
    View.ld_unit_zero (S := S1x64) hz2]

end Cert.Kernel.Hand

end
-- ==== Proof.KRegion1.lean ====
/-
  REGION 1 of @main (the fused kernel on the 4 x 4 grid), its half of the frame certificate, at a parameter `V`: the
  TensorCore's buffer contents when the region is entered.

  The body keeps a running sum in a scratch buffer that is carried from point to point: at the first point of each row of
  the grid (column 0) it is reset to zero, at every point the product of this point's mask tile with its operand block is
  added, and at the last point of each row (column 3) the epilogue reads the sum and stores the output window. So there
  are three control cases, told apart by the point's number modulo 4, each with its own run (in the runs module); what the
  scratch holds after each point is a recursion over the points (`accAt`), and the region's invariant carries it.

  Two of the windows read one array; they hold it at the two halves of the full share.
-/
import proofs.«175327_j12429635354789_2_alg».proof.Proof.KRegion1Runs
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index has
    not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: where the window is not fetched its block index has
    not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: where the window is not fetched its block index has
    not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: where the window is not fetched its block index has
    not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: where the window is not fetched its block index has
    not moved, so the block of the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: where the window is not fetched its block index has
    not moved, so the block of the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: where the window is not fetched its block index has
    not moved, so the block of the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: where the window is not fetched its block index has
    not moved, so the block of the point before is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs and the scratch -/

/-- Each window's current staging memref at point `t`, spelled as the pipeline passes it, and its wholeness. -/
abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x64 .f32 := win1_8.stage (cfg1.slots t 8)
abbrev hs1_8 (t : Fin cfg1.N) : (ms1_8 t).IsWhole := hstage1_8 ((cfg1.slots t 8).cast nbuf1_8)
/-- The scratch operand: a whole scoped buffer of the kernel's own, holding the running sum. -/
abbrev scM1 : Memref sig .tc .vmem S2048x64 .f32 := Memref.whole cc1_scratch0

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl

/-! ## What the running sum and the output hold after each point -/

/-- One point's update of the running sum `a`: this point's product added to it (past the grid nothing changes). -/
def accStep (c : Dev nD) (n : ℕ) (a : Vec F S2048x64 .f32) : Vec F S2048x64 .f32 :=
  if h : n < cfg1.N then k1_pay2 (iblk1 V c 0 ⟨n, h⟩) (iblk1 V c 1 ⟨n, h⟩) (iblk1 V c 2 ⟨n, h⟩) a else a

/-- THE ACCUMULATION. The running sum after the body at point number `n`: at the first point of each row of the grid
    (column 0) it restarts from zero, elsewhere it continues from the point before. -/
def accAt (c : Dev nD) : ℕ → Vec F S2048x64 .f32
  | 0 => accStep V c 0 (k1_pay1 (F := F))
  | n + 1 => accStep V c (n + 1) (if (n + 1) % 4 = 0 then k1_pay1 (F := F) else accAt c n)

/-- The same at a point of the grid. -/
def accAfter (c : Dev nD) (t : Fin cfg1.N) : Vec F S2048x64 .f32 := accAt V c t.val

/-- Its recursion, at a point of the grid. -/
theorem accAt_eq (c : Dev nD) (t : Fin cfg1.N) :
    accAt V c t.val = k1_pay2 (iblk1 V c 0 t) (iblk1 V c 1 t) (iblk1 V c 2 t)
      (if t.val % 4 = 0 then k1_pay1 (F := F) else accAt V c (t.val - 1)) := by
  obtain ⟨n, hn⟩ := t
  cases n with
  | zero =>
    show accStep V c 0 (k1_pay1 (F := F)) = _
    unfold accStep; rw [dif_pos hn]; rfl
  | succ n =>
    show accStep V c (n + 1) (if (n + 1) % 4 = 0 then k1_pay1 (F := F) else accAt V c n) = _
    unfold accStep; rw [dif_pos hn]; rfl

/-- At a point of column 0 the running sum is this point's product alone. -/
theorem accAfter_reset (c : Dev nD) (t : Fin cfg1.N) (h : t.val % 4 = 0) :
    accAfter V c t = k1_pay2 (iblk1 V c 0 t) (iblk1 V c 1 t) (iblk1 V c 2 t) (k1_pay1 (F := F)) := by
  unfold accAfter; rw [accAt_eq, if_pos h]

/-- At any other point it is the sum at the point before plus this point's product. -/
theorem accAfter_step (c : Dev nD) (t : Fin cfg1.N) (h : ¬t.val % 4 = 0) :
    accAfter V c t = k1_pay2 (iblk1 V c 0 t) (iblk1 V c 1 t) (iblk1 V c 2 t) (accAt V c (t.val - 1)) := by
  unfold accAfter; rw [accAt_eq, if_neg h]

/-- What the epilogue stores into the output window at point `t` (consulted only at the points of column 3). -/
def out8 (c : Dev nD) (t : Fin cfg1.N) : Vec F S2048x64 .f32 :=
  k1_pay3 (accAfter V c t) (iblk1 V c 4 t) (iblk1 V c 3 t) (iblk1 V c 5 t) (iblk1 V c 6 t) (iblk1 V c 7 t)

/-! ## The region's invariant -/

/-- The part of the invariant the body never touches: the scoped buffers that are no staging buffer of this region at
    anything, and the generator register at some state. -/
def PhiRest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ r, prngReg c r))

/-- The invariant before point number `n`: the rest, and the scratch holding the running sum the point before left —
    except before a point of column 0, which resets it, where its contents are not needed. -/
def Phi1 (c : Dev nD) (n : Fin (cfg1.N + 1)) : sProp 𝕄 :=
  iprop(PhiRest1 (F := F) c
      ∗ (∃ s : Vec F S2048x64 .f32, owns (c : Thread nD τ) scM1 fullShare s ∗ ⌜n.val % 4 = 0 ∨ s = accAt V c (n.val - 1)⌝))

/-- The invariant at a point's start, -/
theorem Phi1_castSucc (c : Dev nD) (t : Fin cfg1.N) :
    Phi1 V c t.castSucc = iprop(PhiRest1 (F := F) c
      ∗ (∃ s : Vec F S2048x64 .f32, owns (c : Thread nD τ) scM1 fullShare s ∗ ⌜t.val % 4 = 0 ∨ s = accAt V c (t.val - 1)⌝)) := rfl
/-- and at its end. -/
theorem Phi1_succ (c : Dev nD) (t : Fin cfg1.N) :
    Phi1 V c t.succ = iprop(PhiRest1 (F := F) c
      ∗ (∃ s : Vec F S2048x64 .f32, owns (c : Thread nD τ) scM1 fullShare s ∗ ⌜(t.val + 1) % 4 = 0 ∨ s = accAt V c t.val⌝)) := rfl

/-- What the launch hands the region is the invariant before the first point. -/
theorem Phi1_in (c : Dev nD) :
    iprop((∃ r, prngReg c r) ∗ (Pipeline.scopedRest spec1 c : sProp 𝕄)) ⊢ Phi1 V c 0 := by
  unfold Phi1 PhiRest1; rw [scopedRest1_eq]; simp only [scM1, owns_whole]
  iintro ⟨Hg, HR0, HR1, HR2, HR3, HR4, HR5, HR6, HR7, HR8, ⟨%f, HS⟩⟩
  isplitl [HR0 HR1 HR2 HR3 HR4 HR5 HR6 HR7 HR8 Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexact Hg
  iexists f; isplitl [HS]; · iexact HS
  ipureintro; exact Or.inl rfl

/-- After the last point the invariant gives it back: the running sum's contents are forgotten. -/
theorem Phi1_out (c : Dev nD) :
    Phi1 V c (Fin.last cfg1.N) ⊢ iprop((∃ r, prngReg c r) ∗ (Pipeline.scopedRest spec1 c : sProp 𝕄)) := by
  unfold Phi1 PhiRest1; rw [scopedRest1_eq]; simp only [scM1, owns_whole]
  iintro ⟨⟨HR0, HR1, HR2, HR3, HR4, HR5, HR6, HR7, HR8, Hg⟩, ⟨%f, HS, -⟩⟩
  isplitl [Hg]; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  iexists f; iexact HS

/-! ## The pipeline's proof data -/

/-- The proof data of pipeline 1 on core `c`: the arrays as the region finds them (`V`); after the body at point `t` each
    input's buffer at its block and the output's at the epilogue's value; the invariant `Phi1`; nothing owed; the two
    windows that read one array hold it at the two halves of the full share, every other window its array outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out8 V c t
  Φ n := Phi1 V c n
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out8 V c t := by dsimp only [dat1]

/-- The two windows on one array hold it at the two halves of the full share, which compose to it. -/
theorem q1_2 (c : Dev nD) : (dat1 V c).q 2 = fullShare.left := by dsimp only [dat1]
theorem q1_3 (c : Dev nD) : (dat1 V c).q 3 = fullShare.right := by dsimp only [dat1]
theorem q1_full (c : Dev nD) (w : Fin cfg1.W) (h2 : w ≠ 2) (h3 : w ≠ 3) : (dat1 V c).q w = fullShare := by
  dsimp only [dat1]; fin_cases w <;> first | rfl | exact absurd rfl h2 | exact absurd rfl h3
theorem q1_split : fullShare ∈ PCS.op (fullShare.left : PosShare TreeShare) fullShare.right := PosShare.mem_left_op_right fullShare

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body returns for each input window: its buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) :
    (dat1 V c).leavesExact 6 t = owns (c : Thread nD τ) (ms1_6 t) fullShare (iblk1 V c 6 t) := by
  unfold Dat.leavesExact; rw [liveAt1_6 t, after1_6]
theorem leaves1_7 (c : Dev nD) (t : Fin cfg1.N) :
    (dat1 V c).leavesExact 7 t = owns (c : Thread nD τ) (ms1_7 t) fullShare (iblk1 V c 7 t) := by
  unfold Dat.leavesExact; rw [liveAt1_7 t, after1_7]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any point. The inputs' memrefs hold their blocks; the closed forms of the two conditions say which of the
    three cases the point is in, and that case's run applies. The invariant hands the body the scratch at the running
    sum the point before left (at anything before a point of column 0, where the body resets it) and takes it back at
    this point's running sum; the output window's buffer is handed back untouched where the epilogue does not run, and
    holds the epilogue's value where it does; the rest of the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [leaves1_0, leaves1_1, leaves1_2, leaves1_3, leaves1_4, leaves1_5, leaves1_6, leaves1_7]
  rw [show (dat1 V c).owesAt () t.succ = (dat1 V c).owesAt () t.castSucc from rfl]
  rw [show (dat1 V c).Φ t.castSucc = Phi1 V c t.castSucc from rfl, show (dat1 V c).Φ t.succ = Phi1 V c t.succ from rfl,
    Phi1_castSucc, Phi1_succ]
  by_cases h0 : t.val % 4 = 0
  · -- column 0: reset, then update; the output window idle
    have hc0 : cond1_0 (grid1.coords t) := (hcond1_0 t).mpr h0
    have hc1 : ¬cond1_1 (grid1.coords t) := fun h => by have := (hcond1_1 t).mp h; omega
    rw [Dat.leavesExact_idle (dat1 V c) 8 t (idleAt1_8 t hc1) (noFlush1_8 t hc1)]
    iintro ⟨⟨HR, ⟨%s, HS, -⟩⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) hc0 hc1 (iblk1 V c 0 t) (iblk1 V c 1 t) (iblk1 V c 2 t) _)
    isplitl [H0]; · iexact H0
    isplitl [H1]; · iexact H1
    isplitl [H2]; · iexact H2
    isplitl [HS]; · iexists _; iexact HS
    iintro ⟨H0, H1, H2, HS⟩
    isplitl [HR HS]
    · isplitl [HR]; · iexact HR
      iexists _; isplitl [HS]; · iexact HS
      ipureintro; exact Or.inr (accAfter_reset V c t h0).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond1_0 (grid1.coords t) := fun h => h0 ((hcond1_0 t).mp h)
    by_cases h1 : t.val % 4 = 3
    · -- column 3: update, then the epilogue stores the output window
      have hc1 : cond1_1 (grid1.coords t) := (hcond1_1 t).mpr h1
      rw [show (dat1 V c).leavesExact 8 t = owns (c : Thread nD τ) (ms1_8 t) fullShare (out8 V c t) from by
        unfold Dat.leavesExact; rw [liveAt1_8 t hc1, after1_8]]
      rw [show out8 V c t = k1_pay3 (k1_pay2 (iblk1 V c 0 t) (iblk1 V c 1 t) (iblk1 V c 2 t) (accAt V c (t.val - 1))) (iblk1 V c 4 t) (iblk1 V c 3 t) (iblk1 V c 5 t) (iblk1 V c 6 t) (iblk1 V c 7 t) from by
        unfold out8; rw [accAfter_step V c t h0]]
      iintro ⟨⟨HR, ⟨%s, HS, %hs⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl : s = accAt V c (t.val - 1) := hs.resolve_left h0
      iapply (run1_C c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (accAt V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HR HS]
      · isplitl [HR]; · iexact HR
        iexists _; isplitl [HS]; · iexact HS
        ipureintro; exact Or.inr (accAfter_step V c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- columns 1 and 2: update only; the output window idle
      have hc1 : ¬cond1_1 (grid1.coords t) := fun h => h1 ((hcond1_1 t).mp h)
      rw [Dat.leavesExact_idle (dat1 V c) 8 t (idleAt1_8 t hc1) (noFlush1_8 t hc1)]
      iintro ⟨⟨HR, ⟨%s, HS, %hs⟩⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      obtain rfl : s = accAt V c (t.val - 1) := hs.resolve_left h0
      iapply (run1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) hc0 hc1 (iblk1 V c 0 t) (iblk1 V c 1 t) (iblk1 V c 2 t) (accAt V c (t.val - 1)) _)
      isplitl [H0]; · iexact H0
      isplitl [H1]; · iexact H1
      isplitl [H2]; · iexact H2
      isplitl [HS]; · iexact HS
      iintro ⟨H0, H1, H2, HS⟩
      isplitl [HR HS]
      · isplitl [HR]; · iexact HR
        iexists _; isplitl [HS]; · iexact HS
        ipureintro; exact Or.inr (accAfter_step V c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRegion1Iface.lean ====
/-
  The second launch's proof data meets what the run of the whole program asks of it: its arrays are the entry contents,
  its invariant is made of the generator register and the scoped buffers no window stages and gives them back, the two
  windows on the shared array hold the two halves of the full share, nothing is owed, and the body obligation holds.
-/
import proofs.«175327_j12429635354789_2_alg».proof.Proof.KRun
import proofs.«175327_j12429635354789_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof data of the second launch, at any entry contents, is what the run takes. -/
theorem iface1 : Iface1 (F := F) (fun V c => dat1 V c) where
  A := fun V c w => A_eq1 V c w
  Φin := fun V c => Phi1_in V c
  Φout := fun V c => Phi1_out V c
  q2 := fun V c => q1_2 V c
  q3 := fun V c => q1_3 V c
  qfull := fun V c w h2 h3 => q1_full V c w h2 h3
  owed := fun _ _ _ => rfl
  recd := fun _ _ _ => rfl
  body := fun V c => body_obligation1 V c

end Cert.Kernel.Hand

end
-- ==== Proof.KIRegion0.lean ====
/- Region 0 of @main (the dense layer kernel on a grid of two points), at the TensorCore's buffer contents `V`
   when the region is entered: each window's block at a point, what the body leaves in the output window's
   buffer from the five input blocks, the body's triple, the pipeline's proof data and its body obligation. -/
import proofs.«175327_j12429635354789_2_alg».proof.Proof.Gen.KernelIdeal.Launch
import proofs.«175327_j12429635354789_2_alg».proof.Proof.Gen.KernelIdeal.Skeleton
import proofs.«175327_j12429635354789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axes: the structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S4096x64 := Rect.unit (s := S4096x64) ![0, 0] S4096x64.size inb_S4096x64_S4096x64_0_0
abbrev r0_1 : Rect S4096x16 := Rect.unit (s := S4096x16) ![0, 0] S4096x16.size inb_S4096x16_S4096x16_0_0
abbrev r0_2 : Rect S64x64 := Rect.unit (s := S64x64) ![0, 0] S64x64.size inb_S64x64_S64x64_0_0
abbrev r0_3 : Rect S16x64 := Rect.unit (s := S16x64) ![0, 0] S16x64.size inb_S16x64_S16x64_0_0
abbrev r0_4 : Rect S1x64 := Rect.unit (s := S1x64) ![0, 0] S1x64.size inb_S1x64_S1x64_0_0

/-! ## What the body leaves in the output window's buffer -/

/-- Window 5's staging buffer after the body, from the input windows' blocks: its one store as a piece. -/
def out0_5 (x0 : Vec F S4096x64 .f32) (x1 : Vec F S4096x16 .f32) (x2 : Vec F S64x64 .f32) (x3 : Vec F S16x64 .f32) (x4 : Vec F S1x64 .f32) : Vec F S4096x64 .f32 :=
  View.canon [⟨r0_0, k0_pay1 (View.ld x0 r0_0) (View.ld x1 r0_1) (View.ld x2 r0_2) (View.ld x3 r0_3) (View.ld x4 r0_4)⟩]

/-- The store tiles the buffer, so it covers it. -/
theorem cover0_5 (p0 : Vec F S4096x64 .f32) (y : S4096x64.Idx) :
    ∃ pc ∈ ([⟨r0_0, p0⟩] : List (View.Piece (Elt F) S4096x64 .f32)), y ∈ pc.1.set :=
  View.cover_of_tiled [⟨r0_0, p0⟩] S4096x64.size (by rfl) y

/-! ## The body's triple -/

set_option maxHeartbeats 1000000 in
/-- The kernel body on whole staging memrefs, the inputs' at read contents `xW` and the output's at anything, runs to
    the continuation holding the inputs' as they were and the output's at `out0_5` of the inputs'. -/
theorem sound_kernel0 (c : Dev nD) (E : Set ℕ) (i : grid0.Coords) (arg1 : Memref sig .tc .vmem S4096x64 .f32) (harg1 : arg1.IsWhole) (arg2 : Memref sig .tc .vmem S4096x16 .f32) (harg2 : arg2.IsWhole) (arg3 : Memref sig .tc .vmem S64x64 .f32) (harg3 : arg3.IsWhole) (arg4 : Memref sig .tc .vmem S16x64 .f32) (harg4 : arg4.IsWhole) (arg5 : Memref sig .tc .vmem S1x64 .f32) (harg5 : arg5.IsWhole) (arg6 : Memref sig .tc .vmem S4096x64 .f32) (harg6 : arg6.IsWhole)
    (x0 : Vec F S4096x64 .f32) (x1 : Vec F S4096x16 .f32) (x2 : Vec F S64x64 .f32) (x3 : Vec F S16x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__dense2_kernel i arg1 harg1 arg2 harg2 arg3 harg3 arg4 harg4 arg5 harg5 arg6 harg6) K := by
  simp only [cc0__dense2_kernel_eq_skeleton]; unfold cc0__dense2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at point `t`
    each input's buffer at its block and the output's at `out0_5` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRun.lean ====
/-
  The run of the whole program, at any float instance. @main is four items in a row: a stretch of host operations, the
  first kernel's launch (edge states, 2 grid points), a second stretch of host operations, the second kernel's launch
  (16 grid points). Between two items every unscoped buffer of the core is held at a known contents, a fold from the
  launch memory: after a host stretch its operations applied, after a launch the launch's output array at what its
  write-backs leave and everything else as before. The second launch hands ONE array (the edge states) to two of its
  input windows: each holds it at half of the full share, the halves are split off the whole buffer at the launch's entry
  and put together again at its exit. The final memory is read against the last contents: every argument array is what it
  was at launch, and the result array is what the second launch's write-backs leave.
-/
import proofs.«175327_j12429635354789_2_alg».proof.Proof.KIRegion0
import proofs.«175327_j12429635354789_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A core's unscoped buffer contents, read at the TensorCore's references. -/
abbrev Vals (F : FTy → Type) : Type := (c : Dev nD) → (b : Ref sig .tc) → Buf (Elt F) ((c : Thread nD τ).loc b)

/-- What the run needs of the second launch's proof data, whatever it is: its arrays are the entry contents; its
    invariant is made of the generator register and the scoped buffers no window stages, and gives them back; the two
    windows on the shared array hold the two halves of the full share, every other window the full share; nothing is owed. -/
structure Iface1 (d1 : Vals F → (c : Dev nD) → Dat τ (Elt F) Unit ℕ (UR sig nD τ) ℕ cfg1 c) : Prop where
  A : ∀ V c w, (d1 V c).A w = V c (Pipeline.arrRef spec1 w)
  Φin : ∀ V c, (iprop((∃ r, prngReg c r) ∗ Pipeline.scopedRest spec1 c) : sProp 𝕄) ⊢ (d1 V c).Φ 0
  Φout : ∀ V c, (d1 V c).Φ (Fin.last cfg1.N) ⊢ (iprop((∃ r, prngReg c r) ∗ Pipeline.scopedRest spec1 c) : sProp 𝕄)
  q2 : ∀ V c, (d1 V c).q 2 = fullShare.left
  q3 : ∀ V c, (d1 V c).q 3 = fullShare.right
  qfull : ∀ V c w, w ≠ 2 → w ≠ 3 → (d1 V c).q w = fullShare
  owed : ∀ V c t, (d1 V c).owed t = 0
  recd : ∀ V c t, (d1 V c).recorded t = Set.univ
  body : ∀ V c, BodyObligation (d1 V c) (defs₀ (F := F)) Variants.none () Set.univ

variable (m : (ℓ : Loc nD τ sig) → Buf (Elt F) ℓ) (ρ : Dev nD → PrngReg)
variable (d1 : Vals F → (c : Dev nD) → Dat τ (Elt F) Unit ℕ (UR sig nD τ) ℕ cfg1 c)

/-! ## The buffer contents between the items -/

/-- At launch. -/
abbrev W0 : Dev nD → Valuation τ sig (Elt F) := fun c b => (s₀ m ρ).mem ((c : Dev nD), b)
/-- After the first host stretch (the first launch's entry). -/
abbrev W1 : Dev nD → Valuation τ sig (Elt F) := fun c => StableHlo.after hostOps0 (W0 m ρ c)
abbrev V1 : Vals F := fun c b => W1 m ρ c b
/-- After the first launch: its arrays at what the pipeline leaves, everything else as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : Vals F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second launch's entry). -/
abbrev W3 : Dev nD → Valuation τ sig (Elt F) := fun c => StableHlo.after hostOps1 (W2 m ρ c)
abbrev V3 : Vals F := fun c b => W3 m ρ c b
/-- After the second launch: the result array at what its write-backs leave, everything else as entered (its input
    arrays are only read). -/
def W4 (c : Dev nD) : Valuation τ sig (Elt F) :=
  Function.update (W3 m ρ c) (Proc.devRef .tc main_v32) ((d1 (V3 m ρ) c).arrAt 8 cfg1.N)
abbrev V4 : Vals F := fun c b => W4 m ρ d1 c b
theorem W4_out (c : Dev nD) : W4 m ρ d1 c (Proc.devRef .tc main_v32) = (d1 (V3 m ρ) c).arrAt 8 cfg1.N := by
  unfold W4; exact Function.update_self ..
theorem W4_of_ne (c : Dev nD) (b : Ref sig .tc) (hb : b ≠ main_v32) :
    W4 m ρ d1 c (Proc.devRef .tc b) = W3 m ρ c (Proc.devRef .tc b) := by
  unfold W4; exact Function.update_of_ne (StableHlo.devRef_ne_of_ne hb) ..

/-! ## The second launch's arrays, window by window: one buffer behind two windows -/

section Shared
variable {d1} (I : Iface1 d1) (Vd V : Vals F) (c : Dev nD)
include I

theorem share1_0 : (d1 Vd c).share 0 = fullShare := by
  unfold Dat.share; rw [if_neg (by decide)]; exact I.qfull Vd c 0 (by decide) (by decide)
theorem share1_1 : (d1 Vd c).share 1 = fullShare := by
  unfold Dat.share; rw [if_neg (by decide)]; exact I.qfull Vd c 1 (by decide) (by decide)
theorem share1_2 : (d1 Vd c).share 2 = fullShare.left := by
  unfold Dat.share; rw [if_neg (by decide)]; exact I.q2 Vd c
theorem share1_3 : (d1 Vd c).share 3 = fullShare.right := by
  unfold Dat.share; rw [if_neg (by decide)]; exact I.q3 Vd c
theorem share1_4 : (d1 Vd c).share 4 = fullShare := by
  unfold Dat.share; rw [if_neg (by decide)]; exact I.qfull Vd c 4 (by decide) (by decide)
theorem share1_5 : (d1 Vd c).share 5 = fullShare := by
  unfold Dat.share; rw [if_neg (by decide)]; exact I.qfull Vd c 5 (by decide) (by decide)
theorem share1_6 : (d1 Vd c).share 6 = fullShare := by
  unfold Dat.share; rw [if_neg (by decide)]; exact I.qfull Vd c 6 (by decide) (by decide)
theorem share1_7 : (d1 Vd c).share 7 = fullShare := by
  unfold Dat.share; rw [if_neg (by decide)]; exact I.qfull Vd c 7 (by decide) (by decide)
theorem share1_8 : (d1 Vd c).share 8 = fullShare := by
  unfold Dat.share; rw [if_pos (by decide)]

/-- The second launch's arrays at contents read off V, one points-to per window: the shared array appears twice, once
    at each half of the full share. -/
theorem arrays1_eq (G : (w : Fin cfg1.W) → Buf (Elt F) ((cfg1.win w).arr.view.loc (c.tc : Thread nD τ)))
    (hG : ∀ w, G w = V c (Pipeline.arrRef spec1 w)) :
    ((d1 Vd c).arrays G : sProp 𝕄)
      = iprop((((c : Thread nD τ).loc main_v26) ↦{fullShare} V c main_v26)
          ∗ (((c : Thread nD τ).loc main_v30) ↦{fullShare} V c main_v30)
          ∗ (((c : Thread nD τ).loc main_v10) ↦{fullShare.left} V c main_v10)
          ∗ (((c : Thread nD τ).loc main_v10) ↦{fullShare.right} V c main_v10)
          ∗ (((c : Thread nD τ).loc main_v20) ↦{fullShare} V c main_v20)
          ∗ (((c : Thread nD τ).loc main_v21) ↦{fullShare} V c main_v21)
          ∗ (((c : Thread nD τ).loc main_v22) ↦{fullShare} V c main_v22)
          ∗ (((c : Thread nD τ).loc main_v31) ↦{fullShare} V c main_v31)
          ∗ (((c : Thread nD τ).loc main_v32) ↦{fullShare} V c main_v32)) := by
  have h1 : ((d1 Vd c).arrays G : sProp 𝕄)
      = bigSep Finset.univ fun w : Fin cfg1.W =>
          ((((c : Thread nD τ).loc (Pipeline.arrRef spec1 w)) ↦{(d1 Vd c).share w} V c (Pipeline.arrRef spec1 w)) : sProp 𝕄) := by
    unfold Dat.arrays
    exact bigSep_congr fun w _ => by rw [(arr_whole1 w).set_eq_univ, hG w]
  rw [h1, bigSep_W1]
  rw [share1_0 I Vd c, share1_1 I Vd c, share1_2 I Vd c, share1_3 I Vd c, share1_4 I Vd c, share1_5 I Vd c, share1_6 I Vd c,
    share1_7 I Vd c, share1_8 I Vd c]

end Shared

section Shared2
variable {d1} (I : Iface1 d1) (Vd V : Vals F) (c : Dev nD)

/-- The distinct buffers behind the second launch's arrays, listed. -/
theorem arrBufs1_eq :
    (Pipeline.arrBufs spec1 c (V c) : sProp 𝕄)
      = iprop((((c : Thread nD τ).loc main_v26) ↦{fullShare} V c main_v26)
          ∗ (((c : Thread nD τ).loc main_v30) ↦{fullShare} V c main_v30)
          ∗ (((c : Thread nD τ).loc main_v10) ↦{fullShare} V c main_v10)
          ∗ (((c : Thread nD τ).loc main_v20) ↦{fullShare} V c main_v20)
          ∗ (((c : Thread nD τ).loc main_v21) ↦{fullShare} V c main_v21)
          ∗ (((c : Thread nD τ).loc main_v22) ↦{fullShare} V c main_v22)
          ∗ (((c : Thread nD τ).loc main_v31) ↦{fullShare} V c main_v31)
          ∗ (((c : Thread nD τ).loc main_v32) ↦{fullShare} V c main_v32)) := by
  unfold Pipeline.arrBufs
  rw [BI.bigSep_eq_bigSepL_of_eq [main_v26, main_v30, main_v10, main_v20, main_v21, main_v22, main_v31, main_v32] (by decide) (by decide)]
  rfl

include I in
/-- ENTRY: the whole buffers make the launch's arrays, the shared one split into its two halves. -/
theorem arrays1_split (G : (w : Fin cfg1.W) → Buf (Elt F) ((cfg1.win w).arr.view.loc (c.tc : Thread nD τ)))
    (hG : ∀ w, G w = V c (Pipeline.arrRef spec1 w)) :
    (Pipeline.arrBufs spec1 c (V c) : sProp 𝕄) ⊢ (d1 Vd c).arrays G := by
  rw [arrBufs1_eq V c, arrays1_eq I Vd V c G hG]
  have hs : ((((c : Thread nD τ).loc main_v10) ↦{fullShare} V c main_v10) : sProp 𝕄)
      ⊢ iprop((((c : Thread nD τ).loc main_v10) ↦{fullShare.left} V c main_v10) ∗ (((c : Thread nD τ).loc main_v10) ↦{fullShare.right} V c main_v10)) :=
    (pointsTo_share (PosShare.mem_left_op_right fullShare)).1
  iintro ⟨H26, H30, H10, H20, H21, H22, H31, H32⟩
  ihave H := hs $$ H10
  icases H with ⟨HL, HR⟩
  isplitl [H26]; · iexact H26
  isplitl [H30]; · iexact H30
  isplitl [HL]; · iexact HL
  isplitl [HR]; · iexact HR
  isplitl [H20]; · iexact H20
  isplitl [H21]; · iexact H21
  isplitl [H22]; · iexact H22
  isplitl [H31]; · iexact H31
  iexact H32

include I in
/-- EXIT: the launch's arrays give the whole buffers back, the two halves of the shared one joined. -/
theorem arrays1_join (G : (w : Fin cfg1.W) → Buf (Elt F) ((cfg1.win w).arr.view.loc (c.tc : Thread nD τ)))
    (hG : ∀ w, G w = V c (Pipeline.arrRef spec1 w)) :
    ((d1 Vd c).arrays G : sProp 𝕄) ⊢ Pipeline.arrBufs spec1 c (V c) := by
  rw [arrBufs1_eq V c, arrays1_eq I Vd V c G hG]
  have hj : (iprop((((c : Thread nD τ).loc main_v10) ↦{fullShare.left} V c main_v10) ∗ (((c : Thread nD τ).loc main_v10) ↦{fullShare.right} V c main_v10)) : sProp 𝕄)
      ⊢ (((c : Thread nD τ).loc main_v10) ↦{fullShare} V c main_v10) :=
    (pointsTo_share (PosShare.mem_left_op_right fullShare)).2
  iintro ⟨H26, H30, HL, HR, H20, H21, H22, H31, H32⟩
  ihave H10 := hj $$ [HL HR]
  · isplitl [HL]; · iexact HL
    iexact HR
  isplitl [H26]; · iexact H26
  isplitl [H30]; · iexact H30
  isplitl [H10]; · iexact H10
  isplitl [H20]; · iexact H20
  isplitl [H21]; · iexact H21
  isplitl [H22]; · iexact H22
  isplitl [H31]; · iexact H31
  iexact H32

end Shared2

/-! ## The arguments, and the edge-state array's buffer, read back through the fold -/

section Back
variable {d1} (I : Iface1 d1)

/-- An array no host operation writes and no launch changes ends as launched. -/
theorem W4_arg (c : Dev nD) (b : Ref sig .tc) (h4 : b ≠ main_v32) (h3 : b ∉ hostOps1_W)
    (h2 : W2 m ρ c (Proc.devRef .tc b) = W1 m ρ c (Proc.devRef .tc b)) (h1 : b ∉ hostOps0_W) :
    W4 m ρ d1 c (Proc.devRef .tc b) = m ((c : Thread nD τ).loc b) :=
  calc W4 m ρ d1 c (Proc.devRef .tc b)
    _ = W3 m ρ c (Proc.devRef .tc b) := W4_of_ne m ρ d1 c b h4
    _ = W2 m ρ c (Proc.devRef .tc b) := StableHlo.after_of_writes_sub hostOps1 _ hostOps1_writes h3
    _ = W1 m ρ c (Proc.devRef .tc b) := h2
    _ = W0 m ρ c (Proc.devRef .tc b) := StableHlo.after_of_writes_sub hostOps0 _ hostOps0_writes h1
    _ = m ((c : Thread nD τ).loc b) := rfl

theorem W4_main_arg0 (c : Dev nD) : W4 m ρ d1 c (Proc.devRef .tc main_arg0) = m ((c : Thread nD τ).loc main_arg0) :=
  W4_arg m ρ c main_arg0 (by decide) (by decide) (W2_of_ne m ρ c main_arg0 (by decide)) (by decide)
theorem W4_main_arg1 (c : Dev nD) : W4 m ρ d1 c (Proc.devRef .tc main_arg1) = m ((c : Thread nD τ).loc main_arg1) :=
  W4_arg m ρ c main_arg1 (by decide) (by decide)
    ((W2_arr m ρ c 1).trans (((dat0 (V1 m ρ) c).arrAt_in 1 rfl _).trans (A_eq0 (V1 m ρ) c 1))) (by decide)
theorem W4_main_arg2 (c : Dev nD) : W4 m ρ d1 c (Proc.devRef .tc main_arg2) = m ((c : Thread nD τ).loc main_arg2) :=
  W4_arg m ρ c main_arg2 (by decide) (by decide) (W2_of_ne m ρ c main_arg2 (by decide)) (by decide)
theorem W4_main_arg3 (c : Dev nD) : W4 m ρ d1 c (Proc.devRef .tc main_arg3) = m ((c : Thread nD τ).loc main_arg3) :=
  W4_arg m ρ c main_arg3 (by decide) (by decide) (W2_of_ne m ρ c main_arg3 (by decide)) (by decide)
theorem W4_main_arg4 (c : Dev nD) : W4 m ρ d1 c (Proc.devRef .tc main_arg4) = m ((c : Thread nD τ).loc main_arg4) :=
  W4_arg m ρ c main_arg4 (by decide) (by decide) (W2_of_ne m ρ c main_arg4 (by decide)) (by decide)
theorem W4_main_arg5 (c : Dev nD) : W4 m ρ d1 c (Proc.devRef .tc main_arg5) = m ((c : Thread nD τ).loc main_arg5) :=
  W4_arg m ρ c main_arg5 (by decide) (by decide) (W2_of_ne m ρ c main_arg5 (by decide)) (by decide)
theorem W4_main_arg6 (c : Dev nD) : W4 m ρ d1 c (Proc.devRef .tc main_arg6) = m ((c : Thread nD τ).loc main_arg6) :=
  W4_arg m ρ c main_arg6 (by decide) (by decide) (W2_of_ne m ρ c main_arg6 (by decide)) (by decide)
theorem W4_main_arg7 (c : Dev nD) : W4 m ρ d1 c (Proc.devRef .tc main_arg7) = m ((c : Thread nD τ).loc main_arg7) :=
  W4_arg m ρ c main_arg7 (by decide) (by decide) (W2_of_ne m ρ c main_arg7 (by decide)) (by decide)

end Back

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => d1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tₙ (c : Dev nD) : sProp 𝕄 := iprop(StableHlo.held (c : Thread nD τ) (Pipeline.ucRefs τ sig) (W4 m ρ d1 c) ∗ ∃ r, prngReg c r)

/-! ## The launches as segments -/

set_option backward.isDefEq.respectTransparency.types false in
/-- The first launch: entered from every unscoped buffer at W1, left at W2. Its arrays are split out of the unscoped
    buffers and put back at the exit contents; the generator register goes into the invariant and comes out. -/
def reg0 : Pipeline.RegionSeg (pcfgs (F := F)) adm (pdats m ρ d1) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ d1) launch0.win launch0.arr_whole c
      ((pdats m ρ d1 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ d1 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ d1 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ d1) ((pdats m ρ d1 0 c).share_full fun _ => rfl)
      (V1 m ρ c) (V2 m ρ c) ((pdats m ρ d1 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section Reg1
variable {d1} (I : Iface1 d1)

/-- Only the last window of the second launch is an output, and only its array is the result array. -/
theorem isOut1_false : ∀ w : Fin cfg1.W, w ≠ 8 → (cfg1.win w).isOut = false := by decide
theorem arrRef1_ne : ∀ w : Fin cfg1.W, w ≠ 8 → Pipeline.arrRef spec1 w ≠ main_v32 := by decide

include I in
/-- What the second launch's arrays hold at its exit, against the last contents: its inputs were only read, its output
    is what the write-backs leave. -/
theorem hF1 (c : Dev nD) (w : Fin cfg1.W) : (d1 (V3 m ρ) c).arrAt w cfg1.N = V4 m ρ d1 c (Pipeline.arrRef spec1 w) := by
  by_cases h8 : w = 8
  · subst h8; exact (W4_out m ρ d1 c).symm
  · rw [(d1 (V3 m ρ) c).arrAt_in w (isOut1_false w h8), I.A]
    exact (W4_of_ne m ρ d1 c (Pipeline.arrRef spec1 w) (arrRef1_ne w h8)).symm

include I in
/-- ENTRY of the second launch: the core's unscoped buffers at the entry contents are its arrays (the shared buffer in
    two halves) and the rest. -/
theorem split1 (c : Dev nD) :
    (unscopedBufs c (V3 m ρ c) : sProp 𝕄)
      ⊢ iprop((d1 (V3 m ρ) c).arrays ((d1 (V3 m ρ) c).arrAt · 0) ∗ Pipeline.unscopedRest spec1 c (V3 m ρ c)) := by
  rw [Pipeline.unscopedBufs_split₀ (cfgs) 1 winFacts₀1.arr_unscoped c (V3 m ρ c)]
  exact sep_mono (arrays1_split I (V3 m ρ) (V3 m ρ) c _ fun w => I.A _ c w) .rfl

include I in
/-- EXIT of the second launch: its arrays at their final contents and the rest are the core's unscoped buffers at the
    last contents. -/
theorem join1 (c : Dev nD) :
    (iprop((d1 (V3 m ρ) c).arrays ((d1 (V3 m ρ) c).arrAt · cfg1.N) ∗ Pipeline.unscopedRest spec1 c (V3 m ρ c)) : sProp 𝕄)
      ⊢ unscopedBufs c (V4 m ρ d1 c) := by
  rw [Pipeline.unscopedBufs_split₀ (cfgs) 1 winFacts₀1.arr_unscoped c (V4 m ρ d1 c)]
  refine sep_mono (arrays1_join I (V3 m ρ) (V4 m ρ d1) c _ (hF1 m ρ I c)) (Entails.of_eq ?_)
  unfold Pipeline.unscopedRest
  exact bigSep_congr fun b hb => by
    have hne : b ≠ main_v32 := fun e => (Finset.mem_sdiff.mp hb).2 (Finset.mem_image.mpr ⟨8, Finset.mem_univ _, e ▸ rfl⟩)
    rw [show V4 m ρ d1 c b = V3 m ρ c b from W4_of_ne m ρ d1 c b hne]

set_option backward.isDefEq.respectTransparency.types false in
/-- The second launch: entered from every unscoped buffer at W3, left at W4; the generator register goes into the
    invariant, beside the scoped buffers no window stages (the accumulator among them), and comes out. -/
def reg1 : Pipeline.RegionSeg (pcfgs (F := F)) adm (pdats m ρ d1) () defs₀ 𝒱₀ L lv 1 where
  win := winFacts₀1
  block_pos := block_pos1
  stage_whole := stage_whole1
  K := PEmpty
  osem k := k.elim
  ho := Pipeline.OwnSemFacts.none _
  hbody c := (I.body (V3 m ρ) c).loose
  hwaits := Pipeline.hwaits_of_owed_zero _ _ _ _ L lv 1 fun c t => I.owed _ c t
  pre c := iprop(StableHlo.held (c : Thread nD τ) (Pipeline.ucRefs τ sig) (W3 m ρ c) ∗ R c)
  post c := iprop(Tₙ m ρ d1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ d1 1 c).arrays ((pdats m ρ d1 1 c).arrAt · 0) ∗ Pipeline.unscopedRest spec1 c (V3 m ρ c)) := split1 m ρ I c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ d1 1 c).owed 0 = 0 from I.owed _ c 0]
      icases HO with ⟨%W, HO⟩; iexists W; isplitr
      · ipureintro; exact fun _ _ => Or.inl (by rw [show (pdats m ρ d1 1 c).recorded 0 = Set.univ from I.recd _ c 0]; trivial)
      iexact HO
    isplitl [Hp]; · iexact Hp
    iexact Hrest
  hin c := by
    rw [show (pdats m ρ d1 1 c).Φ 0 = (d1 (V3 m ρ) c).Φ 0 from rfl]
    iintro ⟨Hp, -, Hr⟩
    iapply (I.Φin (V3 m ρ) c)
    isplitl [Hp]; · iexact Hp
    iexact Hr
  hout c := by
    rw [Pipeline.ownSems0_none, show (pdats m ρ d1 1 c).Φ (Fin.last _) = (d1 (V3 m ρ) c).Φ (Fin.last cfg1.N) from rfl]
    iintro H
    ihave H' := (I.Φout (V3 m ρ) c) $$ H
    icases H' with ⟨Hp, Hr⟩
    isplitl [Hp]; · iexact Hp
    isplitr; · iempintro
    iexact Hr
  hexit c := by
    have hjoin : (iprop((pdats m ρ d1 1 c).arrays ((pdats m ρ d1 1 c).arrAt · (Pipeline.pin (pcfgs (F := F)) adm 1).N)
          ∗ Pipeline.unscopedRest spec1 c (V3 m ρ c)) : sProp 𝕄) ⊢ unscopedBufs c (V4 m ρ d1 c) := join1 m ρ I c
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ d1 1 c).owed (Fin.last (Pipeline.pin (pcfgs (F := F)) adm 1).N) = 0 from I.owed _ c _]
    icases HO with ⟨%W, -, HO⟩; iexists W; iexact HO

/-! ## @main as segments, and the launch -/

/-- @main's four items in order. -/
abbrev segs : List (Pipeline.Seg (pcfgs (F := F)) adm (pdats m ρ d1) () defs₀ 𝒱₀ L lv) :=
  [ .host (hseg hostOps0 hostOps0_sub hostOps0_fresh (W0 m ρ)),
    .region (reg0 m ρ d1),
    .host (hseg hostOps1 hostOps1_sub hostOps1_fresh (W2 m ρ)),
    .region (reg1 m ρ I) ]
include I in
/-- @main is the run of the segments. -/
theorem main_run (c : Dev nD) : main (F := F) c = Pipeline.Seg.run (segs m ρ I) := (main_chain c).trans (by chain_rfl)

include I in
set_option backward.isDefEq.respectTransparency.types false in
/-- THE RUN, at any float instance: from any memory with zero counters every weakly fair execution of @main terminates,
    nothing faulting; the result array ends at what the second launch's write-backs leave, and every argument array as
    launched. -/
theorem run : θ_run defs (onTc (τ := τ) (main (F := F))) ⟨m, fun _ => 0, ρ⟩ (fun r => ∀ c : Dev nD,
      r.2.mem ((c.tc : Thread nD τ).loc main_v32) = (d1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ d1) () cellOf_inj emb₁ defs₀ 𝒱₀ L lv m ρ main (segs m ρ I)
    (fun c Q => by rw [main_run m ρ I c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ d1)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ d1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ d1 c) s')
      isplitl [Hh] <;> iassumption)
    (hQ := fun s h c =>
      ⟨(h c _ (mem_uc main_v32 (by decide))).trans (W4_out m ρ d1 c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Reg1

end Cert.KernelIdeal.Hand

end
-- ==== Proof.KIHost.lean ====
/- The two stretches of host operations of @main, read back: what each buffer a kernel region reads holds after the
   stretch, as the operations' term over the contents the stretch starts from. The starting contents are arbitrary,
   so each equation is the fold of the stretch's operations and nothing else. -/
import proofs.«175327_j12429635354789_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]

-- the device's buffer contents a stretch starts from
variable (W : Valuation τ sig (Elt F))

/-- The node indices as the gathers read them: an index below zero wraps around the table's 20000 rows, and the
    list of indices becomes a column. -/
abbrev nodeRows : IVec S8192x1 32 :=
  broadcastInDim S8192x1 ![0] bcast_S8192_S8192x1_0
    (select (cmpi .slt (W main_arg6) (broadcastInDim S8192 ![] bcast_S_S8192 (constantI S_ 32 0#32)))
      (addi (W main_arg6) (broadcastInDim S8192 ![] bcast_S_S8192 (constantI S_ 32 20000#32)))
      (W main_arg6))

/-! ## The first stretch -/

/-- The gathered node rows. -/
theorem host0_v6 : StableHlo.after hostOps0 W main_v6
    = Host.gather gather_S20000x64_S8192x1_S8192x64_1_0_n_n_0_1_164 (W main_arg0) (nodeRows W) := by
  after_results

/-- The first 64 rows of the weights. -/
theorem host0_v7 : StableHlo.after hostOps0 W main_v7
    = extractStridedSlice S64x64 ![0, 0] (W main_arg2) slices_S80x64_S64x64_0_0 := by
  after_results

/-- The last 16 rows of the weights. -/
theorem host0_v8 : StableHlo.after hostOps0 W main_v8
    = extractStridedSlice S16x64 ![64, 0] (W main_arg2) slices_S80x64_S16x64_64_0 := by
  after_results

/-- The bias as one row. -/
theorem host0_v9 : StableHlo.after hostOps0 W main_v9
    = shapeCast S1x64 (W main_arg3) shapeCasts_S64_S1x64 := by
  after_results
  rfl

/-- The second operand is not written. -/
theorem host0_arg1 : StableHlo.after hostOps0 W main_arg1 = W main_arg1 := by
  after_results

/-! ## The second stretch -/

/-- The pair keys' multiplier, one per node pair. -/
abbrev keyScale : IVec S8192 32 := broadcastInDim S8192 ![] bcast_S_S8192 (constantI S_ 32 32768#32)

/-- The rows of the first region's output summed into a table by destination node, then gathered back by node. -/
theorem host1_v20 : StableHlo.after hostOps1 W main_v20
    = Host.gather gather_S20000x64_S8192x1_S8192x64_1_0_n_n_0_1_164
        (Host.scatterAdd scatter_S20000x64_S8192x1_S8192x64_1_0_0_1
          (broadcastInDim S20000x64 ![] bcast_S_S20000x64 (constant (F := F) S_ .f32 0x00000000#32))
          (broadcastInDim S8192x1 ![0] bcast_S8192_S8192x1_0 (W main_arg7))
          (W main_v10))
        (nodeRows W) := by
  after_results

/-- The first 64 rows of the update weights. -/
theorem host1_v21 : StableHlo.after hostOps1 W main_v21
    = extractStridedSlice S64x64 ![0, 0] (W main_arg4) slices_S128x64_S64x64_0_0 := by
  after_results

/-- The last 64 rows of the update weights. -/
theorem host1_v22 : StableHlo.after hostOps1 W main_v22
    = extractStridedSlice S64x64 ![64, 0] (W main_arg4) slices_S128x64_S64x64_64_0 := by
  after_results

/-- The key of each pair, as a column. -/
theorem host1_v26 : StableHlo.after hostOps1 W main_v26
    = shapeCast S8192x1 (addi (muli (W main_arg6) keyScale) (W main_arg7)) shapeCasts_S8192_S8192x1 := by
  after_results
  rfl

/-- The key of each reversed pair, as a row. -/
theorem host1_v30 : StableHlo.after hostOps1 W main_v30
    = shapeCast S1x8192 (addi (muli (W main_arg7) keyScale) (W main_arg6)) shapeCasts_S8192_S1x8192 := by
  after_results
  rfl

/-- The update bias as one row. -/
theorem host1_v31 : StableHlo.after hostOps1 W main_v31
    = shapeCast S1x64 (W main_arg5) shapeCasts_S64_S1x64 := by
  after_results
  rfl

/-- The first region's output is not written. -/
theorem host1_v10 : StableHlo.after hostOps1 W main_v10 = W main_v10 := by
  after_results

end Cert.KernelIdeal.Hand

end
-- ==== Proof.KIContents.lean ====
/-
  What the two launches read, in terms of the launch memory. Before the first launch the host has gathered the source
  nodes' feature rows and cut the first dense layer's weights into its two row blocks; the first launch leaves the edge
  states; before the second launch the host has summed the edge states per destination node and gathered the sums back
  at the sources, cut the update layer's weights, and packed each edge's (source, destination) pair into one word, in
  both orders. Every one of these buffers is written here as those operations applied to the ARGUMENT arrays (and to the
  edge states), at any float instance.
-/
import proofs.«175327_j12429635354789_2_alg».proof.Proof.KIRun
import proofs.«175327_j12429635354789_2_alg».proof.Proof.KIHost

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The row of the node table an edge reads: its source index, a negative one counted from the end. -/
abbrev nodeRowsOf (s : IVec S8192 32) : IVec S8192x1 32 :=
  broadcastInDim S8192x1 ![0] bcast_S8192_S8192x1_0 (select (cmpi .slt s (broadcastInDim S8192 ![] bcast_S_S8192 (constantI S_ 32 0#32)))
    (addi s (broadcastInDim S8192 ![] bcast_S_S8192 (constantI S_ 32 20000#32))) s)

/-- An argument array reaches the second host stretch as launched. -/
theorem W2_arg (c : Dev nD) (b : Ref sig .tc) (h2 : ∀ w, Pipeline.arrRef spec0 w ≠ b) (h1 : b ∉ hostOps0_W) :
    W2 m ρ c (Proc.devRef .tc b) = m ((c : Thread nD τ).loc b) :=
  ((W2_of_ne m ρ c b h2).trans (StableHlo.after_of_writes_sub hostOps0 _ hostOps0_writes h1)).trans rfl

/-! ## What the first launch reads -/

theorem V1_v6 (c : Dev nD) : V1 m ρ c main_v6
    = Host.gather gather_S20000x64_S8192x1_S8192x64_1_0_n_n_0_1_164 (m ((c : Thread nD τ).loc main_arg0)) (nodeRowsOf (m ((c : Thread nD τ).loc main_arg6))) :=
  host0_v6 (W0 m ρ c)
theorem V1_arg1 (c : Dev nD) : V1 m ρ c main_arg1 = m ((c : Thread nD τ).loc main_arg1) := host0_arg1 (W0 m ρ c)
theorem V1_v7 (c : Dev nD) : V1 m ρ c main_v7 = extractStridedSlice S64x64 ![0, 0] (m ((c : Thread nD τ).loc main_arg2)) slices_S80x64_S64x64_0_0 :=
  host0_v7 (W0 m ρ c)
theorem V1_v8 (c : Dev nD) : V1 m ρ c main_v8 = extractStridedSlice S16x64 ![64, 0] (m ((c : Thread nD τ).loc main_arg2)) slices_S80x64_S16x64_64_0 :=
  host0_v8 (W0 m ρ c)
theorem V1_v9 (c : Dev nD) : V1 m ρ c main_v9 = shapeCast S1x64 (m ((c : Thread nD τ).loc main_arg3)) shapeCasts_S64_S1x64 :=
  host0_v9 (W0 m ρ c)

/-! ## What the second launch reads -/

/-- The edge states: what the first launch's write-backs leave. -/
theorem V3_v10 (c : Dev nD) : V3 m ρ c main_v10 = (dat0 (V1 m ρ) c).arrAt 5 cfg0.N :=
  (host1_v10 (W2 m ρ c)).trans (W2_arr m ρ c 5)

theorem V3_v20 (c : Dev nD) : V3 m ρ c main_v20
    = Host.gather gather_S20000x64_S8192x1_S8192x64_1_0_n_n_0_1_164
        (Host.scatterAdd scatter_S20000x64_S8192x1_S8192x64_1_0_0_1 (broadcastInDim S20000x64 ![] bcast_S_S20000x64 (constant (F := F) S_ .f32 0x00000000#32))
          (broadcastInDim S8192x1 ![0] bcast_S8192_S8192x1_0 (m ((c : Thread nD τ).loc main_arg7))) ((dat0 (V1 m ρ) c).arrAt 5 cfg0.N))
        (nodeRowsOf (m ((c : Thread nD τ).loc main_arg6))) := by
  refine (host1_v20 (W2 m ρ c)).trans ?_
  rw [show W2 m ρ c (Proc.devRef .tc main_v10) = (dat0 (V1 m ρ) c).arrAt 5 cfg0.N from W2_arr m ρ c 5]
  unfold nodeRows
  rw [W2_arg m ρ c main_arg6 (by decide) (by decide), W2_arg m ρ c main_arg7 (by decide) (by decide)]
theorem V3_v21 (c : Dev nD) : V3 m ρ c main_v21 = extractStridedSlice S64x64 ![0, 0] (m ((c : Thread nD τ).loc main_arg4)) slices_S128x64_S64x64_0_0 := by
  refine (host1_v21 (W2 m ρ c)).trans ?_
  rw [W2_arg m ρ c main_arg4 (by decide) (by decide)]
theorem V3_v22 (c : Dev nD) : V3 m ρ c main_v22 = extractStridedSlice S64x64 ![64, 0] (m ((c : Thread nD τ).loc main_arg4)) slices_S128x64_S64x64_64_0 := by
  refine (host1_v22 (W2 m ρ c)).trans ?_
  rw [W2_arg m ρ c main_arg4 (by decide) (by decide)]
theorem V3_v26 (c : Dev nD) : V3 m ρ c main_v26
    = shapeCast S8192x1 (addi (muli (m ((c : Thread nD τ).loc main_arg6)) keyScale) (m ((c : Thread nD τ).loc main_arg7))) shapeCasts_S8192_S8192x1 := by
  refine (host1_v26 (W2 m ρ c)).trans ?_
  rw [W2_arg m ρ c main_arg6 (by decide) (by decide), W2_arg m ρ c main_arg7 (by decide) (by decide)]
theorem V3_v30 (c : Dev nD) : V3 m ρ c main_v30
    = shapeCast S1x8192 (addi (muli (m ((c : Thread nD τ).loc main_arg7)) keyScale) (m ((c : Thread nD τ).loc main_arg6))) shapeCasts_S8192_S1x8192 := by
  refine (host1_v30 (W2 m ρ c)).trans ?_
  rw [W2_arg m ρ c main_arg6 (by decide) (by decide), W2_arg m ρ c main_arg7 (by decide) (by decide)]
theorem V3_v31 (c : Dev nD) : V3 m ρ c main_v31 = shapeCast S1x64 (m ((c : Thread nD τ).loc main_arg5)) shapeCasts_S64_S1x64 := by
  refine (host1_v31 (W2 m ρ c)).trans ?_
  rw [W2_arg m ρ c main_arg5 (by decide) (by decide)]

end Cert.KernelIdeal.Hand

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.KIValue0.lean ====
/- Region 0 of @main, read as a value: the array its output window ends holding, entry by entry, is the dense layer
   of the arrays the region finds — a row of the gathered node features times the first weight block, plus the same
   row of the second operand times the second weight block, plus the bias row. -/
import proofs.«175327_j12429635354789_2_alg».proof.Proof.KIRegion0
import proofs.«175327_j12429635354789_2_alg».proof.Proof.LibMatmulNN
import Idealize.ShloMosaic.Lib.Pipeline.Value
import Idealize.ShloMosaic.Lib.ValueLayout
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry -/

/-- The value the body stores, read at row `a` and column `b` of the block, on the extended reals: rounding to the
    narrower format is the identity there, each product into the zero accumulator is the textbook sum over the
    contracted axis, and the bias row is read at its one row. -/
theorem dense_apply (x0 : Vec Ideal S4096x64 .f32) (x1 : Vec Ideal S4096x16 .f32) (x2 : Vec Ideal S64x64 .f32)
    (x3 : Vec Ideal S16x64 .f32) (x4 : Vec Ideal S1x64 .f32) (a : Fin 4096) (b : Fin 64) :
    k0_pay1 (F := Ideal) x0 x1 x2 x3 x4 (ix2 a b)
      = ((∑ k : Fin 64, x0 (ix2 a k) * x2 (ix2 k b)) + (∑ k : Fin 16, x1 (ix2 a k) * x3 (ix2 k b)))
        + x4 (ix2 (0 : Fin 1) b) := by
  have e1 := Cert.LibMatmulNN.matmul_zero_apply' dot_S4096x64_S64x64_S4096x64_1_0_0_1_n_n rfl rfl rfl rfl rfl rfl none
    (truncf (F := Ideal) .bf16 (shapeCast S4096x64 x0 shapeCasts_S4096x64_S4096x64) bitsLt_bf16_f32)
    (truncf (F := Ideal) .bf16 (shapeCast S64x64 x2 shapeCasts_S64x64_S64x64) bitsLt_bf16_f32) a b
  have e2 := Cert.LibMatmulNN.matmul_zero_apply' dot_S4096x16_S16x64_S4096x64_1_0_0_1_n_n rfl rfl rfl rfl rfl rfl none
    (truncf (F := Ideal) .bf16 x1 bitsLt_bf16_f32)
    (truncf (F := Ideal) .bf16 (shapeCast S16x64 x3 shapeCasts_S16x64_S16x64) bitsLt_bf16_f32) a b
  have e3 := broadcastTo_1b_ab_apply (shapeCast S1x64 x4 shapeCasts_S1x64_S1x64) broadcasts_S1x64_S4096x64 a b
  refine Eq.trans (b := ((∑ k : Fin 64, (truncf (F := Ideal) .bf16 (shapeCast S4096x64 x0 shapeCasts_S4096x64_S4096x64) bitsLt_bf16_f32) (ix2 a k)
        * (truncf (F := Ideal) .bf16 (shapeCast S64x64 x2 shapeCasts_S64x64_S64x64) bitsLt_bf16_f32) (ix2 k b))
      + (∑ k : Fin 16, (truncf (F := Ideal) .bf16 x1 bitsLt_bf16_f32) (ix2 a k)
        * (truncf (F := Ideal) .bf16 (shapeCast S16x64 x3 shapeCasts_S16x64_S16x64) bitsLt_bf16_f32) (ix2 k b)))
      + (shapeCast S1x64 x4 shapeCasts_S1x64_S1x64) (ix2 (0 : Fin 1) b)) ?_ ?_
  · rw [← e1, ← e2, ← e3]; rfl
  · simp only [truncf_apply, shapeCast_self]

/-! ## The layer of whole arrays -/

/-- The dense layer at row `r` and column `col`: the row of `X` against the column of `W1`, plus the row of `E`
    against the column of `W2`, plus the bias at the column. -/
def denseAt (X : S8192x64.Idx → EReal) (E : S8192x16.Idx → EReal) (W1 : S64x64.Idx → EReal) (W2 : S16x64.Idx → EReal)
    (bias : S1x64.Idx → EReal) (r : Fin 8192) (col : Fin 64) : EReal :=
  ((∑ k : Fin 64, X (ix2 r k) * W1 (ix2 k col)) + (∑ k : Fin 16, E (ix2 r k) * W2 (ix2 k col)))
    + bias (ix2 (0 : Fin 1) col)

/-- The layer at an entry, written out. -/
theorem denseAt_def (X : S8192x64.Idx → EReal) (E : S8192x16.Idx → EReal) (W1 : S64x64.Idx → EReal)
    (W2 : S16x64.Idx → EReal) (bias : S1x64.Idx → EReal) (r : Fin 8192) (col : Fin 64) :
    denseAt X E W1 W2 bias r col
      = ((∑ k : Fin 64, X (ix2 r k) * W1 (ix2 k col)) + (∑ k : Fin 16, E (ix2 r k) * W2 (ix2 k col)))
        + bias (ix2 (0 : Fin 1) col) := rfl

/-- The same as one function of the output array's index. -/
def dense0 (X : S8192x64.Idx → EReal) (E : S8192x16.Idx → EReal) (W1 : S64x64.Idx → EReal) (W2 : S16x64.Idx → EReal)
    (bias : S1x64.Idx → EReal) : S8192x64.Idx → EReal :=
  fun i => denseAt X E W1 W2 bias (i 0) (i 1)

/-- A block of 4096 rows: when the two row operands' blocks are rows `q·4096 …` of `X` and `E` and the other three
    blocks are the whole of `W1`, `W2` and the bias, the body's value at `(a, b)` is the layer at row `q·4096 + a`. -/
theorem dense_block (X : S8192x64.Idx → EReal) (E : S8192x16.Idx → EReal) (W1 : S64x64.Idx → EReal)
    (W2 : S16x64.Idx → EReal) (bias : S1x64.Idx → EReal) (q : Nat) (hq : q ≤ 1)
    (x0 : Vec Ideal S4096x64 .f32) (x1 : Vec Ideal S4096x16 .f32) (x2 : Vec Ideal S64x64 .f32)
    (x3 : Vec Ideal S16x64 .f32) (x4 : Vec Ideal S1x64 .f32)
    (h0 : ∀ (a : Fin 4096) (k : Fin 64),
      x0 (ix2 a k) = X (ix2 (⟨q * 4096 + a.val, by have := a.isLt; omega⟩ : Fin 8192) k))
    (h1 : ∀ (a : Fin 4096) (k : Fin 16),
      x1 (ix2 a k) = E (ix2 (⟨q * 4096 + a.val, by have := a.isLt; omega⟩ : Fin 8192) k))
    (h2 : x2 = W1) (h3 : x3 = W2) (h4 : x4 = bias) (a : Fin 4096) (b : Fin 64) :
    k0_pay1 (F := Ideal) x0 x1 x2 x3 x4 (ix2 a b)
      = denseAt X E W1 W2 bias ⟨q * 4096 + a.val, by have := a.isLt; omega⟩ b := by
  rw [dense_apply]
  subst h2 h3 h4
  unfold denseAt
  simp only [h0, h1]

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps, decided over the grid's two points: the two row operands move with the output along the
    rows, every window sits at column block zero, and the three small operands never move. -/
theorem blockIndex0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 1 ∧ win0_5.index t (1 : Fin 2) = 0 :=
  (by decide +kernel : ∀ t : Fin grid0.N, _)

/-- Each of the two row blocks of the output is some point's. -/
theorem blockOnto0 : ∀ q : Fin 2, ∃ t : Fin cfg0.N, win0_5.index t = ![q.val, 0] :=
  (by decide +kernel : ∀ q : Fin 2, ∃ t : Fin grid0.N, win0_5.index t = ![q.val, 0])

/-- What point `t` writes back is block `t` of the layer of the arrays the region finds. -/
theorem flushed0_eq (c : Dev nD) (t : Fin cfg0.N) :
    (dat0 (F := Ideal) V c).flushed 5 t
      = ((cfg0.win 5).blk t).view.read (Elt Ideal) (dense0 (V c main_v6) (V c main_arg1) (V c main_v7) (V c main_v8) (V c main_v9)) := by
  show (cfg0.win 5).cut (grid0.coords t) ((dat0 V c).after 5 t) = _
  rw [after0_5]
  unfold out0_5
  rw [View.canon_unit_zero zeroOffsets]
  simp only [View.ld_unit_zero (S := S4096x64) zeroOffsets,
    View.ld_unit_zero (S := S4096x16) zeroOffsets,
    View.ld_unit_zero (S := S64x64) zeroOffsets,
    View.ld_unit_zero (S := S16x64) zeroOffsets,
    View.ld_unit_zero (S := S1x64) zeroOffsets]
  obtain ⟨e00, e01, e10, e11, e20, e21, e30, e31, e40, e41, e5le, e51⟩ := blockIndex0 t
  funext j
  obtain ⟨a, b, rfl⟩ : ∃ (a : Fin 4096) (b : Fin 64), j = ix2 a b := ⟨j 0, j 1, eq_ix2 j⟩
  refine (dense_block (V c main_v6) (V c main_arg1) (V c main_v7) (V c main_v8) (V c main_v9) (win0_5.index t (0 : Fin 2)) e5le
    (iblk0 V c 0 t) (iblk0 V c 1 t) (iblk0 V c 2 t) (iblk0 V c 3 t) (iblk0 V c 4 t) ?_ ?_ ?_ ?_ ?_ a b).trans ?_
  · intro a k
    show V c main_v6 (((cfg0.win 0).blk t).view.emb (ix2 a k)) = _
    refine congrArg (V c main_v6) ?_
    funext ax; apply Fin.ext
    match ax with
    | ⟨0, _⟩ => show win0_0.index t (0 : Fin 2) * 4096 + 1 * a.val = win0_5.index t (0 : Fin 2) * 4096 + a.val; omega
    | ⟨1, _⟩ => show win0_0.index t (1 : Fin 2) * 64 + 1 * k.val = k.val; omega
  · intro a k
    show V c main_arg1 (((cfg0.win 1).blk t).view.emb (ix2 a k)) = _
    refine congrArg (V c main_arg1) ?_
    funext ax; apply Fin.ext
    match ax with
    | ⟨0, _⟩ => show win0_1.index t (0 : Fin 2) * 4096 + 1 * a.val = win0_5.index t (0 : Fin 2) * 4096 + a.val; omega
    | ⟨1, _⟩ => show win0_1.index t (1 : Fin 2) * 16 + 1 * k.val = k.val; omega
  · funext y
    show V c main_v7 (((cfg0.win 2).blk t).view.emb y) = V c main_v7 y
    refine congrArg (V c main_v7) ?_
    funext ax; apply Fin.ext
    match ax with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V c main_v8 (((cfg0.win 3).blk t).view.emb y) = V c main_v8 y
    refine congrArg (V c main_v8) ?_
    funext ax; apply Fin.ext
    match ax with
    | ⟨0, _⟩ => show win0_3.index t (0 : Fin 2) * 16 + 1 * (y 0).val = (y 0).val; omega
    | ⟨1, _⟩ => show win0_3.index t (1 : Fin 2) * 64 + 1 * (y 1).val = (y 1).val; omega
  · funext y
    show V c main_v9 (((cfg0.win 4).blk t).view.emb y) = V c main_v9 y
    refine congrArg (V c main_v9) ?_
    funext ax; apply Fin.ext
    match ax with
    | ⟨0, _⟩ => show win0_4.index t (0 : Fin 2) * 1 + 1 * (y 0).val = (y 0).val; omega
    | ⟨1, _⟩ => show win0_4.index t (1 : Fin 2) * 64 + 1 * (y 1).val = (y 1).val; omega
  · have hemb : ((cfg0.win 5).blk t).view.emb (ix2 a b)
        = ix2 (⟨win0_5.index t (0 : Fin 2) * 4096 + a.val, by have := a.isLt; omega⟩ : Fin 8192) b := by
      funext ax; apply Fin.ext
      match ax with
      | ⟨0, _⟩ => show win0_5.index t (0 : Fin 2) * 4096 + 1 * a.val = win0_5.index t (0 : Fin 2) * 4096 + a.val; omega
      | ⟨1, _⟩ => show win0_5.index t (1 : Fin 2) * 64 + 1 * b.val = b.val; omega
    show _ = dense0 (V c main_v6) (V c main_arg1) (V c main_v7) (V c main_v8) (V c main_v9) (((cfg0.win 5).blk t).view.emb (ix2 a b))
    rw [hemb]
    rfl

/-- An index of the output array is in point `t`'s block iff each coordinate is in the block's range on its axis. -/
theorem mem_blk0 (t : Fin cfg0.N) (i : S8192x64.Idx) :
    i ∈ ((cfg0.win 5).blk t).view.set ↔ ∀ a : Fin 2, win0_5.index t a * S4096x64.size a ≤ (i a).val
      ∧ (i a).val < win0_5.index t a * S4096x64.size a + S4096x64.size a := by
  show i ∈ ((View.whole main_v10).slice (win0_5.rect t)).set ↔ _
  rw [View.set_slice_whole, Rect.mem_set_unit]
  exact Iff.rfl

/-- Every index of the output array is in the block of the point that owns its row: row `r` is point `r / 4096`'s. -/
theorem cover0 (i : S8192x64.Idx) :
    ∃ t : Fin cfg0.N, (cfg0.win 5).flush t = true ∧ i ∈ ((cfg0.win 5).blk t).view.set := by
  have hi0 : (i 0).val < 8192 := (i 0).isLt
  have hi1 : (i 1).val < 64 := (i 1).isLt
  obtain ⟨t, ht⟩ := blockOnto0 ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 64 ≤ (i 1).val ∧ (i 1).val < win0_5.index t (1 : Fin 2) * 64 + 64; omega

/-- The output array after the region: the layer of the arrays the region finds, as one function of the index. -/
theorem final0 (c : Dev nD) :
    (dat0 (F := Ideal) V c).arrAt 5 cfg0.N = dense0 (V c main_v6) (V c main_arg1) (V c main_v7) (V c main_v8) (V c main_v9) :=
  (dat0 (F := Ideal) V c).arrAt_eq_of_cover 5 _ (fun t _ => flushed0_eq V c t) cover0

/-- The same, entry by entry. -/
theorem final0_at (c : Dev nD) (r : Fin 8192) (col : Fin 64) :
    (dat0 (F := Ideal) V c).arrAt 5 cfg0.N (ix2 r col)
      = denseAt (V c main_v6) (V c main_arg1) (V c main_v7) (V c main_v8) (V c main_v9) r col :=
  (congrFun (final0 V c) (ix2 r col)).trans rfl

end Cert.KernelIdeal.Hand

end
-- ==== Proof.KIRegion1Runs.lean ====
import proofs.«175327_j12429635354789_2_alg».proof.Proof.Gen.KernelIdeal.Launch
import proofs.«175327_j12429635354789_2_alg».proof.Proof.Gen.KernelIdeal.Skeleton
import proofs.«175327_j12429635354789_2_alg».proof.Proof.Gen.KernelIdeal.Points
import proofs.«175327_j12429635354789_2_alg».proof.Proof.LibStoreThenLoad
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form over the grid -/

/-- The condition of the body's first conditional (the running sum is reset), from the grid coordinates. -/
abbrev cond1_0 (i : grid1.Coords) : Prop := (Scalar.cmpi .ne (Scalar.extui (Scalar.cmpi .eq (BitVec.ofNat 32 (i 1).val) 0#32)) 0#32) = 1#1
/-- It holds exactly at the points whose column coordinate is 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the epilogue). -/
abbrev cond1_1 (i : grid1.Coords) : Prop := k1_cond2 i = 1#1
/-- It holds exactly at the points whose column coordinate is 3. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- Where the epilogue does not run the output window is idle, -/
theorem idleAt1_8 : ∀ t : Fin cfg1.N, ¬cond1_1 (grid1.coords t) → cfg1.idle 8 (grid1.coords t) = true := by decide +kernel
/-- and its block is not written back there. -/
theorem noFlush1_8 : ∀ t : Fin cfg1.N, ¬cond1_1 (grid1.coords t) → (cfg1.win 8).flush t = false := by decide +kernel
/-- Where the epilogue runs the output window is live. -/
theorem liveAt1_8 : ∀ t : Fin cfg1.N, cond1_1 (grid1.coords t) → cfg1.idle 8 (grid1.coords t) = false := by decide +kernel

/-- The zero offsets of a whole-buffer access, however spelt. -/
theorem hz2 : (![0, 0] : Fin 2 → ℕ) = fun _ => 0 := by
  funext a; fin_cases a <;> rfl

set_option maxHeartbeats 1000000 in
/-- CASE B (neither condition holds): the body adds this point's product to the running sum. On whole buffers, the
    three operands it reads at contents `x0 x1 x2` and the running sum at `s`, it runs to the continuation holding the
    operands as they were and the running sum at `k1_pay2 x0 x1 x2 s`. The other buffers are not touched. -/
theorem run1_B (c : Dev nD) (E : Set ℕ) (i : grid1.Coords) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2048x64 .f32) (harg10 : arg10.IsWhole) (arg11 : Memref sig .tc .vmem S2048x64 .f32) (harg11 : arg11.IsWhole)
    (hc0 : ¬cond1_0 i) (hc1 : ¬cond1_1 i)
    (x0 : Vec F S2048x1 .i32) (x1 : Vec F S1x2048 .i32) (x2 : Vec F S2048x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg11 fullShare (k1_pay2 x0 x1 x2 s)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero hz2 inb_S2048x64_S2048x64_0_0 y⟩),
    View.canon_cons_unit_zero hz2]
  simp only [View.readAt_eq_ld, View.readCov_unit_zero (S := S2048x64) _ hz2, View.ld_unit_zero (S := S2048x1) hz2,
    View.ld_unit_zero (S := S1x2048) hz2, View.ld_unit_zero (S := S2048x64) hz2, View.ld_unit_zero (S := S64x64) hz2,
    View.ld_unit_zero (S := S1x64) hz2]

set_option maxHeartbeats 1000000 in
/-- CASE A (the first condition holds, the second does not): the body resets the running sum to zero and adds this point's
    product to it. On whole buffers, the three operands it reads at contents `x0 x1 x2` and the running sum's buffer at
    anything, it runs to the continuation holding the operands as they were and the running sum at
    `k1_pay2 x0 x1 x2 k1_pay1`: the load that follows the reset reads the reset's value, the second store covers the
    buffer again. -/
theorem run1_A (c : Dev nD) (E : Set ℕ) (i : grid1.Coords) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2048x64 .f32) (harg10 : arg10.IsWhole) (arg11 : Memref sig .tc .vmem S2048x64 .f32) (harg11 : arg11.IsWhole)
    (hc0 : cond1_0 i) (hc1 : ¬cond1_1 i)
    (x0 : Vec F S2048x1 .i32) (x1 : Vec F S1x2048 .i32) (x2 : Vec F S2048x64 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg11 fullShare (k1_pay2 x0 x1 x2 (k1_pay1 (F := F)))) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_words
  rw [View.read_writes_eq_canon _ _ _ (fun y => ⟨_, List.mem_cons_self, View.mem_set_unit_zero hz2 inb_S2048x64_S2048x64_0_0 y⟩),
    View.canon_cons_unit_zero hz2]
  simp only [View.readAt_eq_ld, View.readCov_unit_zero (S := S2048x64) _ hz2, View.ld_unit_zero (S := S2048x1) hz2,
    View.ld_unit_zero (S := S1x2048) hz2, View.ld_unit_zero (S := S2048x64) hz2, View.ld_unit_zero (S := S64x64) hz2,
    View.ld_unit_zero (S := S1x64) hz2]

set_option maxHeartbeats 2000000 in
/-- CASE C (the second condition holds, the first does not): the body adds this point's product to the running sum and
    then stores the epilogue's value into the output window. On whole buffers, the eight operands at contents
    `x0 … x7`, the output's buffer at anything and the running sum at `s`, it runs to the continuation holding the operands
    as they were, the running sum at `k1_pay2 x0 x1 x2 s` and the output's buffer at the epilogue's value of that sum. -/
theorem run1_C (c : Dev nD) (E : Set ℕ) (i : grid1.Coords) (arg2 : Memref sig .tc .vmem S2048x1 .i32) (harg2 : arg2.IsWhole) (arg3 : Memref sig .tc .vmem S1x2048 .i32) (harg3 : arg3.IsWhole) (arg4 : Memref sig .tc .vmem S2048x64 .f32) (harg4 : arg4.IsWhole) (arg5 : Memref sig .tc .vmem S2048x64 .f32) (harg5 : arg5.IsWhole) (arg6 : Memref sig .tc .vmem S2048x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2048x64 .f32) (harg10 : arg10.IsWhole) (arg11 : Memref sig .tc .vmem S2048x64 .f32) (harg11 : arg11.IsWhole)
    (hc0 : ¬cond1_0 i) (hc1 : cond1_1 i)
    (x0 : Vec F S2048x1 .i32) (x1 : Vec F S1x2048 .i32) (x2 : Vec F S2048x64 .f32) (x3 : Vec F S2048x64 .f32) (x4 : Vec F S2048x64 .f32)
    (x5 : Vec F S64x64 .f32) (x6 : Vec F S64x64 .f32) (x7 : Vec F S1x64 .f32) (s : Vec F S2048x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay3 (k1_pay2 x0 x1 x2 s) x4 x3 x5 x6 x7) ∗ owns (c : Thread nD τ) arg11 fullShare (k1_pay2 x0 x1 x2 s)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9 arg10 harg10 arg11 harg11) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
  subst hf0; subst hf1; subst hf2; subst hf3; subst hf4; subst hf5; subst hf6; subst hf7; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (fun y => ⟨_, List.mem_cons_self, View.mem_set_unit_zero hz2 inb_S2048x64_S2048x64_0_0 y⟩),
      View.canon_cons_unit_zero hz2]
    simp only [View.readAt_eq_ld, View.readCov_unit_zero (S := S2048x64) _ hz2, View.ld_unit_zero (S := S2048x1) hz2,
      View.ld_unit_zero (S := S1x2048) hz2, View.ld_unit_zero (S := S2048x64) hz2, View.ld_unit_zero (S := S64x64) hz2,
      View.ld_unit_zero (S := S1x64) hz2]
  iexists _; isplitr
  swap; · iexact HS
  ipureintro
  sl_unfold_words
  rw [View.read_writes_eq_canon _ _ _ (fun y => ⟨_, List.mem_cons_self, View.mem_set_unit_zero hz2 inb_S2048x64_S2048x64_0_0 y⟩),
    View.canon_cons_unit_zero hz2]
  simp only [View.readAt_eq_ld, View.readCov_unit_zero (S := S2048x64) _ hz2, View.ld_unit_zero (S := S2048x1) hz2,
    View.ld_unit_zero (S := S1x2048) hz2, View.ld_unit_zero (S := S2048x64) hz2, View.ld_unit_zero (S := S64x64) hz2,
    View.ld_unit_zero (S := S1x64) hz2]

end Cert.KernelIdeal.Hand

end
-- ==== Proof.KIRegion1.lean ====
/-
  REGION 1 of @main (the fused kernel on the 4 x 4 grid), its half of the frame certificate, at a parameter `V`: the
  TensorCore's buffer contents when the region is entered.

  The body keeps a running sum in a scratch buffer that is carried from point to point: at the first point of each row of
  the grid (column 0) it is reset to zero, at every point the product of this point's mask tile with its operand block is
  added, and at the last point of each row (column 3) the epilogue reads the sum and stores the output window. So there
  are three control cases, told apart by the point's number modulo 4, each with its own run (in the runs module); what the
  scratch holds after each point is a recursion over the points (`accAt`), and the region's invariant carries it.

  Two of the windows read one array; they hold it at the two halves of the full share.
-/
import proofs.«175327_j12429635354789_2_alg».proof.Proof.KIRegion1Runs
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: where the window is not fetched its block index has
    not moved, so the block of the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: where the window is not fetched its block index has
    not moved, so the block of the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: where the window is not fetched its block index has
    not moved, so the block of the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: where the window is not fetched its block index has
    not moved, so the block of the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: where the window is not fetched its block index has
    not moved, so the block of the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s and whose body leaves the block in place: where the window is not fetched its block index has
    not moved, so the block of the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s and whose body leaves the block in place: where the window is not fetched its block index has
    not moved, so the block of the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s and whose body leaves the block in place: where the window is not fetched its block index has
    not moved, so the block of the point before is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The staging memrefs and the scratch -/

/-- Each window's current staging memref at point `t`, spelled as the pipeline passes it, and its wholeness. -/
abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2048x64 .f32 := win1_8.stage (cfg1.slots t 8)
abbrev hs1_8 (t : Fin cfg1.N) : (ms1_8 t).IsWhole := hstage1_8 ((cfg1.slots t 8).cast nbuf1_8)
/-- The scratch operand: a whole scoped buffer of the kernel's own, holding the running sum. -/
abbrev scM1 : Memref sig .tc .vmem S2048x64 .f32 := Memref.whole cc1_scratch0

/-- The input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl

/-! ## What the running sum and the output hold after each point -/

/-- One point's update of the running sum `a`: this point's product added to it (past the grid nothing changes). -/
def accStep (c : Dev nD) (n : ℕ) (a : Vec F S2048x64 .f32) : Vec F S2048x64 .f32 :=
  if h : n < cfg1.N then k1_pay2 (iblk1 V c 0 ⟨n, h⟩) (iblk1 V c 1 ⟨n, h⟩) (iblk1 V c 2 ⟨n, h⟩) a else a

/-- THE ACCUMULATION. The running sum after the body at point number `n`: at the first point of each row of the grid
    (column 0) it restarts from zero, elsewhere it continues from the point before. -/
def accAt (c : Dev nD) : ℕ → Vec F S2048x64 .f32
  | 0 => accStep V c 0 (k1_pay1 (F := F))
  | n + 1 => accStep V c (n + 1) (if (n + 1) % 4 = 0 then k1_pay1 (F := F) else accAt c n)

/-- The same at a point of the grid. -/
def accAfter (c : Dev nD) (t : Fin cfg1.N) : Vec F S2048x64 .f32 := accAt V c t.val

/-- Its recursion, at a point of the grid. -/
theorem accAt_eq (c : Dev nD) (t : Fin cfg1.N) :
    accAt V c t.val = k1_pay2 (iblk1 V c 0 t) (iblk1 V c 1 t) (iblk1 V c 2 t)
      (if t.val % 4 = 0 then k1_pay1 (F := F) else accAt V c (t.val - 1)) := by
  obtain ⟨n, hn⟩ := t
  cases n with
  | zero =>
    show accStep V c 0 (k1_pay1 (F := F)) = _
    unfold accStep; rw [dif_pos hn]; rfl
  | succ n =>
    show accStep V c (n + 1) (if (n + 1) % 4 = 0 then k1_pay1 (F := F) else accAt V c n) = _
    unfold accStep; rw [dif_pos hn]; rfl

/-- At a point of column 0 the running sum is this point's product alone. -/
theorem accAfter_reset (c : Dev nD) (t : Fin cfg1.N) (h : t.val % 4 = 0) :
    accAfter V c t = k1_pay2 (iblk1 V c 0 t) (iblk1 V c 1 t) (iblk1 V c 2 t) (k1_pay1 (F := F)) := by
  unfold accAfter; rw [accAt_eq, if_pos h]

/-- At any other point it is the sum at the point before plus this point's product. -/
theorem accAfter_step (c : Dev nD) (t : Fin cfg1.N) (h : ¬t.val % 4 = 0) :
    accAfter V c t = k1_pay2 (iblk1 V c 0 t) (iblk1 V c 1 t) (iblk1 V c 2 t) (accAt V c (t.val - 1)) := by
  unfold accAfter; rw [accAt_eq, if_neg h]

/-- What the epilogue stores into the output window at point `t` (consulted only at the points of column 3). -/
def out8 (c : Dev nD) (t : Fin cfg1.N) : Vec F S2048x64 .f32 :=
  k1_pay3 (accAfter V c t) (iblk1 V c 4 t) (iblk1 V c 3 t) (iblk1 V c 5 t) (iblk1 V c 6 t) (iblk1 V c 7 t)

/-! ## The region's invariant -/

/-- The part of the invariant the body never touches: the scoped buffers that are no staging buffer of this region at
    anything, and the generator register at some state. -/
def PhiRest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg5_0), ((c : Thread nD τ).loc cc0_stg5_0) ↦{fullShare} f)
      ∗ (∃ f : Buf (Elt F) ((c : Thread nD τ).loc cc0_stg5_1), ((c : Thread nD τ).loc cc0_stg5_1) ↦{fullShare} f)
      ∗ (∃ r, prngReg c r))

/-- The invariant before point number `n`: the rest, and the scratch holding the running sum the point before left —
    except before a point of column 0, which resets it, where its contents are not needed. -/
def Phi1 (c : Dev nD) (n : Fin (cfg1.N + 1)) : sProp 𝕄 :=
  iprop(PhiRest1 (F := F) c
      ∗ (∃ s : Vec F S2048x64 .f32, owns (c : Thread nD τ) scM1 fullShare s ∗ ⌜n.val % 4 = 0 ∨ s = accAt V c (n.val - 1)⌝))

/-- The invariant at a point's start, -/
theorem Phi1_castSucc (c : Dev nD) (t : Fin cfg1.N) :
    Phi1 V c t.castSucc = iprop(PhiRest1 (F := F) c
      ∗ (∃ s : Vec F S2048x64 .f32, owns (c : Thread nD τ) scM1 fullShare s ∗ ⌜t.val % 4 = 0 ∨ s = accAt V c (t.val - 1)⌝)) := rfl
/-- and at its end. -/
theorem Phi1_succ (c : Dev nD) (t : Fin cfg1.N) :
    Phi1 V c t.succ = iprop(PhiRest1 (F := F) c
      ∗ (∃ s : Vec F S2048x64 .f32, owns (c : Thread nD τ) scM1 fullShare s ∗ ⌜(t.val + 1) % 4 = 0 ∨ s = accAt V c t.val⌝)) := rfl

/-- What the launch hands the region is the invariant before the first point. -/
theorem Phi1_in (c : Dev nD) :
    iprop((∃ r, prngReg c r) ∗ (Pipeline.scopedRest spec1 c : sProp 𝕄)) ⊢ Phi1 V c 0 := by
  unfold Phi1 PhiRest1; rw [scopedRest1_eq]; simp only [scM1, owns_whole]
  iintro ⟨Hg, HR0, HR1, HR2, HR3, HR4, HR5, HR6, HR7, HR8, ⟨%f, HS⟩⟩
  isplitl [HR0 HR1 HR2 HR3 HR4 HR5 HR6 HR7 HR8 Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexact Hg
  iexists f; isplitl [HS]; · iexact HS
  ipureintro; exact Or.inl rfl

/-- After the last point the invariant gives it back: the running sum's contents are forgotten. -/
theorem Phi1_out (c : Dev nD) :
    Phi1 V c (Fin.last cfg1.N) ⊢ iprop((∃ r, prngReg c r) ∗ (Pipeline.scopedRest spec1 c : sProp 𝕄)) := by
  unfold Phi1 PhiRest1; rw [scopedRest1_eq]; simp only [scM1, owns_whole]
  iintro ⟨⟨HR0, HR1, HR2, HR3, HR4, HR5, HR6, HR7, HR8, Hg⟩, ⟨%f, HS, -⟩⟩
  isplitl [Hg]; · iexact Hg
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  iexists f; iexact HS

/-! ## The pipeline's proof data -/

/-- The proof data of pipeline 1 on core `c`: the arrays as the region finds them (`V`); after the body at point `t` each
    input's buffer at its block and the output's at the epilogue's value; the invariant `Phi1`; nothing owed; the two
    windows that read one array hold it at the two halves of the full share, every other window its array outright. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out8 V c t
  Φ n := Phi1 V c n
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out8 V c t := by dsimp only [dat1]

/-- The two windows on one array hold it at the two halves of the full share, which compose to it. -/
theorem q1_2 (c : Dev nD) : (dat1 V c).q 2 = fullShare.left := by dsimp only [dat1]
theorem q1_3 (c : Dev nD) : (dat1 V c).q 3 = fullShare.right := by dsimp only [dat1]
theorem q1_full (c : Dev nD) (w : Fin cfg1.W) (h2 : w ≠ 2) (h3 : w ≠ 3) : (dat1 V c).q w = fullShare := by
  dsimp only [dat1]; fin_cases w <;> first | rfl | exact absurd rfl h2 | exact absurd rfl h3
theorem q1_split : fullShare ∈ PCS.op (fullShare.left : PosShare TreeShare) fullShare.right := PosShare.mem_left_op_right fullShare

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body returns for each input window: its buffer at its block. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) :
    (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) :
    (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) :
    (dat1 V c).leavesExact 6 t = owns (c : Thread nD τ) (ms1_6 t) fullShare (iblk1 V c 6 t) := by
  unfold Dat.leavesExact; rw [liveAt1_6 t, after1_6]
theorem leaves1_7 (c : Dev nD) (t : Fin cfg1.N) :
    (dat1 V c).leavesExact 7 t = owns (c : Thread nD τ) (ms1_7 t) fullShare (iblk1 V c 7 t) := by
  unfold Dat.leavesExact; rw [liveAt1_7 t, after1_7]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4000000 in
/-- The body at any point. The inputs' memrefs hold their blocks; the closed forms of the two conditions say which of the
    three cases the point is in, and that case's run applies. The invariant hands the body the scratch at the running
    sum the point before left (at anything before a point of column 0, where the body resets it) and takes it back at
    this point's running sum; the output window's buffer is handed back untouched where the epilogue does not run, and
    holds the epilogue's value where it does; the rest of the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [leaves1_0, leaves1_1, leaves1_2, leaves1_3, leaves1_4, leaves1_5, leaves1_6, leaves1_7]
  rw [show (dat1 V c).owesAt () t.succ = (dat1 V c).owesAt () t.castSucc from rfl]
  rw [show (dat1 V c).Φ t.castSucc = Phi1 V c t.castSucc from rfl, show (dat1 V c).Φ t.succ = Phi1 V c t.succ from rfl,
    Phi1_castSucc, Phi1_succ]
  by_cases h0 : t.val % 4 = 0
  · -- column 0: reset, then update; the output window idle
    have hc0 : cond1_0 (grid1.coords t) := (hcond1_0 t).mpr h0
    have hc1 : ¬cond1_1 (grid1.coords t) := fun h => by have := (hcond1_1 t).mp h; omega
    rw [Dat.leavesExact_idle (dat1 V c) 8 t (idleAt1_8 t hc1) (noFlush1_8 t hc1)]
    iintro ⟨⟨HR, ⟨%s, HS, -⟩⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run1_A c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) hc0 hc1 (iblk1 V c 0 t) (iblk1 V c 1 t) (iblk1 V c 2 t) _)
    isplitl [H0]; · iexact H0
    isplitl [H1]; · iexact H1
    isplitl [H2]; · iexact H2
    isplitl [HS]; · iexists _; iexact HS
    iintro ⟨H0, H1, H2, HS⟩
    isplitl [HR HS]
    · isplitl [HR]; · iexact HR
      iexists _; isplitl [HS]; · iexact HS
      ipureintro; exact Or.inr (accAfter_reset V c t h0).symm
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond1_0 (grid1.coords t) := fun h => h0 ((hcond1_0 t).mp h)
    by_cases h1 : t.val % 4 = 3
    · -- column 3: update, then the epilogue stores the output window
      have hc1 : cond1_1 (grid1.coords t) := (hcond1_1 t).mpr h1
      rw [show (dat1 V c).leavesExact 8 t = owns (c : Thread nD τ) (ms1_8 t) fullShare (out8 V c t) from by
        unfold Dat.leavesExact; rw [liveAt1_8 t hc1, after1_8]]
      rw [show out8 V c t = k1_pay3 (k1_pay2 (iblk1 V c 0 t) (iblk1 V c 1 t) (iblk1 V c 2 t) (accAt V c (t.val - 1))) (iblk1 V c 4 t) (iblk1 V c 3 t) (iblk1 V c 5 t) (iblk1 V c 6 t) (iblk1 V c 7 t) from by
        unfold out8; rw [accAfter_step V c t h0]]
      iintro ⟨⟨HR, ⟨%s, HS, %hs⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain rfl : s = accAt V c (t.val - 1) := hs.resolve_left h0
      iapply (run1_C c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (accAt V c (t.val - 1)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HR HS]
      · isplitl [HR]; · iexact HR
        iexists _; isplitl [HS]; · iexact HS
        ipureintro; exact Or.inr (accAfter_step V c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- columns 1 and 2: update only; the output window idle
      have hc1 : ¬cond1_1 (grid1.coords t) := fun h => h1 ((hcond1_1 t).mp h)
      rw [Dat.leavesExact_idle (dat1 V c) 8 t (idleAt1_8 t hc1) (noFlush1_8 t hc1)]
      iintro ⟨⟨HR, ⟨%s, HS, %hs⟩⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      obtain rfl : s = accAt V c (t.val - 1) := hs.resolve_left h0
      iapply (run1_B c Set.univ (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) hc0 hc1 (iblk1 V c 0 t) (iblk1 V c 1 t) (iblk1 V c 2 t) (accAt V c (t.val - 1)) _)
      isplitl [H0]; · iexact H0
      isplitl [H1]; · iexact H1
      isplitl [H2]; · iexact H2
      isplitl [HS]; · iexact HS
      iintro ⟨H0, H1, H2, HS⟩
      isplitl [HR HS]
      · isplitl [HR]; · iexact HR
        iexists _; isplitl [HS]; · iexact HS
        ipureintro; exact Or.inr (accAfter_step V c t h0).symm
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.BridgeKeys.lean ====
/-
  The packed edge keys, and the two spellings of the reverse-edge mask.

  For node indices in [0, 20000) the 32-bit words s·32768 + d and d'·32768 + s' do not wrap
  (19999·32768 + 19999 < 2^31), and d, s' < 32768 are the remainders modulo 32768 of the two packed words: so
  the packed words are equal exactly when s = d' and d = s'.  One comparison of packed words, widened to 32 bits
  and read as a signed integer, and the conjunction of the two one-bit comparisons, read as an unsigned integer,
  are therefore the same number, 1 or 0, on the extended reals.
-/
import Idealize.ShloMosaic.PureOps.Ideal
import Idealize.ShloMosaic.PureOps.Ideal.Laws
import Idealize.ShloMosaic.Lib.ValueIdx

noncomputable section

namespace Cert.Bridge

open Idealize.ShloMosaic

/-- A 32-bit word whose signed value lies in [0, 20000) has that unsigned value. -/
theorem toNat_of_range (x : BitVec 32) (h : 0 ≤ x.toInt ∧ x.toInt < 20000) : x.toNat < 20000 := by
  have hx := x.isLt
  rw [BitVec.toInt_eq_toNat_cond] at h
  split at h <;> omega

/-- The packed words agree exactly when both pairs agree. -/
theorem key_eq_iff (s d s' d' : BitVec 32)
    (hs : 0 ≤ s.toInt ∧ s.toInt < 20000) (hd : 0 ≤ d.toInt ∧ d.toInt < 20000)
    (hs' : 0 ≤ s'.toInt ∧ s'.toInt < 20000) (hd' : 0 ≤ d'.toInt ∧ d'.toInt < 20000) :
    (s * 32768#32 + d = d' * 32768#32 + s') ↔ (s = d' ∧ d = s') := by
  have h1 := toNat_of_range s hs
  have h2 := toNat_of_range d hd
  have h3 := toNat_of_range s' hs'
  have h4 := toNat_of_range d' hd'
  constructor
  · intro h
    have hn := congrArg BitVec.toNat h
    simp only [BitVec.toNat_add, BitVec.toNat_mul, BitVec.toNat_ofNat] at hn
    constructor
    · apply BitVec.eq_of_toNat_eq; omega
    · apply BitVec.eq_of_toNat_eq; omega
  · rintro ⟨rfl, rfl⟩
    rfl

/-- The number a one-bit comparison of two words denotes: 1 when they are equal, else 0. -/
theorem cmpi_eq_word {w : Nat} (a b : BitVec w) : IntOp.cmpi .eq a b = if a = b then 1#1 else 0#1 := by
  unfold IntOp.cmpi
  by_cases h : a = b
  · subst h; simp
  · have hb : (a == b) = false := beq_eq_false_iff_ne.mpr h
    simp [h, hb]

/-- The kernel's mask word: one comparison, widened to 32 bits, read signed. -/
theorem maskK_scalar (kc kr : BitVec 32) :
    FloatOps.sitofp (F := Ideal) .f32 ((IntOp.cmpi .eq kc kr).setWidth 32) = if kc = kr then (1 : EReal) else 0 := by
  show (((((IntOp.cmpi .eq kc kr).setWidth 32).toInt : ℤ) : ℝ) : EReal) = _
  rw [cmpi_eq_word]
  by_cases h : kc = kr
  · rw [if_pos h, if_pos h]
    have : ((1#1).setWidth 32 : BitVec 32).toInt = 1 := by decide
    rw [this]; norm_num
  · rw [if_neg h, if_neg h]
    have : ((0#1).setWidth 32 : BitVec 32).toInt = 0 := by decide
    rw [this]; norm_num

/-- The reference's mask word: the conjunction of two comparisons, read unsigned. -/
theorem maskR_scalar (a b c d : BitVec 32) :
    FloatOps.uitofp (F := Ideal) .f32 (IntOp.andi (IntOp.cmpi .eq a b) (IntOp.cmpi .eq c d))
      = if a = b ∧ c = d then (1 : EReal) else 0 := by
  show ((((IntOp.andi (IntOp.cmpi .eq a b) (IntOp.cmpi .eq c d)).toNat : ℕ) : ℝ) : EReal) = _
  rw [cmpi_eq_word, cmpi_eq_word]
  by_cases h1 : a = b <;> by_cases h2 : c = d <;> simp [h1, h2, IntOp.andi]

/-- The two mask words are the same number when the four node indices are in range. -/
theorem mask_scalar_agree (s d s' d' : BitVec 32)
    (hs : 0 ≤ s.toInt ∧ s.toInt < 20000) (hd : 0 ≤ d.toInt ∧ d.toInt < 20000)
    (hs' : 0 ≤ s'.toInt ∧ s'.toInt < 20000) (hd' : 0 ≤ d'.toInt ∧ d'.toInt < 20000) :
    FloatOps.sitofp (F := Ideal) .f32
        ((IntOp.cmpi .eq (IntOp.addi (IntOp.muli s 32768#32) d) (IntOp.addi (IntOp.muli d' 32768#32) s')).setWidth 32)
      = FloatOps.uitofp (F := Ideal) .f32 (IntOp.andi (IntOp.cmpi .eq s d') (IntOp.cmpi .eq d s')) := by
  rw [maskK_scalar, maskR_scalar]
  have := key_eq_iff s d s' d' hs hd hs' hd'
  unfold IntOp.addi IntOp.muli
  by_cases h : s = d' ∧ d = s'
  · rw [if_pos (this.mpr h), if_pos h]
  · rw [if_neg (fun hk => h (this.mp hk)), if_neg h]

/-! Lifted to the entries of vectors of any shape. -/

section Vectors
variable {sh : Shape}

/-- An entry of the kernel's mask tile. -/
theorem maskK_apply (kc kr : IVec sh 32) (h : 1 < 32) (i : sh.Idx) :
    (sitofp .f32 (extui 32 (cmpi .eq kc kr) h) : FVec Ideal sh .f32) i = if kc i = kr i then (1 : EReal) else 0 :=
  maskK_scalar (kc i) (kr i)

/-- An entry of the reference's mask. -/
theorem maskR_apply (a b c d : IVec sh 32) (i : sh.Idx) :
    (uitofp .f32 (andi (cmpi .eq a b) (cmpi .eq c d)) : FVec Ideal sh .f32) i
      = if a i = b i ∧ c i = d i then (1 : EReal) else 0 :=
  maskR_scalar (a i) (b i) (c i) (d i)

/-- An entry of a packed key vector. -/
theorem key_apply (x y : IVec sh 32) (c : IVec sh 32) (i : sh.Idx) :
    addi (muli x c) y i = x i * c i + y i := rfl

end Vectors

/-- The mask as a number, on in-range indices: the kernel's comparison of packed keys is the indicator of
    "s = d' and d = s'". -/
theorem maskK_packed (s d s' d' : BitVec 32)
    (hs : 0 ≤ s.toInt ∧ s.toInt < 20000) (hd : 0 ≤ d.toInt ∧ d.toInt < 20000)
    (hs' : 0 ≤ s'.toInt ∧ s'.toInt < 20000) (hd' : 0 ≤ d'.toInt ∧ d'.toInt < 20000) :
    (if s * 32768#32 + d = d' * 32768#32 + s' then (1 : EReal) else 0) = if s = d' ∧ d = s' then (1 : EReal) else 0 := by
  have := key_eq_iff s d s' d' hs hd hs' hd'
  by_cases h : s = d' ∧ d = s'
  · rw [if_pos (this.mpr h), if_pos h]
  · rw [if_neg (fun hk => h (this.mp hk)), if_neg h]

end Cert.Bridge

end
-- ==== Proof.KIPay1.lean ====
/- The values the second kernel's body stores, read at an entry on the extended reals: the reset value is zero; the
   running sum's update adds, to the sum so far, the row of the 0/1 comparison tile (column key against row key)
   times the column of the edge-state block; the epilogue is the row of the edge states against the first update
   matrix, plus the row of (gathered aggregate minus running sum) against the second, plus the bias row. Rounding to
   the narrower format is the identity on the extended reals and each product into the zero accumulator is the
   textbook sum over the contracted axis. -/
import proofs.«175327_j12429635354789_2_alg».proof.Proof.Gen.KernelIdeal.Skeleton
import proofs.«175327_j12429635354789_2_alg».proof.Proof.LibMatmulNN
import proofs.«175327_j12429635354789_2_alg».proof.Proof.BridgeKeys
import Idealize.ShloMosaic.Lib.Pipeline.Value
import Idealize.ShloMosaic.Lib.ValueLayout
import Idealize.ShloMosaic.Lib.ValueIdx

noncomputable section

open scoped BigOperators

namespace Cert.KernelIdeal.Hand

open Cert.KernelIdeal Cert.KernelIdeal.Gen Idealize.ShloMosaic Idealize.SL.Sem
open Idealize.ShloMosaic.ValueIdx

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset value is zero everywhere. -/
theorem pay1_apply (i : S2048x64.Idx) : k1_pay1 (F := Ideal) i = 0 :=
  (congrFun (shapeCast_self (broadcast S2048x64 (Scalar.ofBits (F := Ideal) .f32 0x00000000#32)) shapeCasts_S2048x64_S2048x64) i).trans
    Ideal.ofBits_zero_f32

/-- An entry of the comparison tile: 1 where the column key at the row equals the row key at the column, else 0. -/
theorem maskTile_apply (x0 : IVec S2048x1 32) (x1 : IVec S1x2048 32) (p q : Fin 2048) :
    (truncf (F := Ideal) .bf16 (sitofp .f32 (extui 32 (cmpi .eq
        (broadcastTo S2048x2048 (shapeCast S2048x1 x0 shapeCasts_S2048x1_S2048x1) broadcasts_S2048x1_S2048x2048)
        (broadcastTo S2048x2048 (shapeCast S1x2048 x1 shapeCasts_S1x2048_S1x2048) broadcasts_S1x2048_S2048x2048)) natLt_1_32))
      bitsLt_bf16_f32) (ix2 p q)
      = if x0 (ix2 p (0 : Fin 1)) = x1 (ix2 (0 : Fin 1) q) then (1 : EReal) else 0 := by
  refine (Cert.Bridge.maskK_apply _ _ natLt_1_32 (ix2 p q)).trans ?_
  rw [broadcastTo_a1_ab_apply _ broadcasts_S2048x1_S2048x2048 p q,
    broadcastTo_1b_ab_apply _ broadcasts_S1x2048_S2048x2048 p q, shapeCast_self, shapeCast_self]

/-- The running sum's update at (p, k): the sum so far plus the tile's row p against the block's column k. -/
theorem pay2_apply (x0 : IVec S2048x1 32) (x1 : IVec S1x2048 32) (x2 : FVec Ideal S2048x64 .f32)
    (s : FVec Ideal S2048x64 .f32) (p : Fin 2048) (k : Fin 64) :
    k1_pay2 (F := Ideal) x0 x1 x2 s (ix2 p k)
      = s (ix2 p k) + ∑ q : Fin 2048,
          (if x0 (ix2 p (0 : Fin 1)) = x1 (ix2 (0 : Fin 1) q) then (1 : EReal) else 0) * x2 (ix2 q k) := by
  have e0 : k1_pay2 (F := Ideal) x0 x1 x2 s
      = shapeCast S2048x64 (addf s (matmul dot_S2048x2048_S2048x64_S2048x64_1_0_0_1_n_n none
          (truncf (F := Ideal) .bf16 (sitofp .f32 (extui 32 (cmpi .eq
        (broadcastTo S2048x2048 (shapeCast S2048x1 x0 shapeCasts_S2048x1_S2048x1) broadcasts_S2048x1_S2048x2048)
        (broadcastTo S2048x2048 (shapeCast S1x2048 x1 shapeCasts_S1x2048_S1x2048) broadcasts_S1x2048_S2048x2048)) natLt_1_32))
      bitsLt_bf16_f32)
          (truncf (F := Ideal) .bf16 (shapeCast S2048x64 x2 shapeCasts_S2048x64_S2048x64) bitsLt_bf16_f32)
          (constant S2048x64 .f32 0x00000000#32))) shapeCasts_S2048x64_S2048x64 := rfl
  have e1 := Cert.LibMatmulNN.matmul_zero_apply' dot_S2048x2048_S2048x64_S2048x64_1_0_0_1_n_n rfl rfl rfl rfl rfl rfl none
    (truncf (F := Ideal) .bf16 (sitofp .f32 (extui 32 (cmpi .eq
        (broadcastTo S2048x2048 (shapeCast S2048x1 x0 shapeCasts_S2048x1_S2048x1) broadcasts_S2048x1_S2048x2048)
        (broadcastTo S2048x2048 (shapeCast S1x2048 x1 shapeCasts_S1x2048_S1x2048) broadcasts_S1x2048_S2048x2048)) natLt_1_32))
      bitsLt_bf16_f32)
    (truncf (F := Ideal) .bf16 (shapeCast S2048x64 x2 shapeCasts_S2048x64_S2048x64) bitsLt_bf16_f32) p k
  rw [e0, shapeCast_self]
  refine (congrArg (s (ix2 p k) + ·) e1).trans ?_
  refine congrArg (s (ix2 p k) + ·) (Finset.sum_congr rfl fun q _ => ?_)
  rw [maskTile_apply x0 x1 p q]
  simp only [truncf_apply, shapeCast_self]

/-- The epilogue at (p, col). -/
theorem pay3_apply (a : FVec Ideal S2048x64 .f32) (mgb : FVec Ideal S2048x64 .f32) (esb : FVec Ideal S2048x64 .f32)
    (u1 u2 : FVec Ideal S64x64 .f32) (bb : FVec Ideal S1x64 .f32) (p : Fin 2048) (col : Fin 64) :
    k1_pay3 (F := Ideal) a mgb esb u1 u2 bb (ix2 p col)
      = ((∑ k : Fin 64, esb (ix2 p k) * u1 (ix2 k col)) + (∑ k : Fin 64, (mgb (ix2 p k) - a (ix2 p k)) * u2 (ix2 k col)))
        + bb (ix2 (0 : Fin 1) col) := by
  have e1 := Cert.LibMatmulNN.matmul_zero_apply' dot_S2048x64_S64x64_S2048x64_1_0_0_1_n_n rfl rfl rfl rfl rfl rfl none
    (truncf (F := Ideal) .bf16 (shapeCast S2048x64 esb shapeCasts_S2048x64_S2048x64) bitsLt_bf16_f32)
    (truncf (F := Ideal) .bf16 (shapeCast S64x64 u1 shapeCasts_S64x64_S64x64) bitsLt_bf16_f32) p col
  have e2 := Cert.LibMatmulNN.matmul_zero_apply' dot_S2048x64_S64x64_S2048x64_1_0_0_1_n_n rfl rfl rfl rfl rfl rfl none
    (truncf (F := Ideal) .bf16 (subf (shapeCast S2048x64 mgb shapeCasts_S2048x64_S2048x64) a) bitsLt_bf16_f32)
    (truncf (F := Ideal) .bf16 (shapeCast S64x64 u2 shapeCasts_S64x64_S64x64) bitsLt_bf16_f32) p col
  have e3 := broadcastTo_1b_ab_apply (shapeCast S1x64 bb shapeCasts_S1x64_S1x64) broadcasts_S1x64_S2048x64 p col
  refine Eq.trans (b := ((∑ k : Fin 64, (truncf (F := Ideal) .bf16 (shapeCast S2048x64 esb shapeCasts_S2048x64_S2048x64) bitsLt_bf16_f32) (ix2 p k)
        * (truncf (F := Ideal) .bf16 (shapeCast S64x64 u1 shapeCasts_S64x64_S64x64) bitsLt_bf16_f32) (ix2 k col))
      + (∑ k : Fin 64, (truncf (F := Ideal) .bf16 (subf (shapeCast S2048x64 mgb shapeCasts_S2048x64_S2048x64) a) bitsLt_bf16_f32) (ix2 p k)
        * (truncf (F := Ideal) .bf16 (shapeCast S64x64 u2 shapeCasts_S64x64_S64x64) bitsLt_bf16_f32) (ix2 k col)))
      + (shapeCast S1x64 bb shapeCasts_S1x64_S1x64) (ix2 (0 : Fin 1) col)) ?_ ?_
  · rw [← e1, ← e2, ← e3]; rfl
  · simp only [truncf_apply, shapeCast_self, subf_apply]

end Cert.KernelIdeal.Hand

end
-- ==== Proof.KIValue1.lean ====
/- Region 1 of @main, read as a value: the array its output window ends holding, entry by entry. The running sum a
   row of the grid leaves after its last point is the total, from zero, of the four column tiles' sums (each the row
   of the 0/1 key comparison against the column of the edge states); the epilogue of that point stores, for its rows,
   the edge states against the first update matrix, plus the gathered aggregate minus that total against the second,
   plus the bias row; and the four flushing points' blocks tile the output array. -/
import proofs.«175327_j12429635354789_2_alg».proof.Proof.KIRegion1
import proofs.«175327_j12429635354789_2_alg».proof.Proof.KIPay1
import Idealize.ShloMosaic.Lib.Pipeline.Value
import Idealize.ShloMosaic.Lib.ValueLayout
import Idealize.ShloMosaic.Lib.ValueIdx

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The entry forms, over whole arrays -/

/-- Column tile s of the reverse-edge sum at row r and column k: over the 2048 positions of the tile, the 0/1
    comparison of the column key at r with the row key at the position, times the edge state at the position. -/
def tileSum (KC : S8192x1.Idx → BitVec 32) (KR : S1x8192.Idx → BitVec 32) (ES : S8192x64.Idx → EReal)
    (r : Fin 8192) (k : Fin 64) (s : Fin 4) : EReal :=
  ∑ q : Fin 2048,
    (if KC (ix2 r (0 : Fin 1))
          = KR (ix2 (0 : Fin 1) (⟨2048 * s.val + q.val, by have := q.isLt; have := s.isLt; omega⟩ : Fin 8192))
      then (1 : EReal) else 0)
      * ES (ix2 (⟨2048 * s.val + q.val, by have := q.isLt; have := s.isLt; omega⟩ : Fin 8192) k)

/-- The four tiles accumulated from zero, in the order the grid visits them. -/
def revAt (KC : S8192x1.Idx → BitVec 32) (KR : S1x8192.Idx → BitVec 32) (ES : S8192x64.Idx → EReal)
    (r : Fin 8192) (k : Fin 64) : EReal :=
  (((0 + tileSum KC KR ES r k 0) + tileSum KC KR ES r k 1) + tileSum KC KR ES r k 2) + tileSum KC KR ES r k 3

/-- The output at row r and column col. -/
def outAt (KC : S8192x1.Idx → BitVec 32) (KR : S1x8192.Idx → BitVec 32) (ES MG : S8192x64.Idx → EReal)
    (U1 U2 : S64x64.Idx → EReal) (B2 : S1x64.Idx → EReal) (r : Fin 8192) (col : Fin 64) : EReal :=
  ((∑ k : Fin 64, ES (ix2 r k) * U1 (ix2 k col)) + (∑ k : Fin 64, (MG (ix2 r k) - revAt KC KR ES r k) * U2 (ix2 k col)))
    + B2 (ix2 (0 : Fin 1) col)

/-- The output at an entry, written out. -/
theorem outAt_def (KC : S8192x1.Idx → BitVec 32) (KR : S1x8192.Idx → BitVec 32) (ES MG : S8192x64.Idx → EReal)
    (U1 U2 : S64x64.Idx → EReal) (B2 : S1x64.Idx → EReal) (r : Fin 8192) (col : Fin 64) :
    outAt KC KR ES MG U1 U2 B2 r col
      = ((∑ k : Fin 64, ES (ix2 r k) * U1 (ix2 k col))
          + (∑ k : Fin 64, (MG (ix2 r k)
              - ((((0 + tileSum KC KR ES r k 0) + tileSum KC KR ES r k 1) + tileSum KC KR ES r k 2) + tileSum KC KR ES r k 3))
              * U2 (ix2 k col)))
        + B2 (ix2 (0 : Fin 1) col) := rfl

/-- The same as one function of the output array's index. -/
def out1 (KC : S8192x1.Idx → BitVec 32) (KR : S1x8192.Idx → BitVec 32) (ES MG : S8192x64.Idx → EReal)
    (U1 U2 : S64x64.Idx → EReal) (B2 : S1x64.Idx → EReal) : S8192x64.Idx → EReal :=
  fun i => outAt KC KR ES MG U1 U2 B2 (i 0) (i 1)

/-! ## One point's blocks against the whole arrays -/

/-- The running sum's update, when the key column block is rows 2048·i … of KC, the key row block columns 2048·s … of
    KR and the operand block rows 2048·s … of ES: the sum so far plus tile s at row 2048·i + p. -/
theorem tile_block (KC : S8192x1.Idx → BitVec 32) (KR : S1x8192.Idx → BitVec 32) (ES : S8192x64.Idx → EReal)
    (i s : Fin 4) (x0 : IVec S2048x1 32) (x1 : IVec S1x2048 32) (x2 : FVec Ideal S2048x64 .f32)
    (acc : FVec Ideal S2048x64 .f32)
    (h0 : ∀ p : Fin 2048, x0 (ix2 p (0 : Fin 1))
      = KC (ix2 (⟨2048 * i.val + p.val, by have := p.isLt; have := i.isLt; omega⟩ : Fin 8192) (0 : Fin 1)))
    (h1 : ∀ q : Fin 2048, x1 (ix2 (0 : Fin 1) q)
      = KR (ix2 (0 : Fin 1) (⟨2048 * s.val + q.val, by have := q.isLt; have := s.isLt; omega⟩ : Fin 8192)))
    (h2 : ∀ (q : Fin 2048) (k : Fin 64), x2 (ix2 q k)
      = ES (ix2 (⟨2048 * s.val + q.val, by have := q.isLt; have := s.isLt; omega⟩ : Fin 8192) k))
    (p : Fin 2048) (k : Fin 64) :
    k1_pay2 (F := Ideal) x0 x1 x2 acc (ix2 p k)
      = acc (ix2 p k) + tileSum KC KR ES ⟨2048 * i.val + p.val, by have := p.isLt; have := i.isLt; omega⟩ k s := by
  rw [pay2_apply]
  unfold tileSum
  simp only [h0, h1, h2]

/-- The epilogue, when the running sum is the accumulated total at rows 2048·i …, the aggregate and edge-state blocks
    are rows 2048·i … of MG and ES and the three small blocks are the whole of U1, U2 and the bias row. -/
theorem epilogue_block (KC : S8192x1.Idx → BitVec 32) (KR : S1x8192.Idx → BitVec 32) (ES MG : S8192x64.Idx → EReal)
    (U1 U2 : S64x64.Idx → EReal) (B2 : S1x64.Idx → EReal) (i : Fin 4)
    (a mgb esb : FVec Ideal S2048x64 .f32) (u1 u2 : FVec Ideal S64x64 .f32) (bb : FVec Ideal S1x64 .f32)
    (ha : ∀ (p : Fin 2048) (k : Fin 64), a (ix2 p k)
      = revAt KC KR ES ⟨2048 * i.val + p.val, by have := p.isLt; have := i.isLt; omega⟩ k)
    (h4 : ∀ (p : Fin 2048) (k : Fin 64), mgb (ix2 p k)
      = MG (ix2 (⟨2048 * i.val + p.val, by have := p.isLt; have := i.isLt; omega⟩ : Fin 8192) k))
    (h3 : ∀ (p : Fin 2048) (k : Fin 64), esb (ix2 p k)
      = ES (ix2 (⟨2048 * i.val + p.val, by have := p.isLt; have := i.isLt; omega⟩ : Fin 8192) k))
    (h5 : u1 = U1) (h6 : u2 = U2) (h7 : bb = B2) (p : Fin 2048) (col : Fin 64) :
    k1_pay3 (F := Ideal) a mgb esb u1 u2 bb (ix2 p col)
      = outAt KC KR ES MG U1 U2 B2 ⟨2048 * i.val + p.val, by have := p.isLt; have := i.isLt; omega⟩ col := by
  rw [pay3_apply]
  subst h5 h6 h7
  unfold outAt
  simp only [ha, h4, h3]

/-! ## From the blocks to the array -/

variable (V : (c : Dev nD) → (b : Ref sig .tc) → Buf (Elt Ideal) ((c : Thread nD τ).loc b))

/-- The printed index maps, decided over the grid's sixteen points: with i = t / 4 the row of the grid and j = t % 4
    its column, the key column, the row operands of the epilogue and the output sit at row block i, the key row at
    column block j, the accumulated operand at row block j, and the three small operands never move. -/
theorem blockIndex1 : ∀ t : Fin cfg1.N,
    win1_0.index t (0 : Fin 2) = t.val / 4 ∧ win1_0.index t (1 : Fin 2) = 0
    ∧ win1_1.index t (0 : Fin 2) = 0 ∧ win1_1.index t (1 : Fin 2) = t.val % 4
    ∧ win1_2.index t (0 : Fin 2) = t.val % 4 ∧ win1_2.index t (1 : Fin 2) = 0
    ∧ win1_3.index t (0 : Fin 2) = t.val / 4 ∧ win1_3.index t (1 : Fin 2) = 0
    ∧ win1_4.index t (0 : Fin 2) = t.val / 4 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val / 4 ∧ win1_8.index t (1 : Fin 2) = 0 :=
  (by decide +kernel : ∀ t : Fin grid1.N, _)

/-- Each of the four row blocks of the output is the block of a point of the last column. -/
theorem blockOnto1 : ∀ q : Fin 4, ∃ t : Fin cfg1.N, win1_8.index t = ![q.val, 0] ∧ t.val % 4 = 3 :=
  (by decide +kernel : ∀ q : Fin 4, ∃ t : Fin grid1.N, win1_8.index t = ![q.val, 0] ∧ t.val % 4 = 3)

section Blocks
variable (c : Dev nD) (t : Fin cfg1.N) (i s : Fin 4) (ht : t.val = 4 * i.val + s.val)
include ht

/-- The key column block at point t is rows 2048·i … of the key column. -/
theorem blk1_0 (p : Fin 2048) : iblk1 V c 0 t (ix2 p (0 : Fin 1))
    = V c main_v26 (ix2 (⟨2048 * i.val + p.val, by have := p.isLt; have := i.isLt; omega⟩ : Fin 8192) (0 : Fin 1)) := by
  obtain ⟨e0, e1, -⟩ := blockIndex1 t
  have := s.isLt
  show V c main_v26 (((cfg1.win 0).blk t).view.emb (ix2 p (0 : Fin 1))) = _
  refine congrArg (V c main_v26) ?_
  funext ax; apply Fin.ext
  match ax with
  | ⟨0, _⟩ => show win1_0.index t (0 : Fin 2) * 2048 + 1 * p.val = 2048 * i.val + p.val; omega
  | ⟨1, _⟩ => show win1_0.index t (1 : Fin 2) * 1 + 1 * 0 = 0; omega

/-- The key row block at point t is columns 2048·s … of the key row. -/
theorem blk1_1 (q : Fin 2048) : iblk1 V c 1 t (ix2 (0 : Fin 1) q)
    = V c main_v30 (ix2 (0 : Fin 1) (⟨2048 * s.val + q.val, by have := q.isLt; have := s.isLt; omega⟩ : Fin 8192)) := by
  obtain ⟨-, -, e0, e1, -⟩ := blockIndex1 t
  have := s.isLt
  show V c main_v30 (((cfg1.win 1).blk t).view.emb (ix2 (0 : Fin 1) q)) = _
  refine congrArg (V c main_v30) ?_
  funext ax; apply Fin.ext
  match ax with
  | ⟨0, _⟩ => show win1_1.index t (0 : Fin 2) * 1 + 1 * 0 = 0; omega
  | ⟨1, _⟩ => show win1_1.index t (1 : Fin 2) * 2048 + 1 * q.val = 2048 * s.val + q.val; omega

/-- The accumulated operand's block at point t is rows 2048·s … of the edge states. -/
theorem blk1_2 (q : Fin 2048) (k : Fin 64) : iblk1 V c 2 t (ix2 q k)
    = V c main_v10 (ix2 (⟨2048 * s.val + q.val, by have := q.isLt; have := s.isLt; omega⟩ : Fin 8192) k) := by
  obtain ⟨-, -, -, -, e0, e1, -⟩ := blockIndex1 t
  have := s.isLt
  show V c main_v10 (((cfg1.win 2).blk t).view.emb (ix2 q k)) = _
  refine congrArg (V c main_v10) ?_
  funext ax; apply Fin.ext
  match ax with
  | ⟨0, _⟩ => show win1_2.index t (0 : Fin 2) * 2048 + 1 * q.val = 2048 * s.val + q.val; omega
  | ⟨1, _⟩ => show win1_2.index t (1 : Fin 2) * 64 + 1 * k.val = k.val; omega

/-- The epilogue's edge-state block at point t is rows 2048·i … of the edge states. -/
theorem blk1_3 (p : Fin 2048) (k : Fin 64) : iblk1 V c 3 t (ix2 p k)
    = V c main_v10 (ix2 (⟨2048 * i.val + p.val, by have := p.isLt; have := i.isLt; omega⟩ : Fin 8192) k) := by
  obtain ⟨-, -, -, -, -, -, e0, e1, -⟩ := blockIndex1 t
  have := s.isLt
  show V c main_v10 (((cfg1.win 3).blk t).view.emb (ix2 p k)) = _
  refine congrArg (V c main_v10) ?_
  funext ax; apply Fin.ext
  match ax with
  | ⟨0, _⟩ => show win1_3.index t (0 : Fin 2) * 2048 + 1 * p.val = 2048 * i.val + p.val; omega
  | ⟨1, _⟩ => show win1_3.index t (1 : Fin 2) * 64 + 1 * k.val = k.val; omega

/-- The aggregate's block at point t is rows 2048·i … of the gathered aggregate. -/
theorem blk1_4 (p : Fin 2048) (k : Fin 64) : iblk1 V c 4 t (ix2 p k)
    = V c main_v20 (ix2 (⟨2048 * i.val + p.val, by have := p.isLt; have := i.isLt; omega⟩ : Fin 8192) k) := by
  obtain ⟨-, -, -, -, -, -, -, -, e0, e1, -⟩ := blockIndex1 t
  have := s.isLt
  show V c main_v20 (((cfg1.win 4).blk t).view.emb (ix2 p k)) = _
  refine congrArg (V c main_v20) ?_
  funext ax; apply Fin.ext
  match ax with
  | ⟨0, _⟩ => show win1_4.index t (0 : Fin 2) * 2048 + 1 * p.val = 2048 * i.val + p.val; omega
  | ⟨1, _⟩ => show win1_4.index t (1 : Fin 2) * 64 + 1 * k.val = k.val; omega

omit ht in
/-- The three small operands' blocks are their whole arrays. -/
theorem blk1_5 : iblk1 V c 5 t = V c main_v21 := by
  obtain ⟨-, -, -, -, -, -, -, -, -, -, e0, e1, -⟩ := blockIndex1 t
  funext y
  show V c main_v21 (((cfg1.win 5).blk t).view.emb y) = V c main_v21 y
  refine congrArg (V c main_v21) ?_
  funext ax; apply Fin.ext
  match ax with
  | ⟨0, _⟩ => show win1_5.index t (0 : Fin 2) * 64 + 1 * (y 0).val = (y 0).val; omega
  | ⟨1, _⟩ => show win1_5.index t (1 : Fin 2) * 64 + 1 * (y 1).val = (y 1).val; omega

omit ht in
theorem blk1_6 : iblk1 V c 6 t = V c main_v22 := by
  obtain ⟨-, -, -, -, -, -, -, -, -, -, -, -, e0, e1, -⟩ := blockIndex1 t
  funext y
  show V c main_v22 (((cfg1.win 6).blk t).view.emb y) = V c main_v22 y
  refine congrArg (V c main_v22) ?_
  funext ax; apply Fin.ext
  match ax with
  | ⟨0, _⟩ => show win1_6.index t (0 : Fin 2) * 64 + 1 * (y 0).val = (y 0).val; omega
  | ⟨1, _⟩ => show win1_6.index t (1 : Fin 2) * 64 + 1 * (y 1).val = (y 1).val; omega

omit ht in
theorem blk1_7 : iblk1 V c 7 t = V c main_v31 := by
  obtain ⟨-, -, -, -, -, -, -, -, -, -, -, -, -, -, e0, e1, -⟩ := blockIndex1 t
  funext y
  show V c main_v31 (((cfg1.win 7).blk t).view.emb y) = V c main_v31 y
  refine congrArg (V c main_v31) ?_
  funext ax; apply Fin.ext
  match ax with
  | ⟨0, _⟩ => show win1_7.index t (0 : Fin 2) * 1 + 1 * (y 0).val = (y 0).val; omega
  | ⟨1, _⟩ => show win1_7.index t (1 : Fin 2) * 64 + 1 * (y 1).val = (y 1).val; omega

/-- One point's update of any running sum, against the whole arrays. -/
theorem acc_step (acc : FVec Ideal S2048x64 .f32) (p : Fin 2048) (k : Fin 64) :
    k1_pay2 (F := Ideal) (iblk1 V c 0 t) (iblk1 V c 1 t) (iblk1 V c 2 t) acc (ix2 p k)
      = acc (ix2 p k) + tileSum (V c main_v26) (V c main_v30) (V c main_v10)
          ⟨2048 * i.val + p.val, by have := p.isLt; have := i.isLt; omega⟩ k s :=
  tile_block (V c main_v26) (V c main_v30) (V c main_v10) i s (iblk1 V c 0 t) (iblk1 V c 1 t) (iblk1 V c 2 t) acc
    (fun p => blk1_0 V c t i s ht p) (fun q => blk1_1 V c t i s ht q) (fun q k => blk1_2 V c t i s ht q k) p k

end Blocks

/-! ## The running sum along a row of the grid -/

/-- After the last point of row i of the grid the running sum holds, at (p, k), the four tiles of row 2048·i + p
    accumulated from zero. -/
theorem acc_row (c : Dev nD) (i : Fin 4) (p : Fin 2048) (k : Fin 64) :
    accAt V c (4 * i.val + 3) (ix2 p k)
      = revAt (V c main_v26) (V c main_v30) (V c main_v10)
          ⟨2048 * i.val + p.val, by have := p.isLt; have := i.isLt; omega⟩ k := by
  have hi := i.isLt
  have hN : cfg1.N = 16 := rfl
  have e0 : accAt V c (4 * i.val) (ix2 p k)
      = 0 + tileSum (V c main_v26) (V c main_v30) (V c main_v10)
          ⟨2048 * i.val + p.val, by have := p.isLt; omega⟩ k 0 := by
    have h := accAt_eq V c ⟨4 * i.val, by rw [hN]; omega⟩
    rw [if_pos (show (4 * i.val) % 4 = 0 by omega)] at h
    rw [show accAt V c (4 * i.val) = _ from h,
      acc_step V c ⟨4 * i.val, by rw [hN]; omega⟩ i 0 (by show 4 * i.val = 4 * i.val + 0; omega), pay1_apply]
  have e1 : accAt V c (4 * i.val + 1) (ix2 p k)
      = accAt V c (4 * i.val) (ix2 p k) + tileSum (V c main_v26) (V c main_v30) (V c main_v10)
          ⟨2048 * i.val + p.val, by have := p.isLt; omega⟩ k 1 := by
    have h := accAt_eq V c ⟨4 * i.val + 1, by rw [hN]; omega⟩
    rw [if_neg (show ¬(4 * i.val + 1) % 4 = 0 by omega)] at h
    rw [show accAt V c (4 * i.val + 1) = _ from h,
      acc_step V c ⟨4 * i.val + 1, by rw [hN]; omega⟩ i 1 (by show 4 * i.val + 1 = 4 * i.val + 1; rfl)]
    rfl
  have e2 : accAt V c (4 * i.val + 2) (ix2 p k)
      = accAt V c (4 * i.val + 1) (ix2 p k) + tileSum (V c main_v26) (V c main_v30) (V c main_v10)
          ⟨2048 * i.val + p.val, by have := p.isLt; omega⟩ k 2 := by
    have h := accAt_eq V c ⟨4 * i.val + 2, by rw [hN]; omega⟩
    rw [if_neg (show ¬(4 * i.val + 2) % 4 = 0 by omega)] at h
    rw [show accAt V c (4 * i.val + 2) = _ from h,
      acc_step V c ⟨4 * i.val + 2, by rw [hN]; omega⟩ i 2 (by show 4 * i.val + 2 = 4 * i.val + 2; rfl)]
    rfl
  have e3 : accAt V c (4 * i.val + 3) (ix2 p k)
      = accAt V c (4 * i.val + 2) (ix2 p k) + tileSum (V c main_v26) (V c main_v30) (V c main_v10)
          ⟨2048 * i.val + p.val, by have := p.isLt; omega⟩ k 3 := by
    have h := accAt_eq V c ⟨4 * i.val + 3, by rw [hN]; omega⟩
    rw [if_neg (show ¬(4 * i.val + 3) % 4 = 0 by omega)] at h
    rw [show accAt V c (4 * i.val + 3) = _ from h,
      acc_step V c ⟨4 * i.val + 3, by rw [hN]; omega⟩ i 3 (by show 4 * i.val + 3 = 4 * i.val + 3; rfl)]
    rfl
  rw [e3, e2, e1, e0]
  rfl

/-! ## The output array -/

/-- What a point of the last column writes back is its block of the output's entry form. -/
theorem flushed1_eq (c : Dev nD) (t : Fin cfg1.N) (h3 : t.val % 4 = 3) :
    (dat1 (F := Ideal) V c).flushed 8 t
      = ((cfg1.win 8).blk t).view.read (Elt Ideal)
          (out1 (V c main_v26) (V c main_v30) (V c main_v10) (V c main_v20) (V c main_v21) (V c main_v22) (V c main_v31)) := by
  have hN : cfg1.N = 16 := rfl
  have htl : t.val < 16 := hN ▸ t.isLt
  let i : Fin 4 := ⟨t.val / 4, by omega⟩
  have ht : t.val = 4 * i.val + (3 : Fin 4).val := by show t.val = 4 * (t.val / 4) + 3; omega
  show (cfg1.win 8).cut (grid1.coords t) ((dat1 V c).after 8 t) = _
  rw [after1_8]
  unfold out8
  obtain ⟨-, -, -, -, -, -, -, -, -, -, -, -, -, -, -, -, e80, e81⟩ := blockIndex1 t
  funext j
  obtain ⟨p, col, rfl⟩ : ∃ (p : Fin 2048) (col : Fin 64), j = ix2 p col := ⟨j 0, j 1, eq_ix2 j⟩
  refine (epilogue_block (V c main_v26) (V c main_v30) (V c main_v10) (V c main_v20) (V c main_v21) (V c main_v22) (V c main_v31) i
    (accAfter V c t) (iblk1 V c 4 t) (iblk1 V c 3 t) (iblk1 V c 5 t) (iblk1 V c 6 t) (iblk1 V c 7 t) ?_ ?_ ?_ ?_ ?_ ?_ p col).trans ?_
  · intro p k
    have hacc : accAfter V c t = accAt V c (4 * i.val + 3) := by
      unfold accAfter
      exact congrArg (accAt V c) (by show t.val = 4 * (t.val / 4) + 3; omega)
    rw [hacc]
    exact acc_row V c i p k
  · exact fun p k => blk1_4 V c t i 3 ht p k
  · exact fun p k => blk1_3 V c t i 3 ht p k
  · exact blk1_5 V c t
  · exact blk1_6 V c t
  · exact blk1_7 V c t
  · have hemb : ((cfg1.win 8).blk t).view.emb (ix2 p col)
        = ix2 (⟨2048 * i.val + p.val, by have := p.isLt; have := i.isLt; omega⟩ : Fin 8192) col := by
      funext ax; apply Fin.ext
      match ax with
      | ⟨0, _⟩ => show win1_8.index t (0 : Fin 2) * 2048 + 1 * p.val = 2048 * (t.val / 4) + p.val; omega
      | ⟨1, _⟩ => show win1_8.index t (1 : Fin 2) * 64 + 1 * col.val = col.val; omega
    show _ = out1 (V c main_v26) (V c main_v30) (V c main_v10) (V c main_v20) (V c main_v21) (V c main_v22) (V c main_v31)
      (((cfg1.win 8).blk t).view.emb (ix2 p col))
    rw [hemb]
    rfl

/-- An index of the output array is in point t's block iff each coordinate is in the block's range on its axis. -/
theorem mem_blk1 (t : Fin cfg1.N) (i : S8192x64.Idx) :
    i ∈ ((cfg1.win 8).blk t).view.set ↔ ∀ a : Fin 2, win1_8.index t a * S2048x64.size a ≤ (i a).val
      ∧ (i a).val < win1_8.index t a * S2048x64.size a + S2048x64.size a := by
  show i ∈ ((View.whole main_v32).slice (win1_8.rect t)).set ↔ _
  rw [View.set_slice_whole, Rect.mem_set_unit]
  exact Iff.rfl

/-- Every index of the output array is in the block of a flushing point: row r is the last point's of row r / 2048
    of the grid. -/
theorem cover1 (i : S8192x64.Idx) :
    ∃ t : Fin cfg1.N, (cfg1.win 8).flush t = true ∧ i ∈ ((cfg1.win 8).blk t).view.set := by
  have hi0 : (i 0).val < 8192 := (i 0).isLt
  have hi1 : (i 1).val < 64 := (i 1).isLt
  obtain ⟨t, ht, h3⟩ := blockOnto1 ⟨(i 0).val / 2048, by omega⟩
  have q0 : win1_8.index t (0 : Fin 2) = (i 0).val / 2048 := congrFun ht 0
  have q1 : win1_8.index t (1 : Fin 2) = 0 := congrFun ht 1
  refine ⟨t, (flush1_8 t).mpr h3, ?_⟩
  rw [mem_blk1]
  intro a
  match a with
  | ⟨0, _⟩ => show win1_8.index t (0 : Fin 2) * 2048 ≤ (i 0).val ∧ (i 0).val < win1_8.index t (0 : Fin 2) * 2048 + 2048; omega
  | ⟨1, _⟩ => show win1_8.index t (1 : Fin 2) * 64 ≤ (i 1).val ∧ (i 1).val < win1_8.index t (1 : Fin 2) * 64 + 64; omega

/-- The output array after the region, as one function of the index. -/
theorem final1 (c : Dev nD) :
    (dat1 (F := Ideal) V c).arrAt 8 cfg1.N
      = out1 (V c main_v26) (V c main_v30) (V c main_v10) (V c main_v20) (V c main_v21) (V c main_v22) (V c main_v31) :=
  (dat1 (F := Ideal) V c).arrAt_eq_of_cover 8 _ (fun t hf => flushed1_eq V c t ((flush1_8 t).mp hf)) cover1

/-- The same, entry by entry. -/
theorem final1_at (c : Dev nD) (r : Fin 8192) (col : Fin 64) :
    (dat1 (F := Ideal) V c).arrAt 8 cfg1.N (ix2 r col)
      = outAt (V c main_v26) (V c main_v30) (V c main_v10) (V c main_v20) (V c main_v21) (V c main_v22) (V c main_v31) r col :=
  (congrFun (final1 V c) (ix2 r col)).trans rfl

end Cert.KernelIdeal.Hand

end
-- ==== Proof.KIRegion1Iface.lean ====
/-
  The second launch's proof data meets what the run of the whole program asks of it: its arrays are the entry contents,
  its invariant is made of the generator register and the scoped buffers no window stages and gives them back, the two
  windows on the shared array hold the two halves of the full share, nothing is owed, and the body obligation holds.
-/
import proofs.«175327_j12429635354789_2_alg».proof.Proof.KIRun
import proofs.«175327_j12429635354789_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The proof data of the second launch, at any entry contents, is what the run takes. -/
theorem iface1 : Iface1 (F := F) (fun V c => dat1 V c) where
  A := fun V c w => A_eq1 V c w
  Φin := fun V c => Phi1_in V c
  Φout := fun V c => Phi1_out V c
  q2 := fun V c => q1_2 V c
  q3 := fun V c => q1_3 V c
  qfull := fun V c w h2 h3 => q1_full V c w h2 h3
  owed := fun _ _ _ => rfl
  recd := fun _ _ _ => rfl
  body := fun V c => body_obligation1 V c

end Cert.KernelIdeal.Hand

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«175327_j12429635354789_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«175327_j12429635354789_2_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibLayout3.lean ====
/-
  Three layout and reduction readings at an index, for any extents.

  * The sum over the MIDDLE axis of an `[a, b, c]` array, started from the zero word, read at `(r, d)`: the sum
    over `i : Fin b` of the entries `(r, i, d)`.
  * An `[a, b, c]` array cast to `[a, n]` with `n = b · c` reads, at `(r, k)` with `k = i · c + d`, the
    operand at `(r, i, d)`: the two trailing axes flattened row-major.
  * Two arrays `[a, n₁]` and `[a, n₂]` concatenated along axis 1 read, at `(r, k)`, the first at `(r, k)`
    when `k < n₁` and the second at `(r, k − n₁)` otherwise.
-/
import Idealize.ShloMosaic.Lib.ValueIdx
import Idealize.ShloMosaic.Lib.Pipeline.Value
import Idealize.ShloMosaic.PureOps.Ideal.Laws

noncomputable section

open scoped BigOperators

namespace Cert.LibLayout3

open Idealize.ShloMosaic Idealize.ShloMosaic.ValueIdx

variable {α : Type}

/-- The sum along the middle axis, read at `(r, d)`. -/
theorem midSum_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (r : Fin a) (d : Fin c) :
    multiReduction (F := Ideal) .add [1] ⟨2, ![a, c]⟩ src 0x00000000#32 h hφ hacc (ix2 r d)
      = ∑ i : Fin b, src (ix3 r i d) := by
  refine (Ideal.multiReduction_add_single src _ h hφ hacc (ix2 r d)).trans ?_
  refine Finset.sum_congr rfl fun k _ => congrArg src ?_
  funext ax; apply Fin.ext
  match ax with
  | ⟨0, _⟩ => rfl
  | ⟨1, _⟩ => rfl
  | ⟨2, _⟩ => rfl

/-- The two trailing axes flattened. -/
theorem shapeCast_abc_an_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

/-- A concatenation along axis 1, read in its first piece. -/
theorem concat_axis1_left {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : k.val < n₁) :
    concatenate ⟨2, ![a, n]⟩ 1 [⟨⟨2, ![a, n₁]⟩, x₁⟩, ⟨⟨2, ![a, n₂]⟩, x₂⟩] h (ix2 r k) = x₁ (ix2 r ⟨k.val, hk⟩) :=
  concatenate_pair_apply_left 1 x₁ x₂ h (ix2 r k) rfl (ix2 r ⟨k.val, hk⟩) (fun b => by
    match b with
    | ⟨0, _⟩ => rfl
    | ⟨1, _⟩ => rfl)

/-- A concatenation along axis 1, read in its second piece. -/
theorem concat_axis1_right {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : n₁ ≤ k.val)
    (hk2 : k.val - n₁ < n₂) :
    concatenate ⟨2, ![a, n]⟩ 1 [⟨⟨2, ![a, n₁]⟩, x₁⟩, ⟨⟨2, ![a, n₂]⟩, x₂⟩] h (ix2 r k) = x₂ (ix2 r ⟨k.val - n₁, hk2⟩) :=
  concatenate_pair_apply_right 1 x₁ x₂ h (ix2 r k) rfl rfl (ix2 r ⟨k.val - n₁, hk2⟩)
    (fun b hb => by
      match b with
      | ⟨0, _⟩ => rfl
      | ⟨1, _⟩ => exact absurd rfl hb)
    (by show (k.val - n₁) + n₁ = k.val; omega)

end Cert.LibLayout3

end
-- ==== Proof.BridgeSums.lean ====
/-
  Finite sums cut at fixed positions, in any additive commutative monoid (so on the extended reals with no
  finiteness condition).

  * A sum over 80 positions is the sum over the first 64 plus the sum over the last 16; a sum over 128 positions
    is the sum over the first 64 plus the sum over the last 64.
  * A sum over 8192 positions is the left-nested total, started from zero, of the sums over its four tiles of
    2048 positions.
-/
import Mathlib.Algebra.BigOperators.Fin

open scoped BigOperators

namespace Cert.Bridge

/-- A sum over m + n positions is the sum over the first m plus the sum over the last n. -/
theorem sum_split {β : Type*} [AddCommMonoid β] (m n : Nat) (f : Fin (m + n) → β) :
    ∑ k : Fin (m + n), f k
      = ∑ k : Fin m, f ⟨k.val, by have := k.isLt; omega⟩ + ∑ k : Fin n, f ⟨m + k.val, by have := k.isLt; omega⟩ := by
  rw [Fin.sum_univ_add]
  rfl

/-- 80 = 64 + 16. -/
theorem sum_80 {β : Type*} [AddCommMonoid β] (f : Fin 80 → β) :
    ∑ k : Fin 80, f k
      = ∑ k : Fin 64, f ⟨k.val, by have := k.isLt; omega⟩ + ∑ k : Fin 16, f ⟨64 + k.val, by have := k.isLt; omega⟩ :=
  sum_split 64 16 f

/-- 128 = 64 + 64. -/
theorem sum_128 {β : Type*} [AddCommMonoid β] (f : Fin 128 → β) :
    ∑ k : Fin 128, f k
      = ∑ k : Fin 64, f ⟨k.val, by have := k.isLt; omega⟩ + ∑ k : Fin 64, f ⟨64 + k.val, by have := k.isLt; omega⟩ :=
  sum_split 64 64 f

/-- 8192 = 4 · 2048: the sum is the left-nested total of the four tiles' sums, started from a zero. -/
theorem sum_8192 {β : Type*} [AddCommMonoid β] (g : Fin 8192 → β) (z : β) (hz : z = 0) :
    ∑ j : Fin 8192, g j
      = (((z + ∑ q : Fin 2048, g ⟨q.val, by have := q.isLt; omega⟩)
            + ∑ q : Fin 2048, g ⟨2048 + q.val, by have := q.isLt; omega⟩)
          + ∑ q : Fin 2048, g ⟨4096 + q.val, by have := q.isLt; omega⟩)
        + ∑ q : Fin 2048, g ⟨6144 + q.val, by have := q.isLt; omega⟩ := by
  subst hz
  rw [zero_add]
  have h1 := sum_split 6144 2048 g
  have h2 := sum_split 4096 2048 (fun k : Fin (4096 + 2048) => g ⟨k.val, by have := k.isLt; omega⟩)
  have h3 := sum_split 2048 2048 (fun k : Fin (2048 + 2048) => g ⟨k.val, by have := k.isLt; omega⟩)
  rw [h1, h2, h3]

/-- The same, with the four tiles' sums named by a function of the tile: if T s is the sum over tile s, the sum
    over the axis is the left-nested total of T 0, …, T 3 from a zero. -/
theorem sum_8192_tiles {β : Type*} [AddCommMonoid β] (g : Fin 8192 → β) (z : β) (hz : z = 0) (T : Fin 4 → β)
    (hT : ∀ s : Fin 4, T s = ∑ q : Fin 2048, g ⟨2048 * s.val + q.val, by have := q.isLt; have := s.isLt; omega⟩) :
    ∑ j : Fin 8192, g j = (((z + T 0) + T 1) + T 2) + T 3 := by
  rw [sum_8192 g z hz, hT 0, hT 1, hT 2, hT 3]
  rfl

end Cert.Bridge
-- ==== Proof.BridgeRef.lean ====
/-
  The reference's stages and the kernel's host-side layouts, read at an index over arbitrary arrays.

  * A product of a concatenation [x | y] along the contraction axis with a matrix W, plus a broadcast bias vector:
    at (r, c) it is the sum over the columns of x against the top rows of W, plus the sum over the columns of y
    against the remaining rows of W, plus the bias at c.  Stated for the 64 + 16 and the 64 + 64 concatenations.
  * The product of the reverse-edge mask with an array: at (r, k) it is the sum over j of the indicator of
    "src r = dst j and dst r = src j" times the array at (j, k).
  * A slice of the top rows of a matrix, a slice of its remaining rows, and a vector reshaped to one row, read at
    an index.
-/
import proofs.«175327_j12429635354789_2_alg».proof.ReferenceIdeal
import proofs.«175327_j12429635354789_2_alg».proof.KernelIdeal
import proofs.«175327_j12429635354789_2_alg».proof.Proof.LibHostAffine
import proofs.«175327_j12429635354789_2_alg».proof.Proof.LibLayout3
import proofs.«175327_j12429635354789_2_alg».proof.Proof.BridgeSums
import proofs.«175327_j12429635354789_2_alg».proof.Proof.BridgeKeys

noncomputable section

open scoped BigOperators

namespace Cert.Bridge

open Idealize.ShloMosaic Idealize.ShloMosaic.ValueIdx

/-! ## Layouts, for any extents -/

section Layouts
variable {α : Type} {M N : Nat}

/-- A vector of length M made a column and broadcast over N columns reads, at (r, j), its entry r. -/
theorem colBroadcast_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![M, 1]⟩ (![0] : Fin 1 → Fin 2) h1 v) (ix2 r j)
      = v (ix1 r) := by
  rw [broadcastInDim_apply (![0, 1] : Fin 2 → Fin 2) h2 _ (ix2 r j) (ix2 r (0 : Fin 1)) (fun a => by
    match a with
    | ⟨0, _⟩ =>
      show r.val = if M = 1 then 0 else r.val
      split
      · have := r.isLt; omega
      · rfl
    | ⟨1, _⟩ => rfl)]
  exact broadcastInDim_apply (![0] : Fin 1 → Fin 2) h1 v (ix2 r (0 : Fin 1)) (ix1 r) (fun a => by
    match a with
    | ⟨0, _⟩ =>
      show r.val = if M = 1 then 0 else r.val
      split
      · have := r.isLt; omega
      · rfl)

/-- A slice of the rows [o, o + K) of an [R, N] matrix, all columns, reads at (k, c) the matrix at (o + k, c). -/
theorem rowSlice_apply {R K o : Nat} (W : (⟨2, ![R, N]⟩ : Shape).Idx → α)
    (h : (⟨2, ![R, N]⟩ : Shape).Slices ![o, 0] ⟨2, ![K, N]⟩) (k : Fin K) (c : Fin N) (hk : o + k.val < R) :
    extractStridedSlice ⟨2, ![K, N]⟩ ![o, 0] W h (ix2 k c) = W (ix2 ⟨o + k.val, hk⟩ c) :=
  extractStridedSlice_apply ![o, 0] W h (ix2 k c) (ix2 ⟨o + k.val, hk⟩ c) (fun a => by
    match a with
    | ⟨0, _⟩ => rfl
    | ⟨1, _⟩ => show c.val = 0 + c.val; omega)

/-- A vector reshaped to one row reads, at (0, c), its entry c. -/
theorem rowCast_apply (b : (⟨1, ![N]⟩ : Shape).Idx → α) (h : (⟨1, ![N]⟩ : Shape).ShapeCasts ⟨2, ![1, N]⟩) (c : Fin N) :
    shapeCast ⟨2, ![1, N]⟩ b h (ix2 (0 : Fin 1) c) = b (ix1 c) :=
  shapeCast_apply b h (ix2 (0 : Fin 1) c) (ix1 c) (by
    rw [Shape.rowMajor_val_one, Shape.rowMajor_val_two]
    show c.val = 0 * N + c.val
    omega)

/-- A vector reshaped to one column reads, at (r, 0), its entry r. -/
theorem colCast_apply (b : (⟨1, ![M]⟩ : Shape).Idx → α) (h : (⟨1, ![M]⟩ : Shape).ShapeCasts ⟨2, ![M, 1]⟩) (r : Fin M) :
    shapeCast ⟨2, ![M, 1]⟩ b h (ix2 r (0 : Fin 1)) = b (ix1 r) :=
  shapeCast_apply b h (ix2 r (0 : Fin 1)) (ix1 r) (by
    rw [Shape.rowMajor_val_one, Shape.rowMajor_val_two]
    show r.val = r.val * 1 + 0
    omega)

end Layouts

/-! ## A product of a two-piece concatenation, plus a bias vector -/

/-- The product of [x | y] (K₁ + K₂ columns) with W, plus the bias vector broadcast to all rows, at (r, c). -/
theorem concat_affine_apply {M K₁ K₂ K N : Nat} (hK : K = K₁ + K₂)
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K₁]⟩ .f32) (y : FVec Ideal ⟨2, ![M, K₂]⟩ .f32)
    (hc : Shape.Concatenates [⟨2, ![M, K₁]⟩, ⟨2, ![M, K₂]⟩] ⟨2, ![M, K]⟩ 1)
    (W : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (c : Fin N) :
    addf (Host.dotGeneral d prec (concatenate ⟨2, ![M, K]⟩ 1 [⟨⟨2, ![M, K₁]⟩, x⟩, ⟨⟨2, ![M, K₂]⟩, y⟩] hc) W)
        (broadcastInDim ⟨2, ![M, N]⟩ (![0, 1] : Fin 2 → Fin 2) h2 (broadcastInDim ⟨2, ![1, N]⟩ (![1] : Fin 1 → Fin 2) h1 b)) (ix2 r c)
      = (∑ k : Fin K₁, x (ix2 r k) * W (ix2 ⟨k.val, by have := k.isLt; omega⟩ c)
          + ∑ k : Fin K₂, y (ix2 r k) * W (ix2 ⟨K₁ + k.val, by have := k.isLt; omega⟩ c)) + b (ix1 c) := by
  subst hK
  refine (Cert.LibHostAffine.affine_apply d hlc hrc hln hrn hlb hrb prec _ W b h1 h2 r c).trans ?_
  refine congrArg (· + b (ix1 c)) ?_
  refine (sum_split K₁ K₂ _).trans ?_
  refine congrArg₂ (· + ·) ?_ ?_
  · refine Finset.sum_congr rfl fun k _ => ?_
    exact congrArg (· * W (ix2 ⟨k.val, by have := k.isLt; omega⟩ c))
      (Cert.LibLayout3.concat_axis1_left x y hc r ⟨k.val, by have := k.isLt; omega⟩ k.isLt)
  · refine Finset.sum_congr rfl fun k _ => ?_
    refine congrArg (· * W (ix2 ⟨K₁ + k.val, by have := k.isLt; omega⟩ c)) ?_
    refine (Cert.LibLayout3.concat_axis1_right x y hc r ⟨K₁ + k.val, by have := k.isLt; omega⟩
      (Nat.le_add_right _ _) (by show K₁ + k.val - K₁ < K₂; have := k.isLt; omega)).trans ?_
    exact congrArg y (congrArg (ix2 r) (Fin.ext (by show K₁ + k.val - K₁ = k.val; omega)))

/-! ## The reference's stages -/

section Reference
open Cert.ReferenceIdeal
variable [Cert.ReferenceIdeal.Facts]
open Cert.ReferenceIdeal.Facts₀ Cert.ReferenceIdeal.Facts

/-- The edge-state stage: [x | ef] · W_init + b_init at (r, c). -/
theorem ref_es_apply (x : FVec Ideal S8192x64 .f32) (ef : FVec Ideal S8192x16 .f32) (Wi : FVec Ideal S80x64 .f32)
    (bi : FVec Ideal S64 .f32) (r : Fin 8192) (c : Fin 64) :
    addf (Host.dotGeneral dot_S8192x80_S80x64_S8192x64_1_0_0_1_n_n none
            (concatenate S8192x80 1 [⟨S8192x64, x⟩, ⟨S8192x16, ef⟩] concatenates_S8192x64_S8192x16_S8192x80_d1) Wi)
        (broadcastInDim S8192x64 ![0, 1] bcast_S1x64_S8192x64_0_1 (broadcastInDim S1x64 ![1] bcast_S64_S1x64_1 bi)) (ix2 r c)
      = (∑ k : Fin 64, x (ix2 r k) * Wi (ix2 ⟨k.val, by have := k.isLt; omega⟩ c)
          + ∑ k : Fin 16, ef (ix2 r k) * Wi (ix2 ⟨64 + k.val, by have := k.isLt; omega⟩ c)) + bi (ix1 c) :=
  concat_affine_apply (K₁ := 64) (K₂ := 16) rfl dot_S8192x80_S80x64_S8192x64_1_0_0_1_n_n rfl rfl rfl rfl rfl rfl none x ef
    concatenates_S8192x64_S8192x16_S8192x80_d1 Wi bi bcast_S64_S1x64_1 bcast_S1x64_S8192x64_0_1 r c

/-- The update stage: [es | msg] · W_upd + b_upd at (r, c). -/
theorem ref_out_apply (es msg : FVec Ideal S8192x64 .f32) (Wu : FVec Ideal S128x64 .f32)
    (bu : FVec Ideal S64 .f32) (r : Fin 8192) (c : Fin 64) :
    addf (Host.dotGeneral dot_S8192x128_S128x64_S8192x64_1_0_0_1_n_n none
            (concatenate S8192x128 1 [⟨S8192x64, es⟩, ⟨S8192x64, msg⟩] concatenates_S8192x64_S8192x64_S8192x128_d1) Wu)
        (broadcastInDim S8192x64 ![0, 1] bcast_S1x64_S8192x64_0_1 (broadcastInDim S1x64 ![1] bcast_S64_S1x64_1 bu)) (ix2 r c)
      = (∑ k : Fin 64, es (ix2 r k) * Wu (ix2 ⟨k.val, by have := k.isLt; omega⟩ c)
          + ∑ k : Fin 64, msg (ix2 r k) * Wu (ix2 ⟨64 + k.val, by have := k.isLt; omega⟩ c)) + bu (ix1 c) :=
  concat_affine_apply (K₁ := 64) (K₂ := 64) rfl dot_S8192x128_S128x64_S8192x64_1_0_0_1_n_n rfl rfl rfl rfl rfl rfl none es msg
    concatenates_S8192x64_S8192x64_S8192x128_d1 Wu bu bcast_S64_S1x64_1 bcast_S1x64_S8192x64_0_1 r c

/-- The reference's mask at (r, j): the indicator of "src r = dst j and dst r = src j". -/
theorem ref_mask_apply (src dst : IVec S8192 32) (r j : Fin 8192) :
    (uitofp .f32
        (andi
          (cmpi .eq (broadcastInDim S8192x8192 ![0, 1] bcast_S8192x1_S8192x8192_0_1 (broadcastInDim S8192x1 ![0] bcast_S8192_S8192x1_0 src))
                    (broadcastInDim S8192x8192 ![0, 1] bcast_S1x8192_S8192x8192_0_1 (broadcastInDim S1x8192 ![1] bcast_S8192_S1x8192_1 dst)))
          (cmpi .eq (broadcastInDim S8192x8192 ![0, 1] bcast_S8192x1_S8192x8192_0_1 (broadcastInDim S8192x1 ![0] bcast_S8192_S8192x1_0 dst))
                    (broadcastInDim S8192x8192 ![0, 1] bcast_S1x8192_S8192x8192_0_1 (broadcastInDim S1x8192 ![1] bcast_S8192_S1x8192_1 src))))
        : FVec Ideal S8192x8192 .f32) (ix2 r j)
      = if src (ix1 r) = dst (ix1 j) ∧ dst (ix1 r) = src (ix1 j) then (1 : EReal) else 0 := by
  refine (maskR_apply _ _ _ _ (ix2 r j)).trans ?_
  rw [colBroadcast_apply src bcast_S8192_S8192x1_0 bcast_S8192x1_S8192x8192_0_1 r j,
    colBroadcast_apply dst bcast_S8192_S8192x1_0 bcast_S8192x1_S8192x8192_0_1 r j,
    Cert.LibHostAffine.bias_apply dst bcast_S8192_S1x8192_1 bcast_S1x8192_S8192x8192_0_1 r j,
    Cert.LibHostAffine.bias_apply src bcast_S8192_S1x8192_1 bcast_S1x8192_S8192x8192_0_1 r j]

/-- The reverse-edge product: mask · es at (r, k). -/
theorem ref_rev_apply (src dst : IVec S8192 32) (es : FVec Ideal S8192x64 .f32) (r : Fin 8192) (k : Fin 64) :
    Host.dotGeneral dot_S8192x8192_S8192x64_S8192x64_1_0_0_1_n_n none
      (uitofp .f32
        (andi
          (cmpi .eq (broadcastInDim S8192x8192 ![0, 1] bcast_S8192x1_S8192x8192_0_1 (broadcastInDim S8192x1 ![0] bcast_S8192_S8192x1_0 src))
                    (broadcastInDim S8192x8192 ![0, 1] bcast_S1x8192_S8192x8192_0_1 (broadcastInDim S1x8192 ![1] bcast_S8192_S1x8192_1 dst)))
          (cmpi .eq (broadcastInDim S8192x8192 ![0, 1] bcast_S8192x1_S8192x8192_0_1 (broadcastInDim S8192x1 ![0] bcast_S8192_S8192x1_0 dst))
                    (broadcastInDim S8192x8192 ![0, 1] bcast_S1x8192_S8192x8192_0_1 (broadcastInDim S1x8192 ![1] bcast_S8192_S1x8192_1 src)))))
      es (ix2 r k)
      = ∑ j : Fin 8192, (if src (ix1 r) = dst (ix1 j) ∧ dst (ix1 r) = src (ix1 j) then (1 : EReal) else 0) * es (ix2 j k) := by
  simp only [Host.dotGeneral]
  refine (Cert.LibDotGeneralNN.dotGeneral_apply dot_S8192x8192_S8192x64_S8192x64_1_0_0_1_n_n rfl rfl rfl rfl rfl rfl none _ _ es r k).trans ?_
  refine Finset.sum_congr rfl fun j _ => ?_
  exact congrArg (· * es (ix2 j k)) (ref_mask_apply src dst r j)

end Reference

/-! ## The kernel's host-side layouts -/

section Kernel
open Cert.KernelIdeal
variable [Cert.KernelIdeal.Facts]
open Cert.KernelIdeal.Facts₀ Cert.KernelIdeal.Facts

/-- The top 64 rows of W_init. -/
theorem ker_W1_apply {α : Type} (W : S80x64.Idx → α) (k : Fin 64) (c : Fin 64) :
    extractStridedSlice S64x64 ![0, 0] W slices_S80x64_S64x64_0_0 (ix2 k c) = W (ix2 ⟨k.val, by have := k.isLt; omega⟩ c) :=
  (rowSlice_apply (o := 0) W slices_S80x64_S64x64_0_0 k c (by have := k.isLt; omega)).trans
    (congrArg W (congrArg (fun a => ix2 a c) (Fin.ext (by show 0 + k.val = k.val; omega))))

/-- The last 16 rows of W_init. -/
theorem ker_W2_apply {α : Type} (W : S80x64.Idx → α) (k : Fin 16) (c : Fin 64) :
    extractStridedSlice S16x64 ![64, 0] W slices_S80x64_S16x64_64_0 (ix2 k c) = W (ix2 ⟨64 + k.val, by have := k.isLt; omega⟩ c) :=
  rowSlice_apply (o := 64) W slices_S80x64_S16x64_64_0 k c (by have := k.isLt; omega)

/-- The top 64 rows of W_upd. -/
theorem ker_U1_apply {α : Type} (W : S128x64.Idx → α) (k : Fin 64) (c : Fin 64) :
    extractStridedSlice S64x64 ![0, 0] W slices_S128x64_S64x64_0_0 (ix2 k c) = W (ix2 ⟨k.val, by have := k.isLt; omega⟩ c) :=
  (rowSlice_apply (o := 0) W slices_S128x64_S64x64_0_0 k c (by have := k.isLt; omega)).trans
    (congrArg W (congrArg (fun a => ix2 a c) (Fin.ext (by show 0 + k.val = k.val; omega))))

/-- The last 64 rows of W_upd. -/
theorem ker_U2_apply {α : Type} (W : S128x64.Idx → α) (k : Fin 64) (c : Fin 64) :
    extractStridedSlice S64x64 ![64, 0] W slices_S128x64_S64x64_64_0 (ix2 k c) = W (ix2 ⟨64 + k.val, by have := k.isLt; omega⟩ c) :=
  rowSlice_apply (o := 64) W slices_S128x64_S64x64_64_0 k c (by have := k.isLt; omega)

/-- A bias vector reshaped to one row. -/
theorem ker_bias_apply {α : Type} (b : S64.Idx → α) (c : Fin 64) :
    shapeCast S1x64 b shapeCasts_S64_S1x64 (ix2 (0 : Fin 1) c) = b (ix1 c) :=
  rowCast_apply b shapeCasts_S64_S1x64 c

/-- The key vector reshaped to one column. -/
theorem ker_keyCol_apply {α : Type} (v : S8192.Idx → α) (r : Fin 8192) :
    shapeCast S8192x1 v shapeCasts_S8192_S8192x1 (ix2 r (0 : Fin 1)) = v (ix1 r) :=
  colCast_apply v shapeCasts_S8192_S8192x1 r

/-- The key vector reshaped to one row. -/
theorem ker_keyRow_apply {α : Type} (v : S8192.Idx → α) (j : Fin 8192) :
    shapeCast S1x8192 v shapeCasts_S8192_S1x8192 (ix2 (0 : Fin 1) j) = v (ix1 j) :=
  rowCast_apply v shapeCasts_S8192_S1x8192 j

end Kernel

end Cert.Bridge

end
-- ==== Proof.BridgeAgree.lean ====
/-
  The kernel's arithmetic and the reference's, stage by stage, over arbitrary arrays.

  * The edge-state stage: the two partial products against the top and the remaining rows of W_init, plus the
    bias row, are the reference's product of the concatenation plus the broadcast bias.
  * The reverse-edge stage: when every node index is in [0, 20000), the left-nested total from zero of the four
    column tiles' sums, each entry of the mask being one comparison of packed keys, is the reference's product of
    its mask (a conjunction of two comparisons) with the edge states.
  * The update stage: as the first, for W_upd.
-/
import proofs.«175327_j12429635354789_2_alg».proof.Proof.BridgeRef

noncomputable section

open scoped BigOperators

namespace Cert.Bridge

open Idealize.ShloMosaic Idealize.ShloMosaic.ValueIdx Cert.ReferenceIdeal

variable [Cert.ReferenceIdeal.Facts] [Cert.KernelIdeal.Facts]
open Cert.ReferenceIdeal.Facts₀ Cert.ReferenceIdeal.Facts

/-- The packed column key at r: src r · 32768 + dst r (the constant a broadcast scalar). -/
theorem ker_key_val (a b : IVec S8192 32) (r : Fin 8192) :
    addi (muli a (broadcastInDim Cert.KernelIdeal.S8192 ![] Cert.KernelIdeal.Facts₀.bcast_S_S8192 (constantI Cert.KernelIdeal.S_ 32 32768#32))) b (ix1 r)
      = a (ix1 r) * 32768#32 + b (ix1 r) := by
  have hb : broadcastInDim Cert.KernelIdeal.S8192 ![] Cert.KernelIdeal.Facts₀.bcast_S_S8192 (constantI Cert.KernelIdeal.S_ 32 32768#32) (ix1 r)
      = 32768#32 :=
    broadcastInDim_apply _ Cert.KernelIdeal.Facts₀.bcast_S_S8192 _ (ix1 r) ValueIdx.ix0 (fun a => a.elim0)
  exact (key_apply a b _ (ix1 r)).trans (congrArg (fun w => a (ix1 r) * w + b (ix1 r)) hb)

/-- The edge-state stage. -/
theorem es_agree (x : FVec Ideal S8192x64 .f32) (ef : FVec Ideal S8192x16 .f32) (Wi : FVec Ideal S80x64 .f32)
    (bi : FVec Ideal S64 .f32) (r : Fin 8192) (c : Fin 64) :
    (∑ k : Fin 64, x (ix2 r k)
          * extractStridedSlice Cert.KernelIdeal.S64x64 ![0, 0] Wi Cert.KernelIdeal.Facts₀.slices_S80x64_S64x64_0_0 (ix2 k c)
        + ∑ k : Fin 16, ef (ix2 r k)
          * extractStridedSlice Cert.KernelIdeal.S16x64 ![64, 0] Wi Cert.KernelIdeal.Facts₀.slices_S80x64_S16x64_64_0 (ix2 k c))
      + shapeCast Cert.KernelIdeal.S1x64 bi Cert.KernelIdeal.Facts₀.shapeCasts_S64_S1x64 (ix2 (0 : Fin 1) c)
      = addf (Host.dotGeneral dot_S8192x80_S80x64_S8192x64_1_0_0_1_n_n none
            (concatenate S8192x80 1 [⟨S8192x64, x⟩, ⟨S8192x16, ef⟩] concatenates_S8192x64_S8192x16_S8192x80_d1) Wi)
          (broadcastInDim S8192x64 ![0, 1] bcast_S1x64_S8192x64_0_1 (broadcastInDim S1x64 ![1] bcast_S64_S1x64_1 bi)) (ix2 r c) := by
  refine Eq.trans ?_ (ref_es_apply x ef Wi bi r c).symm
  refine congrArg₂ (· + ·) (congrArg₂ (· + ·) ?_ ?_) (ker_bias_apply bi c)
  · exact Finset.sum_congr rfl fun k _ => congrArg (x (ix2 r k) * ·) (ker_W1_apply Wi k c)
  · exact Finset.sum_congr rfl fun k _ => congrArg (ef (ix2 r k) * ·) (ker_W2_apply Wi k c)

/-- The update stage. -/
theorem out_agree (es msg : FVec Ideal S8192x64 .f32) (Wu : FVec Ideal S128x64 .f32)
    (bu : FVec Ideal S64 .f32) (r : Fin 8192) (c : Fin 64) :
    (∑ k : Fin 64, es (ix2 r k)
          * extractStridedSlice Cert.KernelIdeal.S64x64 ![0, 0] Wu Cert.KernelIdeal.Facts₀.slices_S128x64_S64x64_0_0 (ix2 k c)
        + ∑ k : Fin 64, msg (ix2 r k)
          * extractStridedSlice Cert.KernelIdeal.S64x64 ![64, 0] Wu Cert.KernelIdeal.Facts₀.slices_S128x64_S64x64_64_0 (ix2 k c))
      + shapeCast Cert.KernelIdeal.S1x64 bu Cert.KernelIdeal.Facts₀.shapeCasts_S64_S1x64 (ix2 (0 : Fin 1) c)
      = addf (Host.dotGeneral dot_S8192x128_S128x64_S8192x64_1_0_0_1_n_n none
            (concatenate S8192x128 1 [⟨S8192x64, es⟩, ⟨S8192x64, msg⟩] concatenates_S8192x64_S8192x64_S8192x128_d1) Wu)
          (broadcastInDim S8192x64 ![0, 1] bcast_S1x64_S8192x64_0_1 (broadcastInDim S1x64 ![1] bcast_S64_S1x64_1 bu)) (ix2 r c) := by
  refine Eq.trans ?_ (ref_out_apply es msg Wu bu r c).symm
  refine congrArg₂ (· + ·) (congrArg₂ (· + ·) ?_ ?_) (ker_bias_apply bu c)
  · exact Finset.sum_congr rfl fun k _ => congrArg (es (ix2 r k) * ·) (ker_U1_apply Wu k c)
  · exact Finset.sum_congr rfl fun k _ => congrArg (msg (ix2 r k) * ·) (ker_U2_apply Wu k c)

/-- The reverse-edge stage: four tiles accumulated from zero, the mask one comparison of the packed key column
    with the packed key row. -/
theorem rev_agree (src dst : IVec S8192 32)
    (hsrc : ∀ e : Fin 8192, 0 ≤ (src (ix1 e)).toInt ∧ (src (ix1 e)).toInt < 20000)
    (hdst : ∀ e : Fin 8192, 0 ≤ (dst (ix1 e)).toInt ∧ (dst (ix1 e)).toInt < 20000)
    (kc : IVec S8192x1 32) (kr : IVec S1x8192 32)
    (hkc : ∀ r : Fin 8192, kc (ix2 r (0 : Fin 1)) = src (ix1 r) * 32768#32 + dst (ix1 r))
    (hkr : ∀ j : Fin 8192, kr (ix2 (0 : Fin 1) j) = dst (ix1 j) * 32768#32 + src (ix1 j))
    (es : FVec Ideal S8192x64 .f32) (r : Fin 8192) (k : Fin 64) (z : EReal) (hz : z = 0) (T : Fin 4 → EReal)
    (hT : ∀ s : Fin 4, T s = ∑ q : Fin 2048,
      (if kc (ix2 r (0 : Fin 1))
            = kr (ix2 (0 : Fin 1) (⟨2048 * s.val + q.val, by have := q.isLt; have := s.isLt; omega⟩ : Fin 8192))
        then (1 : EReal) else 0)
        * es (ix2 (⟨2048 * s.val + q.val, by have := q.isLt; have := s.isLt; omega⟩ : Fin 8192) k)) :
    (((z + T 0) + T 1) + T 2) + T 3
      = Host.dotGeneral dot_S8192x8192_S8192x64_S8192x64_1_0_0_1_n_n none
          (uitofp .f32
            (andi
              (cmpi .eq (broadcastInDim S8192x8192 ![0, 1] bcast_S8192x1_S8192x8192_0_1 (broadcastInDim S8192x1 ![0] bcast_S8192_S8192x1_0 src))
                        (broadcastInDim S8192x8192 ![0, 1] bcast_S1x8192_S8192x8192_0_1 (broadcastInDim S1x8192 ![1] bcast_S8192_S1x8192_1 dst)))
              (cmpi .eq (broadcastInDim S8192x8192 ![0, 1] bcast_S8192x1_S8192x8192_0_1 (broadcastInDim S8192x1 ![0] bcast_S8192_S8192x1_0 dst))
                        (broadcastInDim S8192x8192 ![0, 1] bcast_S1x8192_S8192x8192_0_1 (broadcastInDim S1x8192 ![1] bcast_S8192_S1x8192_1 src)))))
          es (ix2 r k) := by
  refine Eq.trans ?_ (ref_rev_apply src dst es r k).symm
  refine (sum_8192_tiles
    (fun j : Fin 8192 => (if src (ix1 r) = dst (ix1 j) ∧ dst (ix1 r) = src (ix1 j) then (1 : EReal) else 0) * es (ix2 j k))
    z hz T (fun s => ?_)).symm
  refine (hT s).trans (Finset.sum_congr rfl fun q _ => ?_)
  refine congrArg (· * es (ix2 (⟨2048 * s.val + q.val, by have := q.isLt; have := s.isLt; omega⟩ : Fin 8192) k)) ?_
  rw [hkc r, hkr _]
  exact maskK_packed (src (ix1 r)) (dst (ix1 r)) (src (ix1 _)) (dst (ix1 _)) (hsrc r) (hdst r) (hsrc _) (hdst _)

end Cert.Bridge

end
-- ==== Proof.BridgeFinal.lean ====
/-
  The kernel's result and the reference's, as whole arrays.

  The reference's result is named stage by stage (the gather of node rows at the normalised source indices, the edge
  states, the scatter-add into node rows and the gather back, the reverse-edge product, the update), and shown to
  be the composed term the reference's run states.  An array that satisfies, entry by entry, the equations the
  kernel's two launches and the host operations between them give (the two split products with the bias row, the
  reverse-edge sum accumulated over four column tiles from zero with the mask by packed keys) is that result,
  provided every node index lies in [0, 20000).
-/
import proofs.«175327_j12429635354789_2_alg».proof.Proof.BridgeAgree
import proofs.«175327_j12429635354789_2_alg».proof.Proof.Gen.ReferenceIdeal.Run

noncomputable section

open scoped BigOperators

namespace Cert.Bridge

open Idealize.ShloMosaic Idealize.ShloMosaic.ValueIdx Idealize.SL.Sem Cert.ReferenceIdeal
open Cert.ReferenceIdeal.Facts₀ Cert.ReferenceIdeal.Facts

/-! ## The reference's stages, named -/

/-- Rows of a node table gathered at the source indices (a negative index moved up by the table's length). -/
def refGather (tbl : FVec Ideal S20000x64 .f32) (src : IVec S8192 32) : FVec Ideal S8192x64 .f32 :=
  Host.gather gather_S20000x64_S8192x1_S8192x64_1_0_n_n_0_1_164 tbl
    (broadcastInDim S8192x1 ![0] bcast_S8192_S8192x1_0
      (select (cmpi .slt src (broadcastInDim S8192 ![] bcast_S_S8192 (constantI S_ 32 0#32)))
        (addi src (broadcastInDim S8192 ![] bcast_S_S8192 (constantI S_ 32 20000#32))) src))

/-- Edge rows added into a zero node table at the destination indices. -/
def refAgg (dst : IVec S8192 32) (es : FVec Ideal S8192x64 .f32) : FVec Ideal S20000x64 .f32 :=
  Host.scatterAdd scatter_S20000x64_S8192x1_S8192x64_1_0_0_1
    (broadcastInDim S20000x64 ![] bcast_S_S20000x64 (constant S_ .f32 0x00000000#32))
    (broadcastInDim S8192x1 ![0] bcast_S8192_S8192x1_0 dst) es

/-- The edge states: [x | ef] · W_init + b_init. -/
def refEs (x : FVec Ideal S8192x64 .f32) (ef : FVec Ideal S8192x16 .f32) (Wi : FVec Ideal S80x64 .f32)
    (bi : FVec Ideal S64 .f32) : FVec Ideal S8192x64 .f32 :=
  addf (Host.dotGeneral dot_S8192x80_S80x64_S8192x64_1_0_0_1_n_n none
        (concatenate S8192x80 1 [⟨S8192x64, x⟩, ⟨S8192x16, ef⟩] concatenates_S8192x64_S8192x16_S8192x80_d1) Wi)
    (broadcastInDim S8192x64 ![0, 1] bcast_S1x64_S8192x64_0_1 (broadcastInDim S1x64 ![1] bcast_S64_S1x64_1 bi))

/-- The reverse-edge product: mask · es. -/
def refRev (src dst : IVec S8192 32) (es : FVec Ideal S8192x64 .f32) : FVec Ideal S8192x64 .f32 :=
  Host.dotGeneral dot_S8192x8192_S8192x64_S8192x64_1_0_0_1_n_n none
    (uitofp .f32
      (andi
        (cmpi .eq (broadcastInDim S8192x8192 ![0, 1] bcast_S8192x1_S8192x8192_0_1 (broadcastInDim S8192x1 ![0] bcast_S8192_S8192x1_0 src))
                  (broadcastInDim S8192x8192 ![0, 1] bcast_S1x8192_S8192x8192_0_1 (broadcastInDim S1x8192 ![1] bcast_S8192_S1x8192_1 dst)))
        (cmpi .eq (broadcastInDim S8192x8192 ![0, 1] bcast_S8192x1_S8192x8192_0_1 (broadcastInDim S8192x1 ![0] bcast_S8192_S8192x1_0 dst))
                  (broadcastInDim S8192x8192 ![0, 1] bcast_S1x8192_S8192x8192_0_1 (broadcastInDim S1x8192 ![1] bcast_S8192_S1x8192_1 src)))))
    es

/-- The update: [es | msg] · W_upd + b_upd. -/
def refOut (es msg : FVec Ideal S8192x64 .f32) (Wu : FVec Ideal S128x64 .f32) (bu : FVec Ideal S64 .f32) :
    FVec Ideal S8192x64 .f32 :=
  addf (Host.dotGeneral dot_S8192x128_S128x64_S8192x64_1_0_0_1_n_n none
        (concatenate S8192x128 1 [⟨S8192x64, es⟩, ⟨S8192x64, msg⟩] concatenates_S8192x64_S8192x64_S8192x128_d1) Wu)
    (broadcastInDim S8192x64 ![0, 1] bcast_S1x64_S8192x64_0_1 (broadcastInDim S1x64 ![1] bcast_S64_S1x64_1 bu))

/-- The whole reference, from its eight arguments. -/
def refFull (nf : FVec Ideal S20000x64 .f32) (ef : FVec Ideal S8192x16 .f32) (Wi : FVec Ideal S80x64 .f32)
    (bi : FVec Ideal S64 .f32) (Wu : FVec Ideal S128x64 .f32) (bu : FVec Ideal S64 .f32) (src dst : IVec S8192 32) :
    FVec Ideal S8192x64 .f32 :=
  refOut (refEs (refGather nf src) ef Wi bi)
    (subf (refGather (refAgg dst (refEs (refGather nf src) ef Wi bi)) src) (refRev src dst (refEs (refGather nf src) ef Wi bi)))
    Wu bu

/-- The term the reference's run states is the composition of the named stages. -/
theorem res_eq_refFull (m : (ℓ : Loc nD τ sig) → Buf (Elt Ideal) ℓ) (c : Dev nD) :
    Cert.ReferenceIdeal.Value.res_main_v40 (F := Ideal) m c
      = refFull (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v40 refFull refOut refEs refRev refGather refAgg
  rfl

/-! ## The kernel's equations give the reference's result -/

/-- An array with the kernel's entries is the reference's result. -/
theorem kernel_eq_refFull [Cert.KernelIdeal.Facts] (nf : FVec Ideal S20000x64 .f32) (ef : FVec Ideal S8192x16 .f32) (Wi : FVec Ideal S80x64 .f32)
    (bi : FVec Ideal S64 .f32) (Wu : FVec Ideal S128x64 .f32) (bu : FVec Ideal S64 .f32) (src dst : IVec S8192 32)
    (hsrc : ∀ e : Fin 8192, 0 ≤ (src (ix1 e)).toInt ∧ (src (ix1 e)).toInt < 20000)
    (hdst : ∀ e : Fin 8192, 0 ≤ (dst (ix1 e)).toInt ∧ (dst (ix1 e)).toInt < 20000)
    (x6 : FVec Ideal S8192x64 .f32) (hx6 : x6 = refGather nf src)
    (W1 : FVec Ideal Cert.KernelIdeal.S64x64 .f32)
    (hW1 : W1 = extractStridedSlice Cert.KernelIdeal.S64x64 ![0, 0] Wi Cert.KernelIdeal.Facts₀.slices_S80x64_S64x64_0_0)
    (W2 : FVec Ideal Cert.KernelIdeal.S16x64 .f32)
    (hW2 : W2 = extractStridedSlice Cert.KernelIdeal.S16x64 ![64, 0] Wi Cert.KernelIdeal.Facts₀.slices_S80x64_S16x64_64_0)
    (b1 : FVec Ideal Cert.KernelIdeal.S1x64 .f32)
    (hb1 : b1 = shapeCast Cert.KernelIdeal.S1x64 bi Cert.KernelIdeal.Facts₀.shapeCasts_S64_S1x64)
    (U1 : FVec Ideal Cert.KernelIdeal.S64x64 .f32)
    (hU1 : U1 = extractStridedSlice Cert.KernelIdeal.S64x64 ![0, 0] Wu Cert.KernelIdeal.Facts₀.slices_S128x64_S64x64_0_0)
    (U2 : FVec Ideal Cert.KernelIdeal.S64x64 .f32)
    (hU2 : U2 = extractStridedSlice Cert.KernelIdeal.S64x64 ![64, 0] Wu Cert.KernelIdeal.Facts₀.slices_S128x64_S64x64_64_0)
    (b2 : FVec Ideal Cert.KernelIdeal.S1x64 .f32)
    (hb2 : b2 = shapeCast Cert.KernelIdeal.S1x64 bu Cert.KernelIdeal.Facts₀.shapeCasts_S64_S1x64)
    (es : FVec Ideal S8192x64 .f32)
    (hes : ∀ (r : Fin 8192) (c : Fin 64), es (ix2 r c)
      = (∑ k : Fin 64, x6 (ix2 r k) * W1 (ix2 k c) + ∑ k : Fin 16, ef (ix2 r k) * W2 (ix2 k c)) + b1 (ix2 (0 : Fin 1) c))
    (mg : FVec Ideal S8192x64 .f32) (hmg : mg = refGather (refAgg dst es) src)
    (kc : IVec S8192x1 32) (kr : IVec S1x8192 32)
    (hkc : ∀ r : Fin 8192, kc (ix2 r (0 : Fin 1)) = src (ix1 r) * 32768#32 + dst (ix1 r))
    (hkr : ∀ j : Fin 8192, kr (ix2 (0 : Fin 1) j) = dst (ix1 j) * 32768#32 + src (ix1 j))
    (z : EReal) (hz : z = 0) (T : Fin 8192 → Fin 64 → Fin 4 → EReal)
    (hT : ∀ (r : Fin 8192) (k : Fin 64) (s : Fin 4), T r k s = ∑ q : Fin 2048,
      (if kc (ix2 r (0 : Fin 1))
            = kr (ix2 (0 : Fin 1) (⟨2048 * s.val + q.val, by have := q.isLt; have := s.isLt; omega⟩ : Fin 8192))
        then (1 : EReal) else 0)
        * es (ix2 (⟨2048 * s.val + q.val, by have := q.isLt; have := s.isLt; omega⟩ : Fin 8192) k))
    (out : FVec Ideal S8192x64 .f32)
    (hout : ∀ (r : Fin 8192) (c : Fin 64), out (ix2 r c)
      = (∑ k : Fin 64, es (ix2 r k) * U1 (ix2 k c)
          + ∑ k : Fin 64, (mg (ix2 r k) - ((((z + T r k 0) + T r k 1) + T r k 2) + T r k 3)) * U2 (ix2 k c))
        + b2 (ix2 (0 : Fin 1) c)) :
    out = refFull nf ef Wi bi Wu bu src dst := by
  -- the edge states
  have hE : es = refEs (refGather nf src) ef Wi bi := by
    funext idx
    obtain ⟨r, c, rfl⟩ : ∃ (r : Fin 8192) (c : Fin 64), idx = ix2 r c := ⟨idx 0, idx 1, eq_ix2 idx⟩
    rw [hes r c, hx6, hW1, hW2, hb1]
    unfold refEs
    exact es_agree (refGather nf src) ef Wi bi r c
  -- the reverse-edge product
  have hR : ∀ (r : Fin 8192) (k : Fin 64),
      (((z + T r k 0) + T r k 1) + T r k 2) + T r k 3 = refRev src dst es (ix2 r k) := fun r k => by
    unfold refRev
    exact rev_agree src dst hsrc hdst kc kr hkc hkr es r k z hz (T r k) (hT r k)
  -- the update
  have hO : out = refOut es (subf mg (refRev src dst es)) Wu bu := by
    funext idx
    obtain ⟨r, c, rfl⟩ : ∃ (r : Fin 8192) (c : Fin 64), idx = ix2 r c := ⟨idx 0, idx 1, eq_ix2 idx⟩
    rw [hout r c, hU1, hU2, hb2]
    unfold refOut
    refine Eq.trans ?_ (out_agree es (subf mg (refRev src dst es)) Wu bu r c)
    refine congrArg (· + _) (congrArg (_ + ·) ?_)
    refine Finset.sum_congr rfl fun k _ => ?_
    refine congrArg (· * _) ?_
    rw [hR r k]
    rfl
  rw [hO, hmg, hE]
  rfl

/-- The same against the term the reference's run states, its arguments read from the reference's memory. -/
theorem kernel_eq_res (m' : (ℓ : Loc nD τ sig) → Buf (Elt Ideal) ℓ) (c : Dev nD)
    (out : FVec Ideal S8192x64 .f32)
    (h : out = refFull (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))) :
    out = Cert.ReferenceIdeal.Value.res_main_v40 (F := Ideal) m' c :=
  h.trans (res_eq_refFull m' c).symm

end Cert.Bridge

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.BridgeRange.lean ====
/-
  The index range the precondition states, read back.

  The precondition ends with two tests "0 ≤ x and x < 20000 at every position", one for each of the two edge index
  vectors, joined to the finiteness tests by "and".  If the whole conjunction is 1, each of the two reductions is
  1, so each comparison is 1 at every position: as signed integers, 0 ≤ x(e) < 20000.
-/
import proofs.«175327_j12429635354789_2_alg».proof.Pre_finite_inputs
import proofs.«175327_j12429635354789_2_alg».proof.Proof.LibFiniteAll
import Idealize.ShloMosaic.Lib.ReduceAll
import Idealize.ShloMosaic.Lib.ValueIdx
import Idealize.ShloMosaic.Lib.Pipeline.Value

noncomputable section

namespace Cert.Bridge

open Idealize.ShloMosaic Cert.Pre_finite_inputs

variable [hF : Cert.Pre_finite_inputs.Facts]

/-- One vector's test: if "0 ≤ x and x < 20000 everywhere" is 1, every entry is in the range. -/
theorem range_of_all (x : IVec S8192 32)
    (h : Host.reduce IntOp.andi
          (andi (cmpi .sge x (broadcastInDim S8192 ![] hF.bcast_S_S8192 (constantI S_ 32 0#32)))
                (cmpi .slt x (broadcastInDim S8192 ![] hF.bcast_S_S8192 (constantI S_ 32 20000#32))))
          (constantI S_ 1 1#1) hF.reducesTo_S8192_S_d0 hF.h_S_ ValueIdx.ix0 = 1#1) (e : Fin 8192) :
    0 ≤ (x (ValueIdx.ix1 e)).toInt ∧ (x (ValueIdx.ix1 e)).toInt < 20000 := by
  have hi : IntOp.andi
      (IntOp.cmpi .sge (x (ValueIdx.ix1 e)) (broadcastInDim S8192 ![] hF.bcast_S_S8192 (constantI S_ 32 0#32) (ValueIdx.ix1 e)))
      (IntOp.cmpi .slt (x (ValueIdx.ix1 e)) (broadcastInDim S8192 ![] hF.bcast_S_S8192 (constantI S_ 32 20000#32) (ValueIdx.ix1 e)))
        = 1#1 :=
    Host.reduce_andi_all _ _ hF.reducesTo_S8192_S_d0 hF.h_S_ ValueIdx.ix0 h (ValueIdx.ix1 e)
  have hb0 : broadcastInDim S8192 ![] hF.bcast_S_S8192 (constantI S_ 32 0#32) (ValueIdx.ix1 e) = 0#32 :=
    broadcastInDim_apply _ hF.bcast_S_S8192 _ (ValueIdx.ix1 e) ValueIdx.ix0 (fun a => a.elim0)
  have hb1 : broadcastInDim S8192 ![] hF.bcast_S_S8192 (constantI S_ 32 20000#32) (ValueIdx.ix1 e) = 20000#32 :=
    broadcastInDim_apply _ hF.bcast_S_S8192 _ (ValueIdx.ix1 e) ValueIdx.ix0 (fun a => a.elim0)
  rw [hb0, hb1] at hi
  obtain ⟨h1, h2⟩ := IntOp.andi_eq_one.1 hi
  have g1 := IntOp.cmpi_sge.1 h1
  have g2 := IntOp.cmpi_slt.1 h2
  have z0 : (0#32).toInt = 0 := by decide
  have z1 : (20000#32).toInt = 20000 := by decide
  rw [z0] at g1
  rw [z1] at g2
  exact ⟨g1, g2⟩

/-- The precondition gives the range of both index vectors. -/
theorem range {a0 : FVec Ideal S20000x64 .f32} {a1 : FVec Ideal S8192x16 .f32} {a2 : FVec Ideal S80x64 .f32}
    {a3 : FVec Ideal S64 .f32} {a4 : FVec Ideal S128x64 .f32} {a5 : FVec Ideal S64 .f32} {src dst : IVec S8192 32}
    (hpre : Cert.Pre_finite_inputs.fn (F := Ideal) a0 a1 a2 a3 a4 a5 src dst = (fun _ => 1#1)) :
    (∀ e : Fin 8192, 0 ≤ (src (ValueIdx.ix1 e)).toInt ∧ (src (ValueIdx.ix1 e)).toInt < 20000)
      ∧ (∀ e : Fin 8192, 0 ≤ (dst (ValueIdx.ix1 e)).toInt ∧ (dst (ValueIdx.ix1 e)).toInt < 20000) := by
  have h0 := congrFun hpre ValueIdx.ix0
  dsimp only [Cert.Pre_finite_inputs.fn, Cert.Pre_finite_inputs.fn_part1, Cert.Pre_finite_inputs.fn_part2] at h0
  obtain ⟨h35, h41⟩ := IntOp.andi_eq_one.1 h0
  obtain ⟨_, h34⟩ := IntOp.andi_eq_one.1 h35
  exact ⟨fun e => range_of_all src h34 e, fun e => range_of_all dst h41 e⟩

end Cert.Bridge

end
-- ==== Proof.KIAlg.lean ====
/-
  The kernel program's result, at the extended reals, is the reference's term of the arguments.
  The second launch's write-backs leave, at edge r and unit col, the update layer applied to [es(r), msg(r)] with the
  concatenated product split in two; es is what the first launch left (the first dense layer, split the same way); msg(r)
  is the host's gathered aggregate minus the four tile sums over the candidates whose packed word equals r's. Under the
  precondition the packed test is the pair test, so this is the reference's function of the argument arrays.
-/
import proofs.«175327_j12429635354789_2_alg».proof.Proof.KIContents
import proofs.«175327_j12429635354789_2_alg».proof.Proof.KIValue0
import proofs.«175327_j12429635354789_2_alg».proof.Proof.KIValue1
import proofs.«175327_j12429635354789_2_alg».proof.Proof.KIRegion1Iface
import proofs.«175327_j12429635354789_2_alg».proof.Proof.Gen.Pre_finite_inputs
import proofs.«175327_j12429635354789_2_alg».proof.Proof.BridgeFinal
import proofs.«175327_j12429635354789_2_alg».proof.Proof.BridgeRange

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg) (c : Dev nD)

/-- The gathered node rows are the reference's gather of the same table at the same indices. -/
theorem x6_eq : V1 m ρ c main_v6 = Cert.Bridge.refGather (m ((c : Thread nD τ).loc main_arg0)) (m ((c : Thread nD τ).loc main_arg6)) :=
  (V1_v6 m ρ c).trans rfl

/-- The gathered aggregate is the reference's gather of its scatter-add, applied to the first launch's edge states. -/
theorem mg_eq : V3 m ρ c main_v20
    = Cert.Bridge.refGather (Cert.Bridge.refAgg (m ((c : Thread nD τ).loc main_arg7)) ((dat0 (F := Ideal) (V1 m ρ) c).arrAt 5 cfg0.N))
        (m ((c : Thread nD τ).loc main_arg6)) :=
  (V3_v20 m ρ c).trans rfl

/-- The edge states, entry by entry. -/
theorem es_at (r : Fin 8192) (col : Fin 64) :
    (dat0 (F := Ideal) (V1 m ρ) c).arrAt 5 cfg0.N (ix2 r col)
      = denseAt (V1 m ρ c main_v6) (m ((c : Thread nD τ).loc main_arg1)) (V1 m ρ c main_v7) (V1 m ρ c main_v8) (V1 m ρ c main_v9) r col := by
  rw [final0_at, V1_arg1]

/-- The two index arguments, as vectors of words. -/
abbrev srcA : IVec S8192 32 := m ((c : Thread nD τ).loc main_arg6)
abbrev dstA : IVec S8192 32 := m ((c : Thread nD τ).loc main_arg7)

/-- The packed words the second launch compares. -/
theorem kc_at (r : Fin 8192) : (V3 m ρ c main_v26 : IVec S8192x1 32) (ix2 r (0 : Fin 1))
    = srcA m c (ix1 r) * 32768#32 + dstA m c (ix1 r) := by
  rw [V3_v26]
  exact (Cert.Bridge.ker_keyCol_apply _ r).trans (Cert.Bridge.ker_key_val (srcA m c) (dstA m c) r)
theorem kr_at (j : Fin 8192) : (V3 m ρ c main_v30 : IVec S1x8192 32) (ix2 (0 : Fin 1) j)
    = dstA m c (ix1 j) * 32768#32 + srcA m c (ix1 j) := by
  rw [V3_v30]
  exact (Cert.Bridge.ker_keyRow_apply _ j).trans (Cert.Bridge.ker_key_val (dstA m c) (srcA m c) j)

/-- THE RESULT. Under the precondition (the node indices in range), what the second launch's write-backs leave in the
    result array is the reference's function of the argument arrays. -/
theorem result_eq [Cert.Pre_finite_inputs.Facts]
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) = (fun _ => 1#1)) :
    (dat1 (F := Ideal) (V3 m ρ) c).arrAt 8 cfg1.N
      = Cert.Bridge.refFull (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  obtain ⟨hs, hd⟩ := Cert.Bridge.range hpre
  refine Cert.Bridge.kernel_eq_refFull _ _ _ _ _ _ (srcA m c) (dstA m c) hs hd
    (V1 m ρ c main_v6) (x6_eq m ρ c)
    (V1 m ρ c main_v7) (V1_v7 m ρ c)
    (V1 m ρ c main_v8) (V1_v8 m ρ c)
    (V1 m ρ c main_v9) (V1_v9 m ρ c)
    (V3 m ρ c main_v21) (V3_v21 m ρ c)
    (V3 m ρ c main_v22) (V3_v22 m ρ c)
    (V3 m ρ c main_v31) (V3_v31 m ρ c)
    ((dat0 (F := Ideal) (V1 m ρ) c).arrAt 5 cfg0.N) (fun r col => (es_at m ρ c r col).trans (denseAt_def ..))
    (V3 m ρ c main_v20) (mg_eq m ρ c)
    (V3 m ρ c main_v26) (V3 m ρ c main_v30) (kc_at m ρ c) (kr_at m ρ c)
    0 rfl
    (fun r k s => tileSum (V3 m ρ c main_v26) (V3 m ρ c main_v30) ((dat0 (F := Ideal) (V1 m ρ) c).arrAt 5 cfg0.N) r k s)
    (fun _ _ _ => rfl)
    _ (fun r col => ?_)
  rw [final1_at, outAt_def, V3_v10]

end Cert.KernelIdeal.Hand

end
-- ==== Proof.lean ====
/-
  The certificate of the edge-update kernel against its reference.

  The program computes, for each of 8192 edges e with source s(e) and destination d(e) (node indices below 20000):
  the edge state es(e) = [x(s(e)), f(e)] · W_init + b_init, where x is the node-feature table and f the edge features;
  the message msg(e) = A(s(e)) − R(e), where A(n) is the sum of es over the edges whose destination is n and R(e) the sum of
  es over the REVERSE edges of e (those e' with s(e') = d(e) and d(e') = s(e)); and the result [es(e), msg(e)] · W_upd + b_upd.
  The kernel splits each concatenated product into the sum of two products with the two row blocks of the weights, tests
  "e' is a reverse edge of e" by comparing ONE packed word per edge, s·32768 + d against d'·32768 + s' (the same test as
  comparing the pairs exactly when the indices are in the node range: the precondition), and accumulates R over four
  tiles of 2048 candidate edges from zero. On the extended reals these are regroupings of finite sums and the same mask,
  so the two programs agree with no finiteness needed; both apply the same gather and scatter-add on the host.

  Frames: the kernel program's run (Proof/KIRun.lean at the idealized program, Proof/KRun.lean at the word-level one)
  follows @main item by item; the reference is host operations only. The idealization rewrote nothing, so the
  preservation claim is empty.
-/
import proofs.«175327_j12429635354789_2_alg».proof.Defs
import proofs.«175327_j12429635354789_2_alg».proof.Proof.Gen.Kernel
import proofs.«175327_j12429635354789_2_alg».proof.Proof.Gen.KernelIdeal
import proofs.«175327_j12429635354789_2_alg».proof.Proof.Gen.ReferenceIdeal
import proofs.«175327_j12429635354789_2_alg».proof.Proof.Gen.ReferenceIdeal.Run
import proofs.«175327_j12429635354789_2_alg».proof.Proof.Gen.ReferenceIdeal.Read
import proofs.«175327_j12429635354789_2_alg».proof.Proof.Gen.Pre_finite_inputs
import proofs.«175327_j12429635354789_2_alg».proof.Proof.KRegion1Iface
import proofs.«175327_j12429635354789_2_alg».proof.Proof.KIAlg
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2)
    (Cert.Kernel.Hand.run (F := Bits) m ρ Cert.Kernel.Hand.iface1)

/-- The idealized program runs and leaves its arguments as launched. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2)
    (Cert.KernelIdeal.Hand.run (F := Ideal) m ρ Cert.KernelIdeal.Hand.iface1)

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

/-- From memories agreeing on the arguments, under the precondition, both programs end with the same result array:
    the kernel program's at what its second launch's write-backs leave, which is the reference's term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run (F := Ideal) m ρ Cert.KernelIdeal.Hand.iface1, ?_⟩
  refine (θ_run (Cert.ReferenceIdeal.defs (F := Ideal)) _ _).mono (fun _ h c => ⟨(h c).1.trans ?_, (h c).2⟩)
    (Cert.ReferenceIdeal.Value.run (F := Ideal) m' ρ')
  refine (Cert.Bridge.kernel_eq_res m' c _ ?_).symm
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.KernelIdeal.Hand.result_eq m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
